-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x2 : Shape := ⟨3, ![64, 2048, 2]⟩
abbrev S64x2048 : Shape := ⟨2, ![64, 2048]⟩
abbrev S128x2 : Shape := ⟨2, ![128, 2]⟩
abbrev S_ : Shape := ⟨0, ![]⟩

class Facts : Prop where
  bcast_S_S64x2048x2 : S_.BroadcastsInDim S64x2048x2 (![] : Fin 0 → Fin S64x2048x2.rank)
  reducesTo_S64x2048x2_S_d0_1_2 : S64x2048x2.ReducesTo [0, 1, 2] S_
  h_S_ : 0 < S_.numel
  bcast_S_S64x2048 : S_.BroadcastsInDim S64x2048 (![] : Fin 0 → Fin S64x2048.rank)
  reducesTo_S64x2048_S_d0_1 : S64x2048.ReducesTo [0, 1] S_
  bcast_S_S128x2 : S_.BroadcastsInDim S128x2 (![] : Fin 0 → Fin S128x2.rank)
  reducesTo_S128x2_S_d0_1 : S128x2.ReducesTo [0, 1] S_

variable [Facts]

def fn_part1 {F : FTy → Type} [FloatOps F] (main_v13 : IVec S_ 1) (main_v16 : IVec S128x2 1) : IVec S_ 1 :=
  let main_c_5 : IVec S_ 1 := constantI S_ 1 1#1
  let main_v17 : IVec S_ 1 := (fun x v => Host.reduce IntOp.andi x v reducesTo_S128x2_S_d0_1 h_S_) main_v16 main_c_5
  let main_v18 : IVec S_ 1 := andi main_v13 main_v17
  main_v18

def fn {F : FTy → Type} [FloatOps F] (main_arg0 : FVec F S64x2048x2 .f32) (main_arg1 : FVec F S64x2048 .f32) (main_arg2 : FVec F S128x2 .f32) (main_arg3 : FVec F S128x2 .f32) : IVec S_ 1 :=
  let main_v0 : FVec F S64x2048x2 .f32 := Host.absf main_arg0
  let main_cst : FVec F S_ .f32 := constant S_ .f32 0x7F800000#32
  let main_v1 : FVec F S64x2048x2 .f32 := broadcastInDim S64x2048x2 ![] bcast_S_S64x2048x2 main_cst
  let main_v2 : IVec S64x2048x2 1 := cmpf .olt main_v0 main_v1
  let main_c : IVec S_ 1 := constantI S_ 1 1#1
  let main_v3 : IVec S_ 1 := (fun x v => Host.reduce IntOp.andi x v reducesTo_S64x2048x2_S_d0_1_2 h_S_) main_v2 main_c
  let main_v4 : FVec F S64x2048 .f32 := Host.absf main_arg1
  let main_cst_0 : FVec F S_ .f32 := constant S_ .f32 0x7F800000#32
  let main_v5 : FVec F S64x2048 .f32 := broadcastInDim S64x2048 ![] bcast_S_S64x2048 main_cst_0
  let main_v6 : IVec S64x2048 1 := cmpf .olt main_v4 main_v5
  let main_c_1 : IVec S_ 1 := constantI S_ 1 1#1
  let main_v7 : IVec S_ 1 := (fun x v => Host.reduce IntOp.andi x v reducesTo_S64x2048_S_d0_1 h_S_) main_v6 main_c_1
  let main_v8 : IVec S_ 1 := andi main_v3 main_v7
  let main_v9 : FVec F S128x2 .f32 := Host.absf main_arg2
  let main_cst_2 : FVec F S_ .f32 := constant S_ .f32 0x7F800000#32
  let main_v10 : FVec F S128x2 .f32 := broadcastInDim S128x2 ![] bcast_S_S128x2 main_cst_2
  let main_v11 : IVec S128x2 1 := cmpf .olt main_v9 main_v10
  let main_c_3 : IVec S_ 1 := constantI S_ 1 1#1
  let main_v12 : IVec S_ 1 := (fun x v => Host.reduce IntOp.andi x v reducesTo_S128x2_S_d0_1 h_S_) main_v11 main_c_3
  let main_v13 : IVec S_ 1 := andi main_v8 main_v12
  let main_v14 : FVec F S128x2 .f32 := Host.absf main_arg3
  let main_cst_4 : FVec F S_ .f32 := constant S_ .f32 0x7F800000#32
  let main_v15 : FVec F S128x2 .f32 := broadcastInDim S128x2 ![] bcast_S_S128x2 main_cst_4
  let main_v16 : IVec S128x2 1 := cmpf .olt main_v14 main_v15
  fn_part1 (F := F) main_v13 main_v16
-- ==== Kernel.lean ====
abbrev S64x2048x2 : Shape := ⟨3, ![64, 2048, 2]⟩
abbrev S64x2048 : Shape := ⟨2, ![64, 2048]⟩
abbrev S128x2 : Shape := ⟨2, ![128, 2]⟩
abbrev S128x1 : Shape := ⟨2, ![128, 1]⟩
abbrev S128 : Shape := ⟨1, ![128]⟩
abbrev S_ : Shape := ⟨0, ![]⟩
abbrev S1x128 : Shape := ⟨2, ![1, 128]⟩
abbrev S8x128 : Shape := ⟨2, ![8, 128]⟩
abbrev S64x2048x1 : Shape := ⟨3, ![64, 2048, 1]⟩
abbrev S64x2048x8 : Shape := ⟨3, ![64, 2048, 8]⟩
abbrev S64x128 : Shape := ⟨2, ![64, 128]⟩
abbrev S32x128x8 : Shape := ⟨3, ![32, 128, 8]⟩
abbrev S32x128 : Shape := ⟨2, ![32, 128]⟩
abbrev S4096x8 : Shape := ⟨2, ![4096, 8]⟩
abbrev S4096x128 : Shape := ⟨2, ![4096, 128]⟩
abbrev S32x128x128 : Shape := ⟨3, ![32, 128, 128]⟩
abbrev S32x128x1 : Shape := ⟨3, ![32, 128, 1]⟩

abbrev nBuf : Space → Nat
  | .hbm => 59
  | .vmem => 8
  | .smem => 0
  | _ => 0

abbrev bufTy : (tb : Table) → Fin (tcTables nBuf tb) → BufTy
  | .hbm, ⟨0, _⟩ => ⟨S64x2048x2, .f32⟩
  | .hbm, ⟨1, _⟩ => ⟨S64x2048, .f32⟩
  | .hbm, ⟨2, _⟩ => ⟨S128x2, .f32⟩
  | .hbm, ⟨3, _⟩ => ⟨S128x2, .f32⟩
  | .hbm, ⟨4, _⟩ => ⟨S128x1, .f32⟩
  | .hbm, ⟨5, _⟩ => ⟨S128, .f32⟩
  | .hbm, ⟨6, _⟩ => ⟨S128x1, .f32⟩
  | .hbm, ⟨7, _⟩ => ⟨S128, .f32⟩
  | .hbm, ⟨8, _⟩ => ⟨S128x1, .f32⟩
  | .hbm, ⟨9, _⟩ => ⟨S128, .f32⟩
  | .hbm, ⟨10, _⟩ => ⟨S128x1, .f32⟩
  | .hbm, ⟨11, _⟩ => ⟨S128, .f32⟩
  | .hbm, ⟨12, _⟩ => ⟨S_, .f32⟩
  | .hbm, ⟨13, _⟩ => ⟨S128, .f32⟩
  | .hbm, ⟨14, _⟩ => ⟨S_, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S_, .f32⟩
  | .hbm, ⟨19, _⟩ => ⟨S128, .f32⟩
  | .hbm, ⟨20, _⟩ => ⟨S128, .f32⟩
  | .hbm, ⟨21, _⟩ => ⟨S128, .f32⟩
  | .hbm, ⟨22, _⟩ => ⟨S128, .f32⟩
  | .hbm, ⟨23, _⟩ => ⟨S128, .f32⟩
  | .hbm, ⟨24, _⟩ => ⟨S128, .f32⟩
  | .hbm, ⟨25, _⟩ => ⟨S128, .f32⟩
  | .hbm, ⟨26, _⟩ => ⟨S128, .f32⟩
  | .hbm, ⟨27, _⟩ => ⟨S128, .f32⟩
  | .hbm, ⟨28, _⟩ => ⟨S128, .f32⟩
  | .hbm, ⟨29, _⟩ => ⟨S128, .f32⟩
  | .hbm, ⟨30, _⟩ => ⟨S1x128, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S1x128, .f32⟩
  | .hbm, ⟨35, _⟩ => ⟨S1x128, .f32⟩
  | .hbm, ⟨36, _⟩ => ⟨S1x128, .f32⟩
  | .hbm, ⟨37, _⟩ => ⟨S1x128, .f32⟩
  | .hbm, ⟨38, _⟩ => ⟨S8x128, .f32⟩
  | .hbm, ⟨39, _⟩ => ⟨S64x2048x1, .f32⟩
  | .hbm, ⟨40, _⟩ => ⟨S64x2048, .f32⟩
  | .hbm, ⟨41, _⟩ => ⟨S64x2048x1, .f32⟩
  | .hbm, ⟨42, _⟩ => ⟨S64x2048, .f32⟩
  | .hbm, ⟨43, _⟩ => ⟨S_, .f32⟩
  | .hbm, ⟨44, _⟩ => ⟨S64x2048, .f32⟩
  | .hbm, ⟨45, _⟩ => ⟨S_, .f32⟩
  | .hbm, ⟨46, _⟩ => ⟨S64x2048, .f32⟩
  | .hbm, ⟨47, _⟩ => ⟨S64x2048, .f32⟩
  | .hbm, ⟨48, _⟩ => ⟨S64x2048, .f32⟩
  | .hbm, ⟨49, _⟩ => ⟨S64x2048x1, .f32⟩
  | .hbm, ⟨50, _⟩ => ⟨S64x2048x1, .f32⟩
  | .hbm, ⟨51, _⟩ => ⟨S64x2048x1, .f32⟩
  | .hbm, ⟨52, _⟩ => ⟨S64x2048x1, .f32⟩
  | .hbm, ⟨53, _⟩ => ⟨S64x2048x1, .f32⟩
  | .hbm, ⟨54, _⟩ => ⟨S64x2048x1, .f32⟩
  | .hbm, ⟨55, _⟩ => ⟨S64x2048x1, .f32⟩
  | .hbm, ⟨56, _⟩ => ⟨S64x2048x1, .f32⟩
  | .hbm, ⟨57, _⟩ => ⟨S64x2048x8, .f32⟩
  | .hbm, ⟨58, _⟩ => ⟨S64x128, .f32⟩
  | .local _ .vmem, ⟨0, _⟩ => ⟨S32x128x8, .f32⟩
  | .local _ .vmem, ⟨1, _⟩ => ⟨S32x128x8, .f32⟩
  | .local _ .vmem, ⟨2, _⟩ => ⟨S32x128, .f32⟩
  | .local _ .vmem, ⟨3, _⟩ => ⟨S32x128, .f32⟩
  | .local _ .vmem, ⟨4, _⟩ => ⟨S8x128, .f32⟩
  | .local _ .vmem, ⟨5, _⟩ => ⟨S32x128, .f32⟩
  | .local _ .vmem, ⟨6, _⟩ => ⟨S32x128, .f32⟩
  | .local _ .vmem, ⟨7, _⟩ => ⟨S32x128, .f32⟩
  | _, _ => ⟨S64x2048x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst_2 : Ref sig .tc := ⟨.hbm, 43, rfl⟩
abbrev main_v36 : Ref sig .tc := ⟨.hbm, 44, rfl⟩
abbrev main_cst_3 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v21 : BitVec 1 := Scalar.cmpi .eq arg1 c15_i32
  let v22 : BitVec 32 := Scalar.extui v21
  let c0_i32_12 : BitVec 32 := 0#32
  let v23 : BitVec 1 := Scalar.cmpi .ne v22 c0_i32_12
  v23

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S32x128x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  slices_S128x2_S128x1_0_0 : S128x2.Slices ![0, 0] S128x1
  shapeCasts_S128x1_S128 : S128x1.ShapeCasts S128
  slices_S128x2_S128x1_0_1 : S128x2.Slices ![0, 1] S128x1
  bcast_S_S128 : S_.BroadcastsInDim S128 (![] : Fin 0 → Fin S128.rank)
  bcast_S128_S1x128_1 : S128.BroadcastsInDim S1x128 (![1] : Fin 1 → Fin S1x128.rank)
  concatenates_S1x128_S1x128_S1x128_S1x128_S1x128_S1x128_S1x128_S1x128_S8x128_d0 : Shape.Concatenates [S1x128, S1x128, S1x128, S1x128, S1x128, S1x128, S1x128, S1x128] S8x128 0
  slices_S64x2048x2_S64x2048x1_0_0_0 : S64x2048x2.Slices ![0, 0, 0] S64x2048x1
  shapeCasts_S64x2048x1_S64x2048 : S64x2048x1.ShapeCasts S64x2048
  slices_S64x2048x2_S64x2048x1_0_0_1 : S64x2048x2.Slices ![0, 0, 1] S64x2048x1
  bcast_S_S64x2048 : S_.BroadcastsInDim S64x2048 (![] : Fin 0 → Fin S64x2048.rank)
  bcast_S64x2048_S64x2048x1_0_1 : S64x2048.BroadcastsInDim S64x2048x1 (![0, 1] : Fin 2 → Fin S64x2048x1.rank)
  concatenates_S64x2048x1_S64x2048x1_S64x2048x1_S64x2048x1_S64x2048x1_S64x2048x1_S64x2048x1_S64x2048x1_S64x2048x8_d2 : Shape.Concatenates [S64x2048x1, S64x2048x1, S64x2048x1, S64x2048x1, S64x2048x1, S64x2048x1, S64x2048x1, S64x2048x1] S64x2048x8 2
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S32x128x8_S32x128x8_0_0_0 : ∀ a, (![0, 0, 0] : Fin 3 → Nat) a + S32x128x8.size a ≤ S32x128x8.size a
  h_S32x128x8 : 0 < S32x128x8.numel
  shapeCasts_S32x128x8_S32x128x8 : S32x128x8.ShapeCasts S32x128x8
  shapeCasts_S32x128x8_S4096x8 : S32x128x8.ShapeCasts S4096x8
  inb_S8x128_S8x128_0_0 : ∀ a, (![0, 0] : Fin 2 → Nat) a + S8x128.size a ≤ S8x128.size a
  h_S8x128 : 0 < S8x128.numel
  shapeCasts_S8x128_S8x128 : S8x128.ShapeCasts S8x128
  shapeCasts_S4096x128_S32x128x128 : S4096x128.ShapeCasts S32x128x128
  shapeCasts_S32x128_S32x128x1 : S32x128.ShapeCasts S32x128x1
  broadcasts_S32x128x1_S32x128x128 : S32x128x1.Broadcasts S32x128x128
  reduces_S32x128x128_S32x128 : S32x128x128.Reduces [1] S32x128
  dot_S4096x8_S8x128_S4096x128_1_0_0_1_n_n_wf : DotDims.WF S4096x8 S8x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x128x8.size a ≤ S64x2048x8.size a
  hwx0_0 : ∀ i : grid0.Coords, EltTy.bits .f32 = 32 ∨ (Rect.block (s := S64x2048x8) S32x128x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S64x2048.size a
  hwx0_1 : ∀ i : grid0.Coords, EltTy.bits .f32 = 32 ∨ (Rect.block (s := S64x2048) S32x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S8x128.size a
  hwx0_2 : ∀ i : grid0.Coords, EltTy.bits .f32 = 32 ∨ (Rect.block (s := S8x128) S8x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x128.size a ≤ S64x128.size a
  hwx0_3 : ∀ i : grid0.Coords, EltTy.bits .f32 = 32 ∨ (Rect.block (s := S64x128) S32x128.size (cc0_transform_3 i) (hinb0_3 i)).WholeWords (EltTy.packing .f32)

variable [Facts₀]

def dot_S4096x8_S8x128_S4096x128_1_0_0_1_n_n : DotDims S4096x8 S8x128 S4096x128 where
  lhsContracting := [1]
  rhsContracting := [0]
  lhsNonContracting := [0]
  rhsNonContracting := [1]
  lhsBatch := []
  rhsBatch := []
  wf := dot_S4096x8_S8x128_S4096x128_1_0_0_1_n_n_wf

abbrev win0_0 : Pipeline.Window sig grid0 :=
  Pipeline.Window.ofSpec (Memref.whole main_v48) S32x128x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v31) S8x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v49) S32x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S64x2048x2 : Shape := ⟨3, ![64, 2048, 2]⟩
abbrev S64x2048 : Shape := ⟨2, ![64, 2048]⟩
abbrev S128x2 : Shape := ⟨2, ![128, 2]⟩
abbrev S1x128x1x2 : Shape := ⟨4, ![1, 128, 1, 2]⟩
abbrev S64x1x2048x2 : Shape := ⟨4, ![64, 1, 2048, 2]⟩
abbrev S64x128x2048x2 : Shape := ⟨4, ![64, 128, 2048, 2]⟩
abbrev S_ : Shape := ⟨0, ![]⟩
abbrev S64x128x2048 : Shape := ⟨3, ![64, 128, 2048]⟩
abbrev S64x1x2048 : Shape := ⟨3, ![64, 1, 2048]⟩
abbrev S64x128 : Shape := ⟨2, ![64, 128]⟩

abbrev nBuf : Space → Nat
  | .hbm => 22
  | .vmem => 0
  | .smem => 0
  | _ => 0

abbrev bufTy : (tb : Table) → Fin (tcTables nBuf tb) → BufTy
  | .hbm, ⟨0, _⟩ => ⟨S64x2048x2, .f32⟩
  | .hbm, ⟨1, _⟩ => ⟨S64x2048, .f32⟩
  | .hbm, ⟨2, _⟩ => ⟨S128x2, .f32⟩
  | .hbm, ⟨3, _⟩ => ⟨S128x2, .f32⟩
  | .hbm, ⟨4, _⟩ => ⟨S1x128x1x2, .f32⟩
  | .hbm, ⟨5, _⟩ => ⟨S64x1x2048x2, .f32⟩
  | .hbm, ⟨6, _⟩ => ⟨S64x128x2048x2, .f32⟩
  | .hbm, ⟨7, _⟩ => ⟨S64x128x2048x2, .f32⟩
  | .hbm, ⟨8, _⟩ => ⟨S64x128x2048x2, .f32⟩
  | .hbm, ⟨9, _⟩ => ⟨S1x128x1x2, .f32⟩
  | .hbm, ⟨10, _⟩ => ⟨S64x128x2048x2, .f32⟩
  | .hbm, ⟨11, _⟩ => ⟨S64x128x2048x2, .f32⟩
  | .hbm, ⟨12, _⟩ => ⟨S64x128x2048x2, .f32⟩
  | .hbm, ⟨13, _⟩ => ⟨S_, .f32⟩
  | .hbm, ⟨14, _⟩ => ⟨S64x128x2048, .f32⟩
  | .hbm, ⟨15, _⟩ => ⟨S64x128x2048, .f32⟩
  | .hbm, ⟨16, _⟩ => ⟨S64x128x2048, .f32⟩
  | .hbm, ⟨17, _⟩ => ⟨S64x1x2048, .f32⟩
  | .hbm, ⟨18, _⟩ => ⟨S64x128x2048, .f32⟩
  | .hbm, ⟨19, _⟩ => ⟨S64x128x2048, .f32⟩
  | .hbm, ⟨20, _⟩ => ⟨S_, .f32⟩
  | .hbm, ⟨21, _⟩ => ⟨S64x128, .f32⟩
  | _, _ => ⟨S64x2048x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  bcast_S128x2_S1x128x1x2_1_3 : S128x2.BroadcastsInDim S1x128x1x2 (![1, 3] : Fin 2 → Fin S1x128x1x2.rank)
  bcast_S64x2048x2_S64x1x2048x2_0_2_3 : S64x2048x2.BroadcastsInDim S64x1x2048x2 (![0, 2, 3] : Fin 3 → Fin S64x1x2048x2.rank)
  bcast_S1x128x1x2_S64x128x2048x2_0_1_2_3 : S1x128x1x2.BroadcastsInDim S64x128x2048x2 (![0, 1, 2, 3] : Fin 4 → Fin S64x128x2048x2.rank)
  bcast_S64x1x2048x2_S64x128x2048x2_0_1_2_3 : S64x1x2048x2.BroadcastsInDim S64x128x2048x2 (![0, 1, 2, 3] : Fin 4 → Fin S64x128x2048x2.rank)
  reducesTo_S64x128x2048x2_S64x128x2048_d3 : S64x128x2048x2.ReducesTo [3] S64x128x2048
  h_S_ : 0 < S_.numel
  bcast_S64x2048_S64x1x2048_0_2 : S64x2048.BroadcastsInDim S64x1x2048 (![0, 2] : Fin 2 → Fin S64x1x2048.rank)
  bcast_S64x1x2048_S64x128x2048_0_1_2 : S64x1x2048.BroadcastsInDim S64x128x2048 (![0, 1, 2] : Fin 3 → Fin S64x128x2048.rank)
  reducesTo_S64x128x2048_S64x128_d2 : S64x128x2048.ReducesTo [2] S64x128

variable [Facts₀]

class Facts : Prop extends Facts₀ where

variable [Facts]
-- ==== Proof.WordFrame.Kit.lean ====
/-
  What the runs of the pooling kernel's body share. @main is fifty-four host lines — slices, reshapes, products
  and two eight-way concatenations that lay out, per point, the features (x₀, x₁, x₀², x₁², 1, 0, 0, 0) and, per
  centre, the matching weights — followed by ONE call over a 2 × 16 grid: axis 0 walks two blocks of 32 batch
  entries, axis 1 sixteen blocks of 128 points. The body keeps a running sum in a scratch block [32, 128]:
  at the first point block of a batch block (j = 0) it zeroes the scratch, at every point block it adds that
  block's contribution, and at the last one (j = 15) it copies the scratch into the output block. So a point of
  the grid is in one of three cases by its position t: t % 16 = 0, 0 < t % 16 < 15, t % 16 = 15.

  Here: the contents of the buffers when the call is entered (after the host lines), that no host line writes an
  argument, each window's block at a point, the two branch conditions in closed form, where the output window is
  idle and where it is written back, and the memrefs the body is called with.
-/
import proofs.«165950_j2362232012851_2_alg».proof.Proof.Gen.Kernel.Launch
import proofs.«165950_j2362232012851_2_alg».proof.Proof.Gen.Kernel.Skeleton
import proofs.«165950_j2362232012851_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the call -/

/-- Core `c`'s buffers when the call is entered: the launch contents after the host lines. -/
abbrev V (c : Dev nD) (b : Ref sig .tc) : Buf (Elt F) ((c : Thread nD τ).loc b) := StableHlo.after hostOps0 (fun b => m (c, b)) b

/-- No host line allocates. -/
theorem hostOps0_fresh : (hostOps0 : List (HloOp τ sig (Elt F))).Forall fun op => op.fresh = ∅ := by
  simp only [List.Forall]; repeat' constructor

/-- @main up to the call: the host lines, then the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host line before the call writes argument 0: the call finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- No host line before the call writes argument 1: the call finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- No host line before the call writes argument 2: the call finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- No host line before the call writes argument 3: the call finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-! ## The windows' blocks -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is the call-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof
    data whose array is the call-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof
    data whose array is the call-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- The argument arrays end unchanged, from any frame run whose proof data starts at the call-entry contents: the
    masks are a staged input (its array ends as it began), the other three arguments are staged by no window
    (every such buffer ends as the call found it), and no host line wrote any of the four. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
      ((h c).2 main_arg0 (Pipeline.mem_restRefs_of main_arg0 (by decide) (by decide))).trans (V_main_arg0 m c),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-! ## The body's two branch conditions -/

/-- The first branch (zero the scratch) is taken when the point-block coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- The second branch (copy the scratch out) is taken when the point-block coordinate is 15. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Where the second branch is not taken the body stores nothing into the output block: the window is idle, -/
theorem idleAt0_3 : ∀ t : Fin cfg0.N, ¬cond0_1 (grid0.coords t) → cfg0.idle 3 (grid0.coords t) = true := by decide +kernel
/-- and the block is not written back there; -/
theorem noFlush0_3 : ∀ t : Fin cfg0.N, ¬cond0_1 (grid0.coords t) → (cfg0.win 3).flush t = false := by decide +kernel
/-- where it is taken the window is live. -/
theorem liveAt0_3 : ∀ t : Fin cfg0.N, cond0_1 (grid0.coords t) → cfg0.idle 3 (grid0.coords t) = false := by decide +kernel

/-! ## The memrefs the body is called with -/

/-- One staging buffer of the output window, through which its contents are stated. -/
abbrev VO0_3 : View sig .tc .vmem S32x128 .f32 := (Memref.whole cc0_stg3_0 : Memref sig .tc .vmem S32x128 .f32).view
abbrev ms0_0 (t : Fin cfg0.N) : Memref sig .tc .vmem S32x128x8 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S32x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S32x128 .f32 := win0_3.stage (cfg0.slots t 3)
abbrev hs0_3 (t : Fin cfg0.N) : (ms0_3 t).IsWhole := hstage0_3 ((cfg0.slots t 3).cast nbuf0_3)
/-- The scratch block the running sum lives in, and the view its contents are stated through. -/
abbrev scM0_0 : Memref sig .tc .vmem S32x128 .f32 := Memref.whole cc0_scratch0
abbrev VS0_0 : View sig .tc .vmem S32x128 .f32 := scM0_0.view

/-- The call's invariant with the scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Frame

end
-- ==== Proof.WordFrame.RunA.lean ====
/-
  The body at the FIRST point block of a batch block (j = 0): the scratch, holding anything, is zeroed, then the
  block's contribution is added to it; nothing is stored into the output block, which is handed back untouched.
-/
import proofs.«165950_j2362232012851_2_alg».proof.Proof.WordFrame.Kit

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body on whole memrefs in this case: what its stores leave, as pieces (last first), with the proof that it
    runs to the continuation holding the inputs as they were, the scratch with its pieces written, and the output
    block as the case leaves it. -/
noncomputable def kernelRun0_A (c : Dev nD) (i : grid0.Coords) (arg2 : Memref sig .tc .vmem S32x128x8 .f32) (harg2 : arg2.IsWhole) (arg3 : Memref sig .tc .vmem S32x128 .f32) (harg3 : arg3.IsWhole) (arg4 : Memref sig .tc .vmem S8x128 .f32) (harg4 : arg4.IsWhole) (arg5 : Memref sig .tc .vmem S32x128 .f32) (harg5 : arg5.IsWhole) (arg6 : Memref sig .tc .vmem S32x128 .f32) (harg6 : arg6.IsWhole) (hc0 : cond0_0 i) (hc1 : ¬cond0_1 i)
    (x0 : Vec F S32x128x8 .f32) (x1 : Vec F S32x128 .f32) (x2 : Vec F S8x128 .f32) :
    Σ' (L3 : List (View.Piece (Elt F) S32x128 .f32)), { LS0 : List (View.Piece (Elt F) S32x128 .f32) //
      ∀ (xi3 : Vec F S32x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__rbf_pool_kernel i arg2 harg2 arg3 harg3 arg4 harg4 arg5 harg5 arg6 harg6) K } := by
  refine ⟨[], ?_, fun xi3 E K => ?run⟩
  case run =>
    simp only [cc0__rbf_pool_kernel_eq_skeleton]; unfold cc0__rbf_pool_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Frame

end
-- ==== Proof.WordFrame.RunB.lean ====
/-
  The body at a MIDDLE point block (0 < j < 15): the block's contribution is added to the scratch, which holds what
  the point before left; nothing is stored into the output block, which is handed back untouched.
-/
import proofs.«165950_j2362232012851_2_alg».proof.Proof.WordFrame.RunA

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body on whole memrefs in this case: what its stores leave, as pieces (last first), with the proof that it
    runs to the continuation holding the inputs as they were, the scratch with its pieces written, and the output
    block as the case leaves it. -/
noncomputable def kernelRun0_B (c : Dev nD) (i : grid0.Coords) (arg2 : Memref sig .tc .vmem S32x128x8 .f32) (harg2 : arg2.IsWhole) (arg3 : Memref sig .tc .vmem S32x128 .f32) (harg3 : arg3.IsWhole) (arg4 : Memref sig .tc .vmem S8x128 .f32) (harg4 : arg4.IsWhole) (arg5 : Memref sig .tc .vmem S32x128 .f32) (harg5 : arg5.IsWhole) (arg6 : Memref sig .tc .vmem S32x128 .f32) (harg6 : arg6.IsWhole) (hc0 : ¬cond0_0 i) (hc1 : ¬cond0_1 i)
    (x0 : Vec F S32x128x8 .f32) (x1 : Vec F S32x128 .f32) (x2 : Vec F S8x128 .f32) (xs0 : Vec F S32x128 .f32) :
    Σ' (L3 : List (View.Piece (Elt F) S32x128 .f32)), { LS0 : List (View.Piece (Elt F) S32x128 .f32) //
      ∀ (xi3 : Vec F S32x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__rbf_pool_kernel i arg2 harg2 arg3 harg3 arg4 harg4 arg5 harg5 arg6 harg6) K } := by
  refine ⟨[], ?_, fun xi3 E K => ?run⟩
  case run =>
    simp only [cc0__rbf_pool_kernel_eq_skeleton]; unfold cc0__rbf_pool_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Frame

end
-- ==== Proof.WordFrame.RunC.lean ====
/-
  The body at the LAST point block (j = 15): the block's contribution is added to the scratch, which holds what the
  point before left, and the scratch is then copied into the output block, whatever that held.
-/
import proofs.«165950_j2362232012851_2_alg».proof.Proof.WordFrame.RunB

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body on whole memrefs in this case: what its stores leave, as pieces (last first), with the proof that it
    runs to the continuation holding the inputs as they were, the scratch with its pieces written, and the output
    block as the case leaves it. -/
noncomputable def kernelRun0_C (c : Dev nD) (i : grid0.Coords) (arg2 : Memref sig .tc .vmem S32x128x8 .f32) (harg2 : arg2.IsWhole) (arg3 : Memref sig .tc .vmem S32x128 .f32) (harg3 : arg3.IsWhole) (arg4 : Memref sig .tc .vmem S8x128 .f32) (harg4 : arg4.IsWhole) (arg5 : Memref sig .tc .vmem S32x128 .f32) (harg5 : arg5.IsWhole) (arg6 : Memref sig .tc .vmem S32x128 .f32) (harg6 : arg6.IsWhole) (hc0 : ¬cond0_0 i) (hc1 : cond0_1 i)
    (x0 : Vec F S32x128x8 .f32) (x1 : Vec F S32x128 .f32) (x2 : Vec F S8x128 .f32) (xs0 : Vec F S32x128 .f32) :
    Σ' (L3 : List (View.Piece (Elt F) S32x128 .f32)), { LS0 : List (View.Piece (Elt F) S32x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__rbf_pool_kernel i arg2 harg2 arg3 harg3 arg4 harg4 arg5 harg5 arg6 harg6) K } := by
  refine ⟨?_, ?_, fun E K => ?run⟩
  case run =>
    simp only [cc0__rbf_pool_kernel_eq_skeleton]; unfold cc0__rbf_pool_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Frame

end
-- ==== Proof.WordFrame.Data.lean ====
/-
  The body's obligation at every point of the grid, and the frame run.

  After position n the scratch holds a definite block — zero plus the contributions of the point blocks of the
  current batch block up to n — and the output's staging block holds the scratch's copy at the positions with
  n % 16 = 15, where it is written back. `outsAt0` states both point by point: at a position with n % 16 = 0 what
  the first case leaves from a scratch holding anything, elsewhere what the middle or last case leaves from what the
  position before left. The call's invariant tracks the scratch at that block between points; the output window is
  idle, and not written back, except at the last point block of a batch block.
-/
import proofs.«165950_j2362232012851_2_alg».proof.Proof.WordFrame.RunC

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A placeholder for the output's staging block where the body stores nothing into it: nothing consults it, the
    window being idle and not written back there. -/
def idleOut : Vec F S32x128 .f32 := VO0_3.read (Elt F) VO0_3.junk

/-- In this case the pieces stored into the scratch tile it, so they cover it. -/
theorem scover0_A_0 (c : Dev nD) (i : grid0.Coords) (arg2 : Memref sig .tc .vmem S32x128x8 .f32) (harg2 : arg2.IsWhole) (arg3 : Memref sig .tc .vmem S32x128 .f32) (harg3 : arg3.IsWhole) (arg4 : Memref sig .tc .vmem S8x128 .f32) (harg4 : arg4.IsWhole) (arg5 : Memref sig .tc .vmem S32x128 .f32) (harg5 : arg5.IsWhole) (arg6 : Memref sig .tc .vmem S32x128 .f32) (harg6 : arg6.IsWhole) (hc0 : cond0_0 i) (hc1 : ¬cond0_1 i)
    (x0 : Vec F S32x128x8 .f32) (x1 : Vec F S32x128 .f32) (x2 : Vec F S8x128 .f32) (y : S32x128.Idx) :
    ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S32x128.size (by sl_kernel_rfl) y

/-- What the case leaves in the scratch: its pieces read back. -/
def sout0_A_0 (c : Dev nD) (i : grid0.Coords) (arg2 : Memref sig .tc .vmem S32x128x8 .f32) (harg2 : arg2.IsWhole) (arg3 : Memref sig .tc .vmem S32x128 .f32) (harg3 : arg3.IsWhole) (arg4 : Memref sig .tc .vmem S8x128 .f32) (harg4 : arg4.IsWhole) (arg5 : Memref sig .tc .vmem S32x128 .f32) (harg5 : arg5.IsWhole) (arg6 : Memref sig .tc .vmem S32x128 .f32) (harg6 : arg6.IsWhole) (hc0 : cond0_0 i) (hc1 : ¬cond0_1 i)
    (x0 : Vec F S32x128x8 .f32) (x1 : Vec F S32x128 .f32) (x2 : Vec F S8x128 .f32) : Vec F S32x128 .f32 :=
  VS0_0.read (Elt F) (VS0_0.writes (Elt F) VS0_0.junk (kernelRun0_A c i arg2 harg2 arg3 harg3 arg4 harg4 arg5 harg5 arg6 harg6 hc0 hc1 x0 x1 x2).2.1)

/-- In this case the pieces stored into the scratch tile it, so they cover it. -/
theorem scover0_B_0 (c : Dev nD) (i : grid0.Coords) (arg2 : Memref sig .tc .vmem S32x128x8 .f32) (harg2 : arg2.IsWhole) (arg3 : Memref sig .tc .vmem S32x128 .f32) (harg3 : arg3.IsWhole) (arg4 : Memref sig .tc .vmem S8x128 .f32) (harg4 : arg4.IsWhole) (arg5 : Memref sig .tc .vmem S32x128 .f32) (harg5 : arg5.IsWhole) (arg6 : Memref sig .tc .vmem S32x128 .f32) (harg6 : arg6.IsWhole) (hc0 : ¬cond0_0 i) (hc1 : ¬cond0_1 i)
    (x0 : Vec F S32x128x8 .f32) (x1 : Vec F S32x128 .f32) (x2 : Vec F S8x128 .f32) (xs0 : Vec F S32x128 .f32) (y : S32x128.Idx) :
    ∃ pc ∈ (kernelRun0_B c i arg2 harg2 arg3 harg3 arg4 harg4 arg5 harg5 arg6 harg6 hc0 hc1 x0 x1 x2 xs0).2.1, y ∈ pc.1.set :=
  View.cover_of_tiledL (kernelRun0_B c i arg2 harg2 arg3 harg3 arg4 harg4 arg5 harg5 arg6 harg6 hc0 hc1 x0 x1 x2 xs0).2.1 S32x128.size (by sl_kernel_rfl) y

/-- What the case leaves in the scratch: its pieces read back. -/
def sout0_B_0 (c : Dev nD) (i : grid0.Coords) (arg2 : Memref sig .tc .vmem S32x128x8 .f32) (harg2 : arg2.IsWhole) (arg3 : Memref sig .tc .vmem S32x128 .f32) (harg3 : arg3.IsWhole) (arg4 : Memref sig .tc .vmem S8x128 .f32) (harg4 : arg4.IsWhole) (arg5 : Memref sig .tc .vmem S32x128 .f32) (harg5 : arg5.IsWhole) (arg6 : Memref sig .tc .vmem S32x128 .f32) (harg6 : arg6.IsWhole) (hc0 : ¬cond0_0 i) (hc1 : ¬cond0_1 i)
    (x0 : Vec F S32x128x8 .f32) (x1 : Vec F S32x128 .f32) (x2 : Vec F S8x128 .f32) (xs0 : Vec F S32x128 .f32) : Vec F S32x128 .f32 :=
  VS0_0.read (Elt F) (VS0_0.writes (Elt F) VS0_0.junk (kernelRun0_B c i arg2 harg2 arg3 harg3 arg4 harg4 arg5 harg5 arg6 harg6 hc0 hc1 x0 x1 x2 xs0).2.1)

/-- At the last point block the one piece stored into the output block covers it. -/
theorem cover0_C_3 (c : Dev nD) (i : grid0.Coords) (arg2 : Memref sig .tc .vmem S32x128x8 .f32) (harg2 : arg2.IsWhole) (arg3 : Memref sig .tc .vmem S32x128 .f32) (harg3 : arg3.IsWhole) (arg4 : Memref sig .tc .vmem S8x128 .f32) (harg4 : arg4.IsWhole) (arg5 : Memref sig .tc .vmem S32x128 .f32) (harg5 : arg5.IsWhole) (arg6 : Memref sig .tc .vmem S32x128 .f32) (harg6 : arg6.IsWhole) (hc0 : ¬cond0_0 i) (hc1 : cond0_1 i)
    (x0 : Vec F S32x128x8 .f32) (x1 : Vec F S32x128 .f32) (x2 : Vec F S8x128 .f32) (xs0 : Vec F S32x128 .f32) (y : S32x128.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S32x128.size (by sl_kernel_rfl) y

/-- What the last point block leaves in the output's staging block: its piece read back. -/
def out0_C_3 (c : Dev nD) (i : grid0.Coords) (arg2 : Memref sig .tc .vmem S32x128x8 .f32) (harg2 : arg2.IsWhole) (arg3 : Memref sig .tc .vmem S32x128 .f32) (harg3 : arg3.IsWhole) (arg4 : Memref sig .tc .vmem S8x128 .f32) (harg4 : arg4.IsWhole) (arg5 : Memref sig .tc .vmem S32x128 .f32) (harg5 : arg5.IsWhole) (arg6 : Memref sig .tc .vmem S32x128 .f32) (harg6 : arg6.IsWhole) (hc0 : ¬cond0_0 i) (hc1 : cond0_1 i)
    (x0 : Vec F S32x128x8 .f32) (x1 : Vec F S32x128 .f32) (x2 : Vec F S8x128 .f32) (xs0 : Vec F S32x128 .f32) : Vec F S32x128 .f32 :=
  VO0_3.read (Elt F) (VO0_3.writes (Elt F) VO0_3.junk (kernelRun0_C c i arg2 harg2 arg3 harg3 arg4 harg4 arg5 harg5 arg6 harg6 hc0 hc1 x0 x1 x2 xs0).1)

/-- In this case the pieces stored into the scratch tile it, so they cover it. -/
theorem scover0_C_0 (c : Dev nD) (i : grid0.Coords) (arg2 : Memref sig .tc .vmem S32x128x8 .f32) (harg2 : arg2.IsWhole) (arg3 : Memref sig .tc .vmem S32x128 .f32) (harg3 : arg3.IsWhole) (arg4 : Memref sig .tc .vmem S8x128 .f32) (harg4 : arg4.IsWhole) (arg5 : Memref sig .tc .vmem S32x128 .f32) (harg5 : arg5.IsWhole) (arg6 : Memref sig .tc .vmem S32x128 .f32) (harg6 : arg6.IsWhole) (hc0 : ¬cond0_0 i) (hc1 : cond0_1 i)
    (x0 : Vec F S32x128x8 .f32) (x1 : Vec F S32x128 .f32) (x2 : Vec F S8x128 .f32) (xs0 : Vec F S32x128 .f32) (y : S32x128.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S32x128.size (by sl_kernel_rfl) y

/-- What the case leaves in the scratch: its pieces read back. -/
def sout0_C_0 (c : Dev nD) (i : grid0.Coords) (arg2 : Memref sig .tc .vmem S32x128x8 .f32) (harg2 : arg2.IsWhole) (arg3 : Memref sig .tc .vmem S32x128 .f32) (harg3 : arg3.IsWhole) (arg4 : Memref sig .tc .vmem S8x128 .f32) (harg4 : arg4.IsWhole) (arg5 : Memref sig .tc .vmem S32x128 .f32) (harg5 : arg5.IsWhole) (arg6 : Memref sig .tc .vmem S32x128 .f32) (harg6 : arg6.IsWhole) (hc0 : ¬cond0_0 i) (hc1 : cond0_1 i)
    (x0 : Vec F S32x128x8 .f32) (x1 : Vec F S32x128 .f32) (x2 : Vec F S8x128 .f32) (xs0 : Vec F S32x128 .f32) : Vec F S32x128 .f32 :=
  VS0_0.read (Elt F) (VS0_0.writes (Elt F) VS0_0.junk (kernelRun0_C c i arg2 harg2 arg3 harg3 arg4 harg4 arg5 harg5 arg6 harg6 hc0 hc1 x0 x1 x2 xs0).2.1)

/-! ## What the output block and the scratch hold after each point -/

/-- The accumulation, point by point: the output's staging block and the scratch after the body at position `n`. -/
def outsAt0 (c : Dev nD) : (n : ℕ) → n < cfg0.N → Vec F S32x128 .f32 × Vec F S32x128 .f32
  | 0, hn => (idleOut, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩))
  | n + 1, hn =>
    if h0 : (n + 1) % 16 = 0 then
      if h1 : (n + 1) % 16 = 15 then
        False.elim (by omega)
      else
        (idleOut, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩))
    else
      if h1 : (n + 1) % 16 = 15 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2,
         sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2)
      else
        (idleOut, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2)

theorem outsAt0_A (c : Dev nD) (t : Fin cfg0.N) (h0 : t.val % 16 = 0) (h1 : ¬t.val % 16 = 15) :
    outsAt0 m c t.val t.isLt = (idleOut, sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 16 = 0) (h1 : ¬t.val % 16 = 15) :
    outsAt0 m c t.val t.isLt = (idleOut, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 m c t.val t.isLt = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2,
      sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The call's invariant before position `n`: before the first point the scratch holds anything; afterwards it holds
    what the point before left. The generator register is at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The proof data -/

/-- The arrays as the call finds them; after the body at point `t` each input's staging block at its block of the
    array and the output's at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves0_0 (c : Dev nD) (t : Fin cfg0.N) :
    (dats m 0 c).leavesExact 0 t = owns (c : Thread nD τ) (ms0_0 t) fullShare (iblk m c 0 t) := by
  unfold Dat.leavesExact; rw [liveAt0_0 t, after0_0]
theorem leaves0_1 (c : Dev nD) (t : Fin cfg0.N) :
    (dats m 0 c).leavesExact 1 t = owns (c : Thread nD τ) (ms0_1 t) fullShare (iblk m c 1 t) := by
  unfold Dat.leavesExact; rw [liveAt0_1 t, after0_1]
theorem leaves0_2 (c : Dev nD) (t : Fin cfg0.N) :
    (dats m 0 c).leavesExact 2 t = owns (c : Thread nD τ) (ms0_2 t) fullShare (iblk m c 2 t) := by
  unfold Dat.leavesExact; rw [liveAt0_2 t, after0_2]

end Cert.Kernel.Frame

end
-- ==== Proof.WordFrame.Oblig.lean ====
/-
  The body obligation at every point, and from it the run of @main and the frame.

  At a point the inputs' staging blocks hold their blocks of the arrays; the position decides the case; the invariant
  hands the body the scratch (at anything before the very first point, else at what the point before left) and takes
  it back at this point's contents. Where the output window is idle its staging block is handed back as found.
-/
import proofs.«165950_j2362232012851_2_alg».proof.Proof.WordFrame.Data

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2]
  have hN : t.val < 32 := lt_of_lt_of_eq t.isLt (show cfg0.N = 32 from N_0)
  by_cases h0 : t.val % 16 = 0
  · by_cases h1 : t.val % 16 = 15
    · exfalso; omega
    · rw [Dat.leavesExact_idle (dats m 0 c) 3 t (idleAt0_3 t (fun h => h1 ((hcond0_1 t).mp h))) (noFlush0_3 t (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk m c 0 t) (iblk m c 1 t) (iblk m c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS_castSucc m c t, PhiS_pos m c _ _ hz]
        iintro ⟨⟨HS0, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk m c 0 t) (iblk m c 1 t) (iblk m c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · have hz : t.val ≠ 0 := fun hz => h0 (by rw [hz])
    by_cases h1 : t.val % 16 = 15
    · rw [show (dats m 0 c).leavesExact 3 t = owns (c : Thread nD τ) (ms0_3 t) fullShare ((dats m 0 c).after 3 t) from by
        unfold Dat.leavesExact; rw [liveAt0_3 t ((hcond0_1 t).mpr h1)], after0_3]
      rw [outsAt0_C m c t h0 h1]
      unfold out0_C_3 sout0_C_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk m c 0 t) (iblk m c 1 t) (iblk m c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _)
    · rw [Dat.leavesExact_idle (dats m 0 c) 3 t (idleAt0_3 t (fun h => h1 ((hcond0_1 t).mp h))) (noFlush0_3 t (fun h => h1 ((hcond0_1 t).mp h)))]
      rw [outsAt0_B m c t h0 h1]
      unfold sout0_B_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk m c 0 t) (iblk m c 1 t) (iblk m c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the call is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's back: the scratch's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option backward.isDefEq.respectTransparency.types false in
/-- Every weakly fair execution of @main terminates, every array of the call ends at what the proof data computes
    and every other unscoped buffer as the call found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: @main runs to the end, faults nowhere, and leaves its four argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Frame

end
-- ==== Proof.IdealFrame.Kit.lean ====
/-
  What the runs of the pooling kernel's body share. @main is fifty-four host lines — slices, reshapes, products
  and two eight-way concatenations that lay out, per point, the features (x₀, x₁, x₀², x₁², 1, 0, 0, 0) and, per
  centre, the matching weights — followed by ONE call over a 2 × 16 grid: axis 0 walks two blocks of 32 batch
  entries, axis 1 sixteen blocks of 128 points. The body keeps a running sum in a scratch block [32, 128]:
  at the first point block of a batch block (j = 0) it zeroes the scratch, at every point block it adds that
  block's contribution, and at the last one (j = 15) it copies the scratch into the output block. So a point of
  the grid is in one of three cases by its position t: t % 16 = 0, 0 < t % 16 < 15, t % 16 = 15.

  Here: the contents of the buffers when the call is entered (after the host lines), that no host line writes an
  argument, each window's block at a point, the two branch conditions in closed form, where the output window is
  idle and where it is written back, and the memrefs the body is called with.
-/
import proofs.«165950_j2362232012851_2_alg».proof.Proof.Gen.KernelIdeal.Launch
import proofs.«165950_j2362232012851_2_alg».proof.Proof.Gen.KernelIdeal.Skeleton
import proofs.«165950_j2362232012851_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the call -/

/-- Core `c`'s buffers when the call is entered: the launch contents after the host lines. -/
abbrev V (c : Dev nD) (b : Ref sig .tc) : Buf (Elt F) ((c : Thread nD τ).loc b) := StableHlo.after hostOps0 (fun b => m (c, b)) b

/-- No host line allocates. -/
theorem hostOps0_fresh : (hostOps0 : List (HloOp τ sig (Elt F))).Forall fun op => op.fresh = ∅ := by
  simp only [List.Forall]; repeat' constructor

/-- @main up to the call: the host lines, then the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host line before the call writes argument 0: the call finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- No host line before the call writes argument 1: the call finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- No host line before the call writes argument 2: the call finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- No host line before the call writes argument 3: the call finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-! ## The windows' blocks -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is the call-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof
    data whose array is the call-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof
    data whose array is the call-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- The argument arrays end unchanged, from any frame run whose proof data starts at the call-entry contents: the
    masks are a staged input (its array ends as it began), the other three arguments are staged by no window
    (every such buffer ends as the call found it), and no host line wrote any of the four. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
      ((h c).2 main_arg0 (Pipeline.mem_restRefs_of main_arg0 (by decide) (by decide))).trans (V_main_arg0 m c),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-! ## The body's two branch conditions -/

/-- The first branch (zero the scratch) is taken when the point-block coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- The second branch (copy the scratch out) is taken when the point-block coordinate is 15. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Where the second branch is not taken the body stores nothing into the output block: the window is idle, -/
theorem idleAt0_3 : ∀ t : Fin cfg0.N, ¬cond0_1 (grid0.coords t) → cfg0.idle 3 (grid0.coords t) = true := by decide +kernel
/-- and the block is not written back there; -/
theorem noFlush0_3 : ∀ t : Fin cfg0.N, ¬cond0_1 (grid0.coords t) → (cfg0.win 3).flush t = false := by decide +kernel
/-- where it is taken the window is live. -/
theorem liveAt0_3 : ∀ t : Fin cfg0.N, cond0_1 (grid0.coords t) → cfg0.idle 3 (grid0.coords t) = false := by decide +kernel

/-! ## The memrefs the body is called with -/

/-- One staging buffer of the output window, through which its contents are stated. -/
abbrev VO0_3 : View sig .tc .vmem S32x128 .f32 := (Memref.whole cc0_stg3_0 : Memref sig .tc .vmem S32x128 .f32).view
abbrev ms0_0 (t : Fin cfg0.N) : Memref sig .tc .vmem S32x128x8 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S32x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S32x128 .f32 := win0_3.stage (cfg0.slots t 3)
abbrev hs0_3 (t : Fin cfg0.N) : (ms0_3 t).IsWhole := hstage0_3 ((cfg0.slots t 3).cast nbuf0_3)
/-- The scratch block the running sum lives in, and the view its contents are stated through. -/
abbrev scM0_0 : Memref sig .tc .vmem S32x128 .f32 := Memref.whole cc0_scratch0
abbrev VS0_0 : View sig .tc .vmem S32x128 .f32 := scM0_0.view

/-- The call's invariant with the scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Frame

end
-- ==== Proof.IdealFrame.RunA.lean ====
/-
  The body at the FIRST point block of a batch block (j = 0): the scratch, holding anything, is zeroed, then the
  block's contribution is added to it; nothing is stored into the output block, which is handed back untouched.
-/
import proofs.«165950_j2362232012851_2_alg».proof.Proof.IdealFrame.Kit

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body on whole memrefs in this case: what its stores leave, as pieces (last first), with the proof that it
    runs to the continuation holding the inputs as they were, the scratch with its pieces written, and the output
    block as the case leaves it. -/
noncomputable def kernelRun0_A (c : Dev nD) (i : grid0.Coords) (arg2 : Memref sig .tc .vmem S32x128x8 .f32) (harg2 : arg2.IsWhole) (arg3 : Memref sig .tc .vmem S32x128 .f32) (harg3 : arg3.IsWhole) (arg4 : Memref sig .tc .vmem S8x128 .f32) (harg4 : arg4.IsWhole) (arg5 : Memref sig .tc .vmem S32x128 .f32) (harg5 : arg5.IsWhole) (arg6 : Memref sig .tc .vmem S32x128 .f32) (harg6 : arg6.IsWhole) (hc0 : cond0_0 i) (hc1 : ¬cond0_1 i)
    (x0 : Vec F S32x128x8 .f32) (x1 : Vec F S32x128 .f32) (x2 : Vec F S8x128 .f32) :
    Σ' (L3 : List (View.Piece (Elt F) S32x128 .f32)), { LS0 : List (View.Piece (Elt F) S32x128 .f32) //
      ∀ (xi3 : Vec F S32x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__rbf_pool_kernel i arg2 harg2 arg3 harg3 arg4 harg4 arg5 harg5 arg6 harg6) K } := by
  refine ⟨[], ?_, fun xi3 E K => ?run⟩
  case run =>
    simp only [cc0__rbf_pool_kernel_eq_skeleton]; unfold cc0__rbf_pool_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Frame

end
-- ==== Proof.IdealFrame.RunB.lean ====
/-
  The body at a MIDDLE point block (0 < j < 15): the block's contribution is added to the scratch, which holds what
  the point before left; nothing is stored into the output block, which is handed back untouched.
-/
import proofs.«165950_j2362232012851_2_alg».proof.Proof.IdealFrame.RunA

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body on whole memrefs in this case: what its stores leave, as pieces (last first), with the proof that it
    runs to the continuation holding the inputs as they were, the scratch with its pieces written, and the output
    block as the case leaves it. -/
noncomputable def kernelRun0_B (c : Dev nD) (i : grid0.Coords) (arg2 : Memref sig .tc .vmem S32x128x8 .f32) (harg2 : arg2.IsWhole) (arg3 : Memref sig .tc .vmem S32x128 .f32) (harg3 : arg3.IsWhole) (arg4 : Memref sig .tc .vmem S8x128 .f32) (harg4 : arg4.IsWhole) (arg5 : Memref sig .tc .vmem S32x128 .f32) (harg5 : arg5.IsWhole) (arg6 : Memref sig .tc .vmem S32x128 .f32) (harg6 : arg6.IsWhole) (hc0 : ¬cond0_0 i) (hc1 : ¬cond0_1 i)
    (x0 : Vec F S32x128x8 .f32) (x1 : Vec F S32x128 .f32) (x2 : Vec F S8x128 .f32) (xs0 : Vec F S32x128 .f32) :
    Σ' (L3 : List (View.Piece (Elt F) S32x128 .f32)), { LS0 : List (View.Piece (Elt F) S32x128 .f32) //
      ∀ (xi3 : Vec F S32x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__rbf_pool_kernel i arg2 harg2 arg3 harg3 arg4 harg4 arg5 harg5 arg6 harg6) K } := by
  refine ⟨[], ?_, fun xi3 E K => ?run⟩
  case run =>
    simp only [cc0__rbf_pool_kernel_eq_skeleton]; unfold cc0__rbf_pool_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Frame

end
-- ==== Proof.IdealFrame.RunC.lean ====
/-
  The body at the LAST point block (j = 15): the block's contribution is added to the scratch, which holds what the
  point before left, and the scratch is then copied into the output block, whatever that held.
-/
import proofs.«165950_j2362232012851_2_alg».proof.Proof.IdealFrame.RunB

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body on whole memrefs in this case: what its stores leave, as pieces (last first), with the proof that it
    runs to the continuation holding the inputs as they were, the scratch with its pieces written, and the output
    block as the case leaves it. -/
noncomputable def kernelRun0_C (c : Dev nD) (i : grid0.Coords) (arg2 : Memref sig .tc .vmem S32x128x8 .f32) (harg2 : arg2.IsWhole) (arg3 : Memref sig .tc .vmem S32x128 .f32) (harg3 : arg3.IsWhole) (arg4 : Memref sig .tc .vmem S8x128 .f32) (harg4 : arg4.IsWhole) (arg5 : Memref sig .tc .vmem S32x128 .f32) (harg5 : arg5.IsWhole) (arg6 : Memref sig .tc .vmem S32x128 .f32) (harg6 : arg6.IsWhole) (hc0 : ¬cond0_0 i) (hc1 : cond0_1 i)
    (x0 : Vec F S32x128x8 .f32) (x1 : Vec F S32x128 .f32) (x2 : Vec F S8x128 .f32) (xs0 : Vec F S32x128 .f32) :
    Σ' (L3 : List (View.Piece (Elt F) S32x128 .f32)), { LS0 : List (View.Piece (Elt F) S32x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__rbf_pool_kernel i arg2 harg2 arg3 harg3 arg4 harg4 arg5 harg5 arg6 harg6) K } := by
  refine ⟨?_, ?_, fun E K => ?run⟩
  case run =>
    simp only [cc0__rbf_pool_kernel_eq_skeleton]; unfold cc0__rbf_pool_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Frame

end
-- ==== Proof.IdealFrame.Data.lean ====
/-
  The body's obligation at every point of the grid, and the frame run.

  After position n the scratch holds a definite block — zero plus the contributions of the point blocks of the
  current batch block up to n — and the output's staging block holds the scratch's copy at the positions with
  n % 16 = 15, where it is written back. `outsAt0` states both point by point: at a position with n % 16 = 0 what
  the first case leaves from a scratch holding anything, elsewhere what the middle or last case leaves from what the
  position before left. The call's invariant tracks the scratch at that block between points; the output window is
  idle, and not written back, except at the last point block of a batch block.
-/
import proofs.«165950_j2362232012851_2_alg».proof.Proof.IdealFrame.RunC

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A placeholder for the output's staging block where the body stores nothing into it: nothing consults it, the
    window being idle and not written back there. -/
def idleOut : Vec F S32x128 .f32 := VO0_3.read (Elt F) VO0_3.junk

/-- In this case the pieces stored into the scratch tile it, so they cover it. -/
theorem scover0_A_0 (c : Dev nD) (i : grid0.Coords) (arg2 : Memref sig .tc .vmem S32x128x8 .f32) (harg2 : arg2.IsWhole) (arg3 : Memref sig .tc .vmem S32x128 .f32) (harg3 : arg3.IsWhole) (arg4 : Memref sig .tc .vmem S8x128 .f32) (harg4 : arg4.IsWhole) (arg5 : Memref sig .tc .vmem S32x128 .f32) (harg5 : arg5.IsWhole) (arg6 : Memref sig .tc .vmem S32x128 .f32) (harg6 : arg6.IsWhole) (hc0 : cond0_0 i) (hc1 : ¬cond0_1 i)
    (x0 : Vec F S32x128x8 .f32) (x1 : Vec F S32x128 .f32) (x2 : Vec F S8x128 .f32) (y : S32x128.Idx) :
    ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S32x128.size (by sl_kernel_rfl) y

/-- What the case leaves in the scratch: its pieces read back. -/
def sout0_A_0 (c : Dev nD) (i : grid0.Coords) (arg2 : Memref sig .tc .vmem S32x128x8 .f32) (harg2 : arg2.IsWhole) (arg3 : Memref sig .tc .vmem S32x128 .f32) (harg3 : arg3.IsWhole) (arg4 : Memref sig .tc .vmem S8x128 .f32) (harg4 : arg4.IsWhole) (arg5 : Memref sig .tc .vmem S32x128 .f32) (harg5 : arg5.IsWhole) (arg6 : Memref sig .tc .vmem S32x128 .f32) (harg6 : arg6.IsWhole) (hc0 : cond0_0 i) (hc1 : ¬cond0_1 i)
    (x0 : Vec F S32x128x8 .f32) (x1 : Vec F S32x128 .f32) (x2 : Vec F S8x128 .f32) : Vec F S32x128 .f32 :=
  VS0_0.read (Elt F) (VS0_0.writes (Elt F) VS0_0.junk (kernelRun0_A c i arg2 harg2 arg3 harg3 arg4 harg4 arg5 harg5 arg6 harg6 hc0 hc1 x0 x1 x2).2.1)

/-- In this case the pieces stored into the scratch tile it, so they cover it. -/
theorem scover0_B_0 (c : Dev nD) (i : grid0.Coords) (arg2 : Memref sig .tc .vmem S32x128x8 .f32) (harg2 : arg2.IsWhole) (arg3 : Memref sig .tc .vmem S32x128 .f32) (harg3 : arg3.IsWhole) (arg4 : Memref sig .tc .vmem S8x128 .f32) (harg4 : arg4.IsWhole) (arg5 : Memref sig .tc .vmem S32x128 .f32) (harg5 : arg5.IsWhole) (arg6 : Memref sig .tc .vmem S32x128 .f32) (harg6 : arg6.IsWhole) (hc0 : ¬cond0_0 i) (hc1 : ¬cond0_1 i)
    (x0 : Vec F S32x128x8 .f32) (x1 : Vec F S32x128 .f32) (x2 : Vec F S8x128 .f32) (xs0 : Vec F S32x128 .f32) (y : S32x128.Idx) :
    ∃ pc ∈ (kernelRun0_B c i arg2 harg2 arg3 harg3 arg4 harg4 arg5 harg5 arg6 harg6 hc0 hc1 x0 x1 x2 xs0).2.1, y ∈ pc.1.set :=
  View.cover_of_tiledL (kernelRun0_B c i arg2 harg2 arg3 harg3 arg4 harg4 arg5 harg5 arg6 harg6 hc0 hc1 x0 x1 x2 xs0).2.1 S32x128.size (by sl_kernel_rfl) y

/-- What the case leaves in the scratch: its pieces read back. -/
def sout0_B_0 (c : Dev nD) (i : grid0.Coords) (arg2 : Memref sig .tc .vmem S32x128x8 .f32) (harg2 : arg2.IsWhole) (arg3 : Memref sig .tc .vmem S32x128 .f32) (harg3 : arg3.IsWhole) (arg4 : Memref sig .tc .vmem S8x128 .f32) (harg4 : arg4.IsWhole) (arg5 : Memref sig .tc .vmem S32x128 .f32) (harg5 : arg5.IsWhole) (arg6 : Memref sig .tc .vmem S32x128 .f32) (harg6 : arg6.IsWhole) (hc0 : ¬cond0_0 i) (hc1 : ¬cond0_1 i)
    (x0 : Vec F S32x128x8 .f32) (x1 : Vec F S32x128 .f32) (x2 : Vec F S8x128 .f32) (xs0 : Vec F S32x128 .f32) : Vec F S32x128 .f32 :=
  VS0_0.read (Elt F) (VS0_0.writes (Elt F) VS0_0.junk (kernelRun0_B c i arg2 harg2 arg3 harg3 arg4 harg4 arg5 harg5 arg6 harg6 hc0 hc1 x0 x1 x2 xs0).2.1)

/-- At the last point block the one piece stored into the output block covers it. -/
theorem cover0_C_3 (c : Dev nD) (i : grid0.Coords) (arg2 : Memref sig .tc .vmem S32x128x8 .f32) (harg2 : arg2.IsWhole) (arg3 : Memref sig .tc .vmem S32x128 .f32) (harg3 : arg3.IsWhole) (arg4 : Memref sig .tc .vmem S8x128 .f32) (harg4 : arg4.IsWhole) (arg5 : Memref sig .tc .vmem S32x128 .f32) (harg5 : arg5.IsWhole) (arg6 : Memref sig .tc .vmem S32x128 .f32) (harg6 : arg6.IsWhole) (hc0 : ¬cond0_0 i) (hc1 : cond0_1 i)
    (x0 : Vec F S32x128x8 .f32) (x1 : Vec F S32x128 .f32) (x2 : Vec F S8x128 .f32) (xs0 : Vec F S32x128 .f32) (y : S32x128.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S32x128.size (by sl_kernel_rfl) y

/-- What the last point block leaves in the output's staging block: its piece read back. -/
def out0_C_3 (c : Dev nD) (i : grid0.Coords) (arg2 : Memref sig .tc .vmem S32x128x8 .f32) (harg2 : arg2.IsWhole) (arg3 : Memref sig .tc .vmem S32x128 .f32) (harg3 : arg3.IsWhole) (arg4 : Memref sig .tc .vmem S8x128 .f32) (harg4 : arg4.IsWhole) (arg5 : Memref sig .tc .vmem S32x128 .f32) (harg5 : arg5.IsWhole) (arg6 : Memref sig .tc .vmem S32x128 .f32) (harg6 : arg6.IsWhole) (hc0 : ¬cond0_0 i) (hc1 : cond0_1 i)
    (x0 : Vec F S32x128x8 .f32) (x1 : Vec F S32x128 .f32) (x2 : Vec F S8x128 .f32) (xs0 : Vec F S32x128 .f32) : Vec F S32x128 .f32 :=
  VO0_3.read (Elt F) (VO0_3.writes (Elt F) VO0_3.junk (kernelRun0_C c i arg2 harg2 arg3 harg3 arg4 harg4 arg5 harg5 arg6 harg6 hc0 hc1 x0 x1 x2 xs0).1)

/-- In this case the pieces stored into the scratch tile it, so they cover it. -/
theorem scover0_C_0 (c : Dev nD) (i : grid0.Coords) (arg2 : Memref sig .tc .vmem S32x128x8 .f32) (harg2 : arg2.IsWhole) (arg3 : Memref sig .tc .vmem S32x128 .f32) (harg3 : arg3.IsWhole) (arg4 : Memref sig .tc .vmem S8x128 .f32) (harg4 : arg4.IsWhole) (arg5 : Memref sig .tc .vmem S32x128 .f32) (harg5 : arg5.IsWhole) (arg6 : Memref sig .tc .vmem S32x128 .f32) (harg6 : arg6.IsWhole) (hc0 : ¬cond0_0 i) (hc1 : cond0_1 i)
    (x0 : Vec F S32x128x8 .f32) (x1 : Vec F S32x128 .f32) (x2 : Vec F S8x128 .f32) (xs0 : Vec F S32x128 .f32) (y : S32x128.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S32x128.size (by sl_kernel_rfl) y

/-- What the case leaves in the scratch: its pieces read back. -/
def sout0_C_0 (c : Dev nD) (i : grid0.Coords) (arg2 : Memref sig .tc .vmem S32x128x8 .f32) (harg2 : arg2.IsWhole) (arg3 : Memref sig .tc .vmem S32x128 .f32) (harg3 : arg3.IsWhole) (arg4 : Memref sig .tc .vmem S8x128 .f32) (harg4 : arg4.IsWhole) (arg5 : Memref sig .tc .vmem S32x128 .f32) (harg5 : arg5.IsWhole) (arg6 : Memref sig .tc .vmem S32x128 .f32) (harg6 : arg6.IsWhole) (hc0 : ¬cond0_0 i) (hc1 : cond0_1 i)
    (x0 : Vec F S32x128x8 .f32) (x1 : Vec F S32x128 .f32) (x2 : Vec F S8x128 .f32) (xs0 : Vec F S32x128 .f32) : Vec F S32x128 .f32 :=
  VS0_0.read (Elt F) (VS0_0.writes (Elt F) VS0_0.junk (kernelRun0_C c i arg2 harg2 arg3 harg3 arg4 harg4 arg5 harg5 arg6 harg6 hc0 hc1 x0 x1 x2 xs0).2.1)

/-! ## What the output block and the scratch hold after each point -/

/-- The accumulation, point by point: the output's staging block and the scratch after the body at position `n`. -/
def outsAt0 (c : Dev nD) : (n : ℕ) → n < cfg0.N → Vec F S32x128 .f32 × Vec F S32x128 .f32
  | 0, hn => (idleOut, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩))
  | n + 1, hn =>
    if h0 : (n + 1) % 16 = 0 then
      if h1 : (n + 1) % 16 = 15 then
        False.elim (by omega)
      else
        (idleOut, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩))
    else
      if h1 : (n + 1) % 16 = 15 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2,
         sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2)
      else
        (idleOut, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2)

theorem outsAt0_A (c : Dev nD) (t : Fin cfg0.N) (h0 : t.val % 16 = 0) (h1 : ¬t.val % 16 = 15) :
    outsAt0 m c t.val t.isLt = (idleOut, sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 16 = 0) (h1 : ¬t.val % 16 = 15) :
    outsAt0 m c t.val t.isLt = (idleOut, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 m c t.val t.isLt = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2,
      sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The call's invariant before position `n`: before the first point the scratch holds anything; afterwards it holds
    what the point before left. The generator register is at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The proof data -/

/-- The arrays as the call finds them; after the body at point `t` each input's staging block at its block of the
    array and the output's at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves0_0 (c : Dev nD) (t : Fin cfg0.N) :
    (dats m 0 c).leavesExact 0 t = owns (c : Thread nD τ) (ms0_0 t) fullShare (iblk m c 0 t) := by
  unfold Dat.leavesExact; rw [liveAt0_0 t, after0_0]
theorem leaves0_1 (c : Dev nD) (t : Fin cfg0.N) :
    (dats m 0 c).leavesExact 1 t = owns (c : Thread nD τ) (ms0_1 t) fullShare (iblk m c 1 t) := by
  unfold Dat.leavesExact; rw [liveAt0_1 t, after0_1]
theorem leaves0_2 (c : Dev nD) (t : Fin cfg0.N) :
    (dats m 0 c).leavesExact 2 t = owns (c : Thread nD τ) (ms0_2 t) fullShare (iblk m c 2 t) := by
  unfold Dat.leavesExact; rw [liveAt0_2 t, after0_2]

end Cert.KernelIdeal.Frame

end
-- ==== Proof.IdealFrame.Oblig.lean ====
/-
  The body obligation at every point, and from it the run of @main and the frame.

  At a point the inputs' staging blocks hold their blocks of the arrays; the position decides the case; the invariant
  hands the body the scratch (at anything before the very first point, else at what the point before left) and takes
  it back at this point's contents. Where the output window is idle its staging block is handed back as found.
-/
import proofs.«165950_j2362232012851_2_alg».proof.Proof.IdealFrame.Data

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2]
  have hN : t.val < 32 := lt_of_lt_of_eq t.isLt (show cfg0.N = 32 from N_0)
  by_cases h0 : t.val % 16 = 0
  · by_cases h1 : t.val % 16 = 15
    · exfalso; omega
    · rw [Dat.leavesExact_idle (dats m 0 c) 3 t (idleAt0_3 t (fun h => h1 ((hcond0_1 t).mp h))) (noFlush0_3 t (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk m c 0 t) (iblk m c 1 t) (iblk m c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS_castSucc m c t, PhiS_pos m c _ _ hz]
        iintro ⟨⟨HS0, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk m c 0 t) (iblk m c 1 t) (iblk m c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · have hz : t.val ≠ 0 := fun hz => h0 (by rw [hz])
    by_cases h1 : t.val % 16 = 15
    · rw [show (dats m 0 c).leavesExact 3 t = owns (c : Thread nD τ) (ms0_3 t) fullShare ((dats m 0 c).after 3 t) from by
        unfold Dat.leavesExact; rw [liveAt0_3 t ((hcond0_1 t).mpr h1)], after0_3]
      rw [outsAt0_C m c t h0 h1]
      unfold out0_C_3 sout0_C_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk m c 0 t) (iblk m c 1 t) (iblk m c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _)
    · rw [Dat.leavesExact_idle (dats m 0 c) 3 t (idleAt0_3 t (fun h => h1 ((hcond0_1 t).mp h))) (noFlush0_3 t (fun h => h1 ((hcond0_1 t).mp h)))]
      rw [outsAt0_B m c t h0 h1]
      unfold sout0_B_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk m c 0 t) (iblk m c 1 t) (iblk m c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the call is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's back: the scratch's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option backward.isDefEq.respectTransparency.types false in
/-- Every weakly fair execution of @main terminates, every array of the call ends at what the proof data computes
    and every other unscoped buffer as the call found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: @main runs to the end, faults nowhere, and leaves its four argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Frame

end
-- ==== Proof.IdealFrame.Pieces.lean ====
/-
  What each case of the body leaves, as the body's own arithmetic: the pieces the run found, read back.
  The first point block of a batch block leaves one step of the running sum taken from the zero block; every
  other point block one step taken from what the scratch held; the last one also copies that into the output block.
-/
import proofs.«165950_j2362232012851_2_alg».proof.Proof.IdealFrame.Data
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- At the first point block the scratch ends at one step of the running sum from the zero block. -/
theorem soutA_eq (c : Dev nD) (i : grid0.Coords) (arg2 : Memref sig .tc .vmem S32x128x8 .f32) (harg2 : arg2.IsWhole) (arg3 : Memref sig .tc .vmem S32x128 .f32) (harg3 : arg3.IsWhole) (arg4 : Memref sig .tc .vmem S8x128 .f32) (harg4 : arg4.IsWhole) (arg5 : Memref sig .tc .vmem S32x128 .f32) (harg5 : arg5.IsWhole) (arg6 : Memref sig .tc .vmem S32x128 .f32) (harg6 : arg6.IsWhole) (hc0 : cond0_0 i) (hc1 : ¬cond0_1 i) (x0 : Vec F S32x128x8 .f32) (x1 : Vec F S32x128 .f32) (x2 : Vec F S8x128 .f32) :
    sout0_A_0 c i arg2 harg2 arg3 harg3 arg4 harg4 arg5 harg5 arg6 harg6 hc0 hc1 x0 x1 x2 = k0_pay2 x0 x2 x1 (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S32x128) hz2, View.readCov_unit_zero (S := S32x128) _ hz2]
  simp only [View.readAt_eq_ld, harg2.read_unread, harg3.read_unread, harg4.read_unread, View.ld_unit_zero (S := S32x128x8) hz3, View.ld_unit_zero (S := S32x128) hz2, View.ld_unit_zero (S := S8x128) hz2]

/-- At a middle point block the scratch ends at one step of the running sum from what it held. -/
theorem soutB_eq (c : Dev nD) (i : grid0.Coords) (arg2 : Memref sig .tc .vmem S32x128x8 .f32) (harg2 : arg2.IsWhole) (arg3 : Memref sig .tc .vmem S32x128 .f32) (harg3 : arg3.IsWhole) (arg4 : Memref sig .tc .vmem S8x128 .f32) (harg4 : arg4.IsWhole) (arg5 : Memref sig .tc .vmem S32x128 .f32) (harg5 : arg5.IsWhole) (arg6 : Memref sig .tc .vmem S32x128 .f32) (harg6 : arg6.IsWhole) (hc0 : ¬cond0_0 i) (hc1 : ¬cond0_1 i) (x0 : Vec F S32x128x8 .f32) (x1 : Vec F S32x128 .f32) (x2 : Vec F S8x128 .f32) (xs0 : Vec F S32x128 .f32) :
    sout0_B_0 c i arg2 harg2 arg3 harg3 arg4 harg4 arg5 harg5 arg6 harg6 hc0 hc1 x0 x1 x2 xs0 = k0_pay2 x0 x2 x1 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  try sl_unfold_words
  rw [View.canon_unit_zero hz2]
  simp only [View.readAt_eq_ld, harg2.read_unread, harg3.read_unread, harg4.read_unread, harg6.read_unread, View.ld_unit_zero (S := S32x128x8) hz3, View.ld_unit_zero (S := S32x128) hz2, View.ld_unit_zero (S := S8x128) hz2]

/-- At the last point block the scratch likewise, -/
theorem soutC_eq (c : Dev nD) (i : grid0.Coords) (arg2 : Memref sig .tc .vmem S32x128x8 .f32) (harg2 : arg2.IsWhole) (arg3 : Memref sig .tc .vmem S32x128 .f32) (harg3 : arg3.IsWhole) (arg4 : Memref sig .tc .vmem S8x128 .f32) (harg4 : arg4.IsWhole) (arg5 : Memref sig .tc .vmem S32x128 .f32) (harg5 : arg5.IsWhole) (arg6 : Memref sig .tc .vmem S32x128 .f32) (harg6 : arg6.IsWhole) (hc0 : ¬cond0_0 i) (hc1 : cond0_1 i) (x0 : Vec F S32x128x8 .f32) (x1 : Vec F S32x128 .f32) (x2 : Vec F S8x128 .f32) (xs0 : Vec F S32x128 .f32) :
    sout0_C_0 c i arg2 harg2 arg3 harg3 arg4 harg4 arg5 harg5 arg6 harg6 hc0 hc1 x0 x1 x2 xs0 = k0_pay2 x0 x2 x1 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  try sl_unfold_words
  rw [View.canon_unit_zero hz2]
  simp only [View.readAt_eq_ld, harg2.read_unread, harg3.read_unread, harg4.read_unread, harg6.read_unread, View.ld_unit_zero (S := S32x128x8) hz3, View.ld_unit_zero (S := S32x128) hz2, View.ld_unit_zero (S := S8x128) hz2]

/-- and the output block receives the scratch's new contents. -/
theorem outC_eq (c : Dev nD) (i : grid0.Coords) (arg2 : Memref sig .tc .vmem S32x128x8 .f32) (harg2 : arg2.IsWhole) (arg3 : Memref sig .tc .vmem S32x128 .f32) (harg3 : arg3.IsWhole) (arg4 : Memref sig .tc .vmem S8x128 .f32) (harg4 : arg4.IsWhole) (arg5 : Memref sig .tc .vmem S32x128 .f32) (harg5 : arg5.IsWhole) (arg6 : Memref sig .tc .vmem S32x128 .f32) (harg6 : arg6.IsWhole) (hc0 : ¬cond0_0 i) (hc1 : cond0_1 i) (x0 : Vec F S32x128x8 .f32) (x1 : Vec F S32x128 .f32) (x2 : Vec F S8x128 .f32) (xs0 : Vec F S32x128 .f32) :
    out0_C_3 c i arg2 harg2 arg3 harg3 arg4 harg4 arg5 harg5 arg6 harg6 hc0 hc1 x0 x1 x2 xs0 = k0_pay2 x0 x2 x1 xs0 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  try sl_unfold_words
  rw [View.canon_unit_zero hz2, View.readCov_unit_zero (S := S32x128) _ hz2]
  simp only [View.readAt_eq_ld, harg2.read_unread, harg3.read_unread, harg4.read_unread, harg6.read_unread, View.ld_unit_zero (S := S32x128x8) hz3, View.ld_unit_zero (S := S32x128) hz2, View.ld_unit_zero (S := S8x128) hz2]

end Cert.KernelIdeal.Frame

end
-- ==== Proof.LibMatmulPlain.lean ====
/-
  A plain matrix product read at an index.

  A `tpu.matmul` of a left operand `[M, K]` by a right operand `[K, N]` that contracts the left operand's second
  axis against the right operand's first, with no batch axis, started from the zero accumulator, is at the exact
  values the textbook product: entry `(p, o)` is the sum over `k : Fin K` of `l (p, k) * r (k, o)`. The operand
  indices a contraction position selects are read off the dimension record axis by axis: a contracted axis takes
  the contraction coordinate, the left operand's free axis the result's row, the right operand's free axis the
  result's column. Stated for any record whose six axis lists are `[1] [0] [0] [1] [] []` (on a printed record each
  hypothesis is `rfl`), general in the three extents and in the operands' float formats.
-/
import Idealize.ShloMosaic.PureOps.Ideal.Laws
import Idealize.ShloMosaic.Lib.ValueIdx

noncomputable section

open scoped BigOperators

namespace Cert.MatmulPlain

open Idealize.ShloMosaic Idealize.ShloMosaic.ValueIdx

variable {M K N : ℕ}

/-- A coordinate of `ix2 p o` read at an axis number known only through an equation. -/
private theorem ix2_val_of_eq {a b : ℕ} (p : Fin a) (o : Fin b) (q : ℕ) (hq : q < 2) :
    (q = 0 → ((ix2 p o : (⟨2, ![a, b]⟩ : Shape).Idx) ⟨q, hq⟩).val = p.val)
    ∧ (q = 1 → ((ix2 p o : (⟨2, ![a, b]⟩ : Shape).Idx) ⟨q, hq⟩).val = o.val) :=
  ⟨fun h => by subst h; rfl, fun h => by subst h; rfl⟩

/-- The one contracted axis has extent `K`, and the contraction shape has that one axis. -/
theorem contr_rank (d : DotDims ⟨2, ![M, K]⟩ ⟨2, ![K, N]⟩ ⟨2, ![M, N]⟩) (hlc : d.lhsContracting = [1]) :
    d.contr.rank = 1 := by rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos)]
  have : d.lhsContracting[0]'(by rw [hlc]; exact Nat.one_pos) = (1 : Fin 2) := by simp [hlc]
  rw [this]; rfl

/-- The left operand's index at result `(p, o)` and contraction coordinate `k` is `(p, k)`. -/
theorem lhsIdx_eq (d : DotDims ⟨2, ![M, K]⟩ ⟨2, ![K, N]⟩ ⟨2, ![M, N]⟩)
    (hlc : d.lhsContracting = [1]) (hln : d.lhsNonContracting = [0]) (hlb : d.lhsBatch = [])
    (p : Fin M) (o : Fin N) (k : Fin K) :
    d.lhsIdx (ix2 p o) ((contrEquiv1 d K (contr_rank d hlc) (contr_size d hlc)).symm k) = ix2 p k := by
  have hk := contrEquiv1_symm_val d K (contr_rank d hlc) (contr_size d hlc) k
  funext a
  apply Fin.ext
  match a with
  | ⟨0, _⟩ =>
    unfold DotDims.lhsIdx
    rw [dif_neg (by rw [hlb]; exact List.not_mem_nil), dif_pos (by rw [hln]; exact List.mem_singleton.mpr rfl)]
    simp only [Fin.val_cast]
    exact (ix2_val_of_eq p o _ _).1 (by simp [hlb, hln])
  | ⟨1, _⟩ => exact (d.lhsIdx_val_of_single hlc _ _).trans hk

/-- The right operand's index at result `(p, o)` and contraction coordinate `k` is `(k, o)`. -/
theorem rhsIdx_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (p : Fin M) (o : Fin N) (k : Fin K) :
    d.rhsIdx (ix2 p o) ((contrEquiv1 d K (contr_rank d hlc) (contr_size d hlc)).symm k) = ix2 k o := by
  have hk := contrEquiv1_symm_val d K (contr_rank d hlc) (contr_size d hlc) k
  funext a
  apply Fin.ext
  match a with
  | ⟨0, _⟩ => exact (d.rhsIdx_val_of_single hrc _ _).trans hk
  | ⟨1, _⟩ =>
    unfold DotDims.rhsIdx
    rw [dif_neg (by rw [hrb]; exact List.not_mem_nil), dif_pos (by rw [hrn]; exact List.mem_singleton.mpr rfl)]
    simp only [Fin.val_cast]
    exact (ix2_val_of_eq p o _ _).2 (by simp [hlb, hln, hrn])

/-- A plain matrix product from the zero accumulator, read at `(p, o)`: `∑ k, l (p, k) * r (k, o)`. -/
theorem matmul_plain_apply {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂)
    (p : Fin M) (o : Fin N) :
    FloatOps.matmul d prec l r (constant (F := Ideal) ⟨2, ![M, N]⟩ .f32 0x00000000#32) (ix2 p o)
      = ∑ k : Fin K, l (ix2 p k) * r (ix2 k o) := by
  rw [Ideal.matmul_constant_zero_apply,
    ← Equiv.sum_comp (contrEquiv1 d K (contr_rank d hlc) (contr_size d hlc)).symm]
  refine Finset.sum_congr rfl fun k _ => ?_
  rw [lhsIdx_eq d hlc hln hlb p o k, rhsIdx_eq d hlc hrc hln hrn hlb hrb p o k]

end Cert.MatmulPlain

end
-- ==== Proof.LibAxisReads.lean ====
/-
  Reductions along ONE axis and rank-three layout steps, each read at an index given by its coordinates.

  A sum (or a maximum) along one axis of an array, read at a reduced index, ranges over the coordinates of the
  reduced axis with the other coordinates held: along the columns of a matrix [a, b] at row r it is over
  (r, k); along the middle axis of [a, b, c] at (p, q) over (p, k, q); along the last axis at (p, q)
  over (p, q, k). A maximum is the fold of max from the accumulator's value, in any order.

  A stack of m matrices [m, a, b] and the tall matrix [m * a, b] of their rows hold the same entries in the
  same row-major order: row p * a + q of the tall matrix is row q of matrix p. Inserting a unit axis moves
  nothing. A broadcast along an axis of extent one repeats the operand along it: the result at (p, q, r) reads
  the operand with 0 on each of its unit axes. General in the extents and in the element type.
-/
import Idealize.ShloMosaic.Lib.Pipeline.Value
import Idealize.ShloMosaic.Lib.ValueIdx
import Idealize.ShloMosaic.PureOps.Ideal.Laws

namespace Cert.AxisReads

open Idealize.ShloMosaic Idealize.ShloMosaic.ValueIdx

variable {α : Type}

/-! ## The reduced index with the coordinate put back -/

theorem lift_cols {a b : ℕ} (h : (⟨2, ![a, b]⟩ : Shape).Reduces [1] ⟨1, ![a]⟩) (r : Fin a)
    (k : Fin ((⟨2, ![a, b]⟩ : Shape).size 1)) : h.lift (ix1 r) k = ix2 r (⟨k.val, k.isLt⟩ : Fin b) := by
  funext c; apply Fin.ext
  fin_cases c <;> rfl

theorem lift_mid {a b c : ℕ} (h : (⟨3, ![a, b, c]⟩ : Shape).Reduces [1] ⟨2, ![a, c]⟩) (p : Fin a) (q : Fin c)
    (k : Fin ((⟨3, ![a, b, c]⟩ : Shape).size 1)) : h.lift (ix2 p q) k = ix3 p (⟨k.val, k.isLt⟩ : Fin b) q := by
  funext d; apply Fin.ext
  fin_cases d <;> rfl

theorem lift_last {a b c : ℕ} (h : (⟨3, ![a, b, c]⟩ : Shape).Reduces [2] ⟨2, ![a, b]⟩) (p : Fin a) (q : Fin b)
    (k : Fin ((⟨3, ![a, b, c]⟩ : Shape).size 2)) : h.lift (ix2 p q) k = ix3 p q (⟨k.val, k.isLt⟩ : Fin c) := by
  funext d; apply Fin.ext
  fin_cases d <;> rfl

/-! ## Sums along one axis (a kernel's f32 lane or sublane sum from the zero accumulator) -/

/-- Along the columns of [a, b], at row r: the sum over k of the entries (r, k). -/
theorem sum_cols {a b : ℕ} (src : FVec Ideal ⟨2, ![a, b]⟩ .f32) (h : (⟨2, ![a, b]⟩ : Shape).Reduces [1] ⟨1, ![a]⟩) (r : Fin a) :
    multiReduction .add [1] ⟨1, ![a]⟩ src 0x00000000#32 h (.inl rfl) rfl (ix1 r) = ∑ k : Fin b, src (ix2 r k) :=
  (Ideal.multiReduction_add_single src 0x00000000#32 h (.inl rfl) rfl (ix1 r)).trans
    (Finset.sum_congr rfl fun k _ => congrArg src (lift_cols h r k))

/-- Along the middle axis of [a, b, c], at (p, q): the sum over k of the entries (p, k, q). -/
theorem sum_mid {a b c : ℕ} (src : FVec Ideal ⟨3, ![a, b, c]⟩ .f32) (h : (⟨3, ![a, b, c]⟩ : Shape).Reduces [1] ⟨2, ![a, c]⟩)
    (p : Fin a) (q : Fin c) :
    multiReduction .add [1] ⟨2, ![a, c]⟩ src 0x00000000#32 h (.inl rfl) rfl (ix2 p q) = ∑ k : Fin b, src (ix3 p k q) :=
  (Ideal.multiReduction_add_single src 0x00000000#32 h (.inl rfl) rfl (ix2 p q)).trans
    (Finset.sum_congr rfl fun k _ => congrArg src (lift_mid h p q k))

/-- Along the last axis of [a, b, c], at (p, q): the sum over k of the entries (p, q, k). -/
theorem sum_last {a b c : ℕ} (src : FVec Ideal ⟨3, ![a, b, c]⟩ .f32) (h : (⟨3, ![a, b, c]⟩ : Shape).Reduces [2] ⟨2, ![a, b]⟩)
    (p : Fin a) (q : Fin b) :
    multiReduction .add [2] ⟨2, ![a, b]⟩ src 0x00000000#32 h (.inl rfl) rfl (ix2 p q) = ∑ k : Fin c, src (ix3 p q k) :=
  (Ideal.multiReduction_add_single src 0x00000000#32 h (.inl rfl) rfl (ix2 p q)).trans
    (Finset.sum_congr rfl fun k _ => congrArg src (lift_last h p q k))

/-! ## Maxima along the columns, from the accumulator at minus infinity -/

/-- A kernel's row maximum of [a, b] at row r: the fold of max from the accumulator's value over the entries (r, k). -/
theorem max_cols {a b : ℕ} (src : FVec Ideal ⟨2, ![a, b]⟩ .f32) (h : (⟨2, ![a, b]⟩ : Shape).Reduces [1] ⟨1, ![a]⟩) (r : Fin a) :
    multiReduction .maximumf [1] ⟨1, ![a]⟩ src 0xFF800000#32 h (.inl rfl) rfl (ix1 r)
      = (Finset.univ : Finset (Fin b)).fold max (Ideal.ofBits .f32 0xFF800000#32) (fun k => src (ix2 r k)) :=
  (Ideal.multiReduction_maximumf_single src 0xFF800000#32 h (.inl rfl) rfl (ix1 r)).trans
    (congrArg ((Finset.univ : Finset (Fin b)).fold max (Ideal.ofBits .f32 0xFF800000#32))
      (funext fun k => congrArg src (lift_cols h r k)))

/-- The host's reduce with a maximum body along the columns of [a, b], at row r, from a rank-zero initial value. -/
theorem hostMax_cols {a b : ℕ} (x : FVec Ideal ⟨2, ![a, b]⟩ .f32) (init : FVec Ideal ⟨0, ![]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduce FloatOps.maximumf x init h' hu (ix1 r)
      = (Finset.univ : Finset (Fin b)).fold max (init ix0) (fun k => x (ix2 r k)) := by
  rw [Host.reduce_eq_fold_single FloatOps.maximumf x init h' h hu (ix1 r)]
  have e0 : Shape.Idx.first hu = ix0 := funext fun d => d.elim0
  rw [e0]
  exact congrArg ((Finset.univ : Finset (Fin b)).fold max (init ix0)) (funext fun k => congrArg x (lift_cols h r k))

/-! ## A stack of matrices and the tall matrix of their rows -/

/-- The stack [m, a, b] cast to the tall matrix [n, b], n = m * a: row p * a + q is row q of matrix p. -/
theorem shapeCast_stack_tall_apply {m a b n : ℕ} (x : (⟨3, ![m, a, b]⟩ : Shape).Idx → α)
    (h : (⟨3, ![m, a, b]⟩ : Shape).ShapeCasts ⟨2, ![n, b]⟩) (r : Fin n) (p : Fin m) (q : Fin a) (d : Fin b)
    (hr : r.val = p.val * a + q.val) : shapeCast ⟨2, ![n, b]⟩ x h (ix2 r d) = x (ix3 p q d) :=
  shapeCast_apply x h _ _ (by
    rw [Shape.rowMajor_val_three, Shape.rowMajor_val_two]
    show (p.val * a + q.val) * b + d.val = r.val * b + d.val
    rw [hr])

/-- The tall matrix [n, b], n = m * a, cast to the stack [m, a, b]: row q of matrix p is row p * a + q. -/
theorem shapeCast_tall_stack_apply {m a b n : ℕ} (x : (⟨2, ![n, b]⟩ : Shape).Idx → α)
    (h : (⟨2, ![n, b]⟩ : Shape).ShapeCasts ⟨3, ![m, a, b]⟩) (r : Fin n) (p : Fin m) (q : Fin a) (d : Fin b)
    (hr : r.val = p.val * a + q.val) : shapeCast ⟨3, ![m, a, b]⟩ x h (ix3 p q d) = x (ix2 r d) :=
  shapeCast_apply x h _ _ (by
    rw [Shape.rowMajor_val_three, Shape.rowMajor_val_two]
    show r.val * b + d.val = (p.val * a + q.val) * b + d.val
    rw [hr])

/-! ## A unit axis inserted -/

/-- [a, b] cast to [a, 1, b] reads, at (i, u, j), the operand at (i, j). -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- [a, b] cast to [a, b, 1] reads, at (i, j, u), the operand at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-! ## Broadcasts along unit axes of a rank-three array -/

/-- [a, 1, c] broadcast to [a, b, c] reads, at (p, q, r), the operand at (p, 0, r). -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- [1, b, c] broadcast to [a, b, c] reads, at (p, q, r), the operand at (0, q, r). -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- [a, b, 1] broadcast to [a, b, c] reads, at (p, q, r), the operand at (p, q, 0). -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- [a, 1, 1] broadcast to [a, b, c] reads, at (p, q, r), the operand at (p, 0, 0). -/
theorem broadcastTo_a11_abc_apply {a b c : ℕ} (v : (⟨3, ![a, 1, 1]⟩ : Shape).Idx → α)
    (h : (⟨3, ![a, 1, 1]⟩ : Shape).Broadcasts ⟨3, ![a, b, c]⟩) (p : Fin a) (q : Fin b) (r : Fin c) :
    broadcastTo ⟨3, ![a, b, c]⟩ v h (ix3 p q r) = v (ix3 p (0 : Fin 1) (0 : Fin 1)) := by
  refine broadcastTo_apply v h (ix3 p q r) (ix3 p (0 : Fin 1) (0 : Fin 1)) fun ax => ?_
  match ax with
  | ⟨0, _⟩ =>
    show p.val = if a = 1 then 0 else p.val
    split
    · have := p.isLt; omega
    · rfl
  | ⟨1, _⟩ => rfl
  | ⟨2, _⟩ => rfl

end Cert.AxisReads
-- ==== Proof.IdealValue.Payload.lean ====
/-
  The body's arithmetic at an index, at the ideal instance.

  One step of the body takes the block of features x : [32, 128, 8], the weights w : [8, 128], the block of masks
  μ : [32, 128] and the running sum s : [32, 128], and stores, at row r and centre n,
      s (r, n) + ∑ q, exp (∑ k, x (r, q, k) · w (k, n)) · μ (r, q)
  (q over the 128 points of the block, k over the 8 features): the feature block flattened to [4096, 8], one
  matrix product into [4096, 128], the exponential, the result unflattened to [32, 128, 128] with the point axis in
  the middle, the masks broadcast along the centres, and a sum over the middle axis. The reset stores zero.
-/
import proofs.«165950_j2362232012851_2_alg».proof.Proof.Gen.KernelIdeal.Skeleton
import proofs.«165950_j2362232012851_2_alg».proof.Proof.LibMatmulPlain
import proofs.«165950_j2362232012851_2_alg».proof.Proof.LibAxisReads
import Idealize.ShloMosaic.Lib.Pipeline.Value
import Idealize.ShloMosaic.Lib.ValueIdx
import Idealize.ShloMosaic.PureOps.Ideal.Laws

noncomputable section

namespace Cert.KernelIdeal.PoolValue

open Cert.KernelIdeal Cert.KernelIdeal.Gen Idealize.ShloMosaic Idealize.ShloMosaic.ValueIdx
open scoped BigOperators

/-- The reset block is zero everywhere. -/
theorem pay1_apply (j : S32x128.Idx) : k0_pay1 (F := Ideal) j = Ideal.ofBits .f32 0x00000000#32 := by
  unfold k0_pay1
  exact (congrFun (shapeCast_self _ _) j).trans rfl

/-- One step of the running sum, at row `r` and centre `n`. -/
theorem pay2_apply (v3 : Vec Ideal S32x128x8 .f32) (v6 : Vec Ideal S8x128 .f32) (v11 v16 : Vec Ideal S32x128 .f32)
    (r : Fin 32) (n : Fin 128) :
    k0_pay2 v3 v6 v11 v16 (ix2 r n)
      = v16 (ix2 r n) + ∑ q : Fin 128, Ideal.exp (∑ k : Fin 8, v3 (ix3 r q k) * v6 (ix2 k n)) * v11 (ix2 r q) := by
  unfold k0_pay2
  refine (congrFun (shapeCast_self _ _) (ix2 r n)).trans ?_
  refine (addf_apply _ _ _).trans ?_
  refine congrArg (v16 (ix2 r n) + ·) ?_
  refine (Cert.AxisReads.sum_mid _ _ r n).trans ?_
  refine Finset.sum_congr rfl fun q _ => ?_
  refine (mulf_apply _ _ _).trans ?_
  refine congrArg₂ (· * ·) ?_ ?_
  · refine (Cert.AxisReads.shapeCast_tall_stack_apply _ _ ⟨r.val * 128 + q.val, by have := r.isLt; have := q.isLt; omega⟩ r q n rfl).trans ?_
    show Ideal.exp _ = _
    refine congrArg Ideal.exp ?_
    refine (Cert.MatmulPlain.matmul_plain_apply _ rfl rfl rfl rfl rfl rfl _ _ _ _ _).trans ?_
    refine Finset.sum_congr rfl fun k _ => ?_
    refine congrArg₂ (· * ·) ?_ ?_
    · refine (Cert.AxisReads.shapeCast_stack_tall_apply _ _ _ r q k rfl).trans ?_
      exact congrFun (shapeCast_self _ _) _
    · exact congrFun (shapeCast_self _ _) _
  · refine (Cert.AxisReads.broadcastTo_ab1_abc_apply _ _ r q n).trans ?_
    exact Cert.AxisReads.shapeCast_ab_ab1_apply _ _ r q 0

end Cert.KernelIdeal.PoolValue

end
-- ==== Proof.IdealValue.Fold.lean ====
/-
  The output array after the run, as one function of the arrays the call finds.

  Position t of the grid is batch block t / 16 and point block t % 16. Its feature block is rows
  32·(t/16) … +31 and points 128·(t%16) … +127 of the feature array, its mask block the same rows and points of the
  masks, its weight block the whole weight array, and its output block rows 32·(t/16) … +31 of the output.
  One step adds to the running sum, at row r and centre o, the block's term
      ∑ q, exp (∑ k, feats (row, point q, k) · weights (k, o)) · masks (row, point q).
  By induction over the positions the scratch after position n holds zero plus the terms of the point blocks
  0 … n % 16 of batch block n / 16; at n % 16 = 15 the output block receives that, and is written back. The sixteen
  written-back blocks' batch blocks tile the output, so it ends at zero plus all sixteen terms, row by row.
-/
import proofs.«165950_j2362232012851_2_alg».proof.Proof.IdealFrame.Pieces
import proofs.«165950_j2362232012851_2_alg».proof.Proof.IdealFrame.Oblig
import proofs.«165950_j2362232012851_2_alg».proof.Proof.IdealValue.Payload

set_option maxRecDepth 16384

noncomputable section

namespace Cert.KernelIdeal.PoolValue

open Cert.KernelIdeal Cert.KernelIdeal.Gen Cert.KernelIdeal.Frame
open Idealize.ShloMosaic Idealize.ShloMosaic.TcCoe Idealize.SL.Sem Idealize.ShloMosaic.ValueIdx
open Idealize.ShloMosaic.Pipeline (Dat)
open scoped BigOperators

variable (m : (ℓ : Loc nD τ sig) → Buf (Elt Ideal) ℓ) (c : Dev nD)

/-- The zero the running sum starts from. -/
abbrev zr : EReal := Ideal.ofBits .f32 0x00000000#32

/-- The arrays the call finds, as functions into the extended reals: features, weights, masks. -/
abbrev featsV : S64x2048x8.Idx → EReal := V m c main_v48
abbrev wtsV : S8x128.Idx → EReal := V m c main_v31
abbrev maskV : S64x2048.Idx → EReal := V m c main_arg1
/-- The three input blocks at a point, typed as the body's operands. -/
abbrev fblk (t : Fin cfg0.N) : Vec Ideal S32x128x8 .f32 := iblk m c 0 t
abbrev mblk (t : Fin cfg0.N) : Vec Ideal S32x128 .f32 := iblk m c 1 t
abbrev wblk (t : Fin cfg0.N) : Vec Ideal S8x128 .f32 := iblk m c 2 t

/-! ## Where each window's block sits -/

theorem idx_facts : ∀ t : Fin cfg0.N,
    win0_0.index t (0 : Fin 3) = t.val / 16 ∧ win0_0.index t (1 : Fin 3) = t.val % 16 ∧ win0_0.index t (2 : Fin 3) = 0
    ∧ win0_1.index t (0 : Fin 2) = t.val / 16 ∧ win0_1.index t (1 : Fin 2) = t.val % 16
    ∧ win0_2.index t (0 : Fin 2) = 0 ∧ win0_2.index t (1 : Fin 2) = 0
    ∧ win0_3.index t (0 : Fin 2) = t.val / 16 ∧ win0_3.index t (1 : Fin 2) = 0 :=
  (by decide +kernel : ∀ t : Fin grid0.N, _)

/-- Row `r` of batch block `i`, and point `q` of point block `j`, as coordinates of the whole arrays. -/
def rowOf (i : ℕ) (r : Fin 32) : Fin 64 := ⟨(i * 32 + r.val) % 64, Nat.mod_lt _ (by norm_num)⟩
def ptOf (j : ℕ) (q : Fin 128) : Fin 2048 := ⟨(j * 128 + q.val) % 2048, Nat.mod_lt _ (by norm_num)⟩

theorem feats_blk (t : Fin cfg0.N) (r : Fin 32) (q : Fin 128) (k : Fin 8) :
    fblk m c t (ix3 r q k) = featsV m c (ix3 (rowOf (t.val / 16) r) (ptOf (t.val % 16) q) k) := by
  obtain ⟨e0, e1, e2, -⟩ := idx_facts t
  have hN : t.val < 32 := lt_of_lt_of_eq t.isLt (show cfg0.N = 32 from N_0)
  show V m c main_v48 (((cfg0.win 0).blk t).view.emb (ix3 r q k)) = _
  refine congrArg (V m c main_v48) ?_
  funext a; apply Fin.ext
  match a with
  | ⟨0, _⟩ => show win0_0.index t (0 : Fin 3) * 32 + 1 * r.val = (t.val / 16 * 32 + r.val) % 64; have := r.isLt; omega
  | ⟨1, _⟩ => show win0_0.index t (1 : Fin 3) * 128 + 1 * q.val = (t.val % 16 * 128 + q.val) % 2048; have := q.isLt; omega
  | ⟨2, _⟩ => show win0_0.index t (2 : Fin 3) * 8 + 1 * k.val = k.val; omega

theorem mask_blk (t : Fin cfg0.N) (r : Fin 32) (q : Fin 128) :
    mblk m c t (ix2 r q) = maskV m c (ix2 (rowOf (t.val / 16) r) (ptOf (t.val % 16) q)) := by
  obtain ⟨-, -, -, e0, e1, -⟩ := idx_facts t
  have hN : t.val < 32 := lt_of_lt_of_eq t.isLt (show cfg0.N = 32 from N_0)
  show V m c main_arg1 (((cfg0.win 1).blk t).view.emb (ix2 r q)) = _
  refine congrArg (V m c main_arg1) ?_
  funext a; apply Fin.ext
  match a with
  | ⟨0, _⟩ => show win0_1.index t (0 : Fin 2) * 32 + 1 * r.val = (t.val / 16 * 32 + r.val) % 64; have := r.isLt; omega
  | ⟨1, _⟩ => show win0_1.index t (1 : Fin 2) * 128 + 1 * q.val = (t.val % 16 * 128 + q.val) % 2048; have := q.isLt; omega

theorem wts_blk (t : Fin cfg0.N) (k : Fin 8) (o : Fin 128) :
    wblk m c t (ix2 k o) = wtsV m c (ix2 k o) := by
  obtain ⟨-, -, -, -, -, e0, e1, -⟩ := idx_facts t
  show V m c main_v31 (((cfg0.win 2).blk t).view.emb (ix2 k o)) = _
  refine congrArg (V m c main_v31) ?_
  funext a; apply Fin.ext
  match a with
  | ⟨0, _⟩ => show win0_2.index t (0 : Fin 2) * 8 + 1 * k.val = k.val; omega
  | ⟨1, _⟩ => show win0_2.index t (1 : Fin 2) * 128 + 1 * o.val = o.val; omega

/-! ## One step, in the arrays' coordinates -/

/-- The term point block `j` of batch block `i` adds at row `r` and centre `o`. -/
def term (i j : ℕ) (r : Fin 32) (o : Fin 128) : EReal :=
  ∑ q : Fin 128, Ideal.exp (∑ k : Fin 8, featsV m c (ix3 (rowOf i r) (ptOf j q) k) * wtsV m c (ix2 k o))
    * maskV m c (ix2 (rowOf i r) (ptOf j q))

theorem point_step (t : Fin cfg0.N) (xs : Vec Ideal S32x128 .f32) (r : Fin 32) (o : Fin 128) :
    k0_pay2 (fblk m c t) (wblk m c t) (mblk m c t) xs (ix2 r o) = xs (ix2 r o) + term m c (t.val / 16) (t.val % 16) r o := by
  refine (pay2_apply (fblk m c t) (wblk m c t) (mblk m c t) xs r o).trans ?_
  refine congrArg (fun z : EReal => xs (ix2 r o) + z) (Finset.sum_congr rfl fun q _ => ?_)
  exact congrArg₂ (fun a b : EReal => a * b) (congrArg Ideal.exp (Finset.sum_congr rfl fun k _ =>
    congrArg₂ (fun a b : EReal => a * b) (feats_blk m c t r q k) (wts_blk m c t k o))) (mask_blk m c t r q)

/-! ## What the scratch and the output block hold, case by case -/

theorem scratch_first (t : Fin cfg0.N) (h0 : t.val % 16 = 0) (h1 : ¬t.val % 16 = 15) :
    (outsAt0 m c t.val t.isLt).2 = k0_pay2 (fblk m c t) (wblk m c t) (mblk m c t) (k0_pay1 (F := Ideal)) :=
  (congrArg Prod.snd (outsAt0_A m c t h0 h1)).trans
    (soutA_eq c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (fblk m c t) (mblk m c t) (wblk m c t))

theorem scratch_next (t : Fin cfg0.N) (h0 : ¬t.val % 16 = 0) :
    (outsAt0 m c t.val t.isLt).2 = k0_pay2 (fblk m c t) (wblk m c t) (mblk m c t) (outsAt0 m c (t.val - 1) (Nat.lt_of_le_of_lt (Nat.sub_le _ _) t.isLt)).2 := by
  by_cases h1 : t.val % 16 = 15
  · exact (congrArg Prod.snd (outsAt0_C m c t h0 h1)).trans
      (soutC_eq c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (fblk m c t) (mblk m c t) (wblk m c t) (outsAt0 m c (t.val - 1) (Nat.lt_of_le_of_lt (Nat.sub_le _ _) t.isLt)).2)
  · exact (congrArg Prod.snd (outsAt0_B m c t h0 h1)).trans
      (soutB_eq c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (fblk m c t) (mblk m c t) (wblk m c t) (outsAt0 m c (t.val - 1) (Nat.lt_of_le_of_lt (Nat.sub_le _ _) t.isLt)).2)

/-- At the last point block the output block is the scratch's new contents. -/
theorem out_eq_scratch (t : Fin cfg0.N) (h1 : t.val % 16 = 15) :
    (outsAt0 m c t.val t.isLt).1 = (outsAt0 m c t.val t.isLt).2 := by
  have h0 : ¬t.val % 16 = 0 := by omega
  exact ((congrArg Prod.fst (outsAt0_C m c t h0 h1)).trans
      (outC_eq c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (fblk m c t) (mblk m c t) (wblk m c t) (outsAt0 m c (t.val - 1) (Nat.lt_of_le_of_lt (Nat.sub_le _ _) t.isLt)).2)).trans
    ((congrArg Prod.snd (outsAt0_C m c t h0 h1)).trans
      (soutC_eq c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (fblk m c t) (mblk m c t) (wblk m c t) (outsAt0 m c (t.val - 1) (Nat.lt_of_le_of_lt (Nat.sub_le _ _) t.isLt)).2)).symm

/-! ## The running sum, by induction over the positions -/

theorem scratch_after : ∀ (n : ℕ) (hn : n < cfg0.N) (r : Fin 32) (o : Fin 128),
    (outsAt0 m c n hn).2 (ix2 r o) = zr + ∑ j ∈ Finset.range (n % 16 + 1), term m c (n / 16) j r o
  | 0, hn, r, o => by
    refine (congrFun (scratch_first m c ⟨0, hn⟩ (Nat.zero_mod _) (by show ¬(0 % 16 = 15); decide)) (ix2 r o)).trans ?_
    refine (point_step m c ⟨0, hn⟩ _ r o).trans ?_
    rw [pay1_apply]
    show zr + term m c (0 / 16) (0 % 16) r o = zr + ∑ j ∈ Finset.range (0 % 16 + 1), term m c (0 / 16) j r o
    simp only [Nat.zero_mod, Nat.zero_div, zero_add, Finset.sum_range_one]
  | n + 1, hn, r, o => by
    have hN : n + 1 < 32 := lt_of_lt_of_eq hn (show cfg0.N = 32 from N_0)
    by_cases h0 : (n + 1) % 16 = 0
    · have h1 : ¬(n + 1) % 16 = 15 := by omega
      refine (congrFun (scratch_first m c ⟨n + 1, hn⟩ h0 h1) (ix2 r o)).trans ?_
      refine (point_step m c ⟨n + 1, hn⟩ _ r o).trans ?_
      rw [pay1_apply]
      show zr + term m c ((n + 1) / 16) ((n + 1) % 16) r o = zr + ∑ j ∈ Finset.range ((n + 1) % 16 + 1), term m c ((n + 1) / 16) j r o
      rw [h0, Finset.sum_range_one]
    · refine (congrFun (scratch_next m c ⟨n + 1, hn⟩ h0) (ix2 r o)).trans ?_
      refine (point_step m c ⟨n + 1, hn⟩ _ r o).trans ?_
      have ih := scratch_after n (Nat.lt_of_succ_lt hn) r o
      have hd : (n + 1) / 16 = n / 16 := by omega
      have hm : (n + 1) % 16 = n % 16 + 1 := by omega
      show (outsAt0 m c n _).2 (ix2 r o) + term m c ((n + 1) / 16) ((n + 1) % 16) r o
        = zr + ∑ j ∈ Finset.range ((n + 1) % 16 + 1), term m c ((n + 1) / 16) j r o
      rw [ih, hd, hm, Finset.sum_range_succ _ (n % 16 + 1), add_assoc]

/-! ## The output array -/

/-- What the output ends holding: at row `b` and centre `o`, zero plus the sixteen terms of row `b`'s batch block. -/
def pooled : S64x128.Idx → EReal := fun i =>
  zr + ∑ j ∈ Finset.range 16, term m c ((i 0).val / 32) j ⟨(i 0).val % 32, Nat.mod_lt _ (by norm_num)⟩ (i 1)

theorem flushed3_eq (t : Fin cfg0.N) (hf : (cfg0.win 3).flush t = true) :
    (dats m 0 c).flushed 3 t = ((cfg0.win 3).blk t).view.read (Elt Ideal) (pooled m c) := by
  have h15 : t.val % 16 = 15 := (flush0_3 t).mp hf
  have hN : t.val < 32 := lt_of_lt_of_eq t.isLt (show cfg0.N = 32 from N_0)
  obtain ⟨-, -, -, -, -, -, -, e0, e1⟩ := idx_facts t
  show (cfg0.win 3).cut (grid0.coords t) ((dats m 0 c).after 3 t) = _
  rw [after0_3, out_eq_scratch m c t h15]
  funext y
  obtain ⟨r, o, rfl⟩ : ∃ (r : Fin 32) (o : Fin 128), y = ix2 r o := ⟨y 0, y 1, eq_ix2 y⟩
  show (outsAt0 m c t.val t.isLt).2 (ix2 r o) = pooled m c (((cfg0.win 3).blk t).view.emb (ix2 r o))
  have hemb : ((cfg0.win 3).blk t).view.emb (ix2 r o)
      = ix2 (⟨t.val / 16 * 32 + r.val, by have := r.isLt; omega⟩ : Fin 64) o := by
    funext a; apply Fin.ext
    match a with
    | ⟨0, _⟩ => show win0_3.index t (0 : Fin 2) * 32 + 1 * r.val = t.val / 16 * 32 + r.val; omega
    | ⟨1, _⟩ => show win0_3.index t (1 : Fin 2) * 128 + 1 * o.val = o.val; omega
  rw [hemb, scratch_after m c t.val t.isLt r o, h15]
  unfold pooled
  have hr := r.isLt
  have hq : (t.val / 16 * 32 + r.val) / 32 = t.val / 16 := by omega
  have hm : (t.val / 16 * 32 + r.val) % 32 = r.val := by omega
  show zr + ∑ j ∈ Finset.range 16, term m c (t.val / 16) j r o
    = zr + ∑ j ∈ Finset.range 16, term m c ((t.val / 16 * 32 + r.val) / 32) j ⟨(t.val / 16 * 32 + r.val) % 32, _⟩ o
  refine congrArg (zr + ·) (Finset.sum_congr rfl fun j _ => ?_)
  rw [hq]
  exact congrArg (fun r' => term m c (t.val / 16) j r' o) (Fin.ext hm.symm)

theorem mem_blk3 (t : Fin cfg0.N) (i : S64x128.Idx) :
    i ∈ ((cfg0.win 3).blk t).view.set ↔ ∀ a : Fin 2, win0_3.index t a * S32x128.size a ≤ (i a).val ∧ (i a).val < win0_3.index t a * S32x128.size a + S32x128.size a := by
  show i ∈ ((View.whole main_v49).slice (win0_3.rect t)).set ↔ _
  rw [View.set_slice_whole, Rect.mem_set_unit]
  exact Iff.rfl

/-- Every index of the output is in the block some last point block writes back. -/
theorem cover3 (i : S64x128.Idx) : ∃ t : Fin cfg0.N, (cfg0.win 3).flush t = true ∧ i ∈ ((cfg0.win 3).blk t).view.set := by
  have hi0 : (i 0).val < 64 := (i 0).isLt
  have hi1 : (i 1).val < 128 := (i 1).isLt
  have hlt : (i 0).val / 32 * 16 + 15 < cfg0.N := by rw [show cfg0.N = 32 from N_0]; omega
  refine ⟨⟨(i 0).val / 32 * 16 + 15, hlt⟩, (flush0_3 _).mpr (by show ((i 0).val / 32 * 16 + 15) % 16 = 15; omega), ?_⟩
  obtain ⟨-, -, -, -, -, -, -, e0, e1⟩ := idx_facts ⟨(i 0).val / 32 * 16 + 15, hlt⟩
  have e0' : win0_3.index ⟨(i 0).val / 32 * 16 + 15, hlt⟩ (0 : Fin 2) = ((i 0).val / 32 * 16 + 15) / 16 := e0
  rw [mem_blk3]
  intro a
  match a with
  | ⟨0, _⟩ => show win0_3.index _ (0 : Fin 2) * 32 ≤ (i 0).val ∧ (i 0).val < win0_3.index _ (0 : Fin 2) * 32 + 32; omega
  | ⟨1, _⟩ => show win0_3.index _ (1 : Fin 2) * 128 ≤ (i 1).val ∧ (i 1).val < win0_3.index _ (1 : Fin 2) * 128 + 128; omega

/-- The output array after the run. -/
theorem final3 : (dats m 0 c).arrAt 3 cfg0.N = pooled m c :=
  (dats m 0 c).arrAt_eq_of_cover 3 (pooled m c) (flushed3_eq m c) (cover3)

/-! ## The run, read -/

/-- The run of @main with the output array named: it ends at `pooled`, and the arguments end unchanged. -/
theorem run_value (ρ : Dev nD → PrngReg) :
    θ_run defs (onTc (τ := τ) (main (F := Ideal))) ⟨m, fun _ => 0, ρ⟩ (fun r => ∀ c : Dev nD,
      r.2.mem ((c.tc : Thread nD τ).loc main_v49) = pooled m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 3).trans (final3 m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.KernelIdeal.PoolValue

end
-- ==== Proof.PoolSpec.lean ====
/-
  The pooled radial features as ONE function of the four argument arrays, over the extended reals.

  For a batch entry `b`, a centre `n` and a point `p` the weighted squared distance is
  `dist b n p = 0 + ∑ d, shp (n,d) · (cen (n,d) − x (b,p,d)) · (cen (n,d) − x (b,p,d))` (two coordinates `d`),
  and the pooled feature is `pool (b,n) = 0 + ∑ p, exp (− dist b n p) · msk (b,p)` over the 2048 points.
  The leading zeros are the sums' initial values, kept as the zero word of the programs so that no literal is
  evaluated where both sides carry it.
-/
import Idealize.ShloMosaic.PureOps.Ideal
import Idealize.ShloMosaic.Lib.ValueIdx

noncomputable section

namespace Cert.RbfPool

open Idealize.ShloMosaic Idealize.ShloMosaic.ValueIdx
open scoped BigOperators

/-- The point clouds `[64, 2048, 2]`. -/
abbrev SX : Shape := ⟨3, ![64, 2048, 2]⟩
/-- The point masks `[64, 2048]`. -/
abbrev SM : Shape := ⟨2, ![64, 2048]⟩
/-- The centres and the sharpness `[128, 2]`. -/
abbrev SC : Shape := ⟨2, ![128, 2]⟩
/-- The pooled features `[64, 128]`. -/
abbrev SO : Shape := ⟨2, ![64, 128]⟩

/-- The zero the sums start from: the programs' zero word, read at the ideal instance. -/
abbrev z0 : EReal := Ideal.ofBits .f32 0x00000000#32

/-- The weighted squared distance of point `p` of batch entry `b` from centre `n`. -/
def dist (x : SX.Idx → EReal) (cen shp : SC.Idx → EReal) (b : Fin 64) (n : Fin 128) (p : Fin 2048) : EReal :=
  z0 + ∑ d : Fin 2, shp (ix2 n d) * (cen (ix2 n d) - x (ix3 b p d)) * (cen (ix2 n d) - x (ix3 b p d))

/-- The pooled feature of batch entry `b` at centre `n`: the masked sum over the points of `exp (− dist)`. -/
def pool (x : SX.Idx → EReal) (msk : SM.Idx → EReal) (cen shp : SC.Idx → EReal) : SO.Idx → EReal := fun i =>
  z0 + ∑ p : Fin 2048, Ideal.exp (-(dist x cen shp (i 0) (i 1) p)) * msk (ix2 (i 0) p)

/-- The two other literals the factored form carries: the words of `1.0` and `2.0`, read at the ideal instance. -/
abbrev one : EReal := Ideal.ofBits .f32 0x3F800000#32
abbrev two : EReal := Ideal.ofBits .f32 0x40000000#32

/-- The eight features of point `p` of batch entry `b`: its two coordinates, their squares, a one, and three
    zeros of padding. -/
def feat (x : SX.Idx → EReal) (b : Fin 64) (p : Fin 2048) : Fin 8 → EReal :=
  ![x (ix3 b p 0), x (ix3 b p 1), x (ix3 b p 0) * x (ix3 b p 0), x (ix3 b p 1) * x (ix3 b p 1), one, z0, z0, z0]

/-- The eight weights of centre `n`, with the signs folded in, so that `∑ k, feat k · wrow k` is `− dist`
    on real entries: `2·s·c` against a coordinate, `−s` against its square, `−(s₀c₀² + s₁c₁²)` against the one. -/
def wrow (cen shp : SC.Idx → EReal) (n : Fin 128) : Fin 8 → EReal :=
  ![two * shp (ix2 n 0) * cen (ix2 n 0), two * shp (ix2 n 1) * cen (ix2 n 1), -shp (ix2 n 0), -shp (ix2 n 1),
    -(shp (ix2 n 0) * cen (ix2 n 0) * cen (ix2 n 0) + shp (ix2 n 1) * cen (ix2 n 1) * cen (ix2 n 1)), z0, z0, z0]

theorem pool_apply (x : SX.Idx → EReal) (msk : SM.Idx → EReal) (cen shp : SC.Idx → EReal) (b : Fin 64) (n : Fin 128) :
    pool x msk cen shp (ix2 b n) = z0 + ∑ p : Fin 2048, Ideal.exp (-(dist x cen shp b n p)) * msk (ix2 b p) := rfl

end Cert.RbfPool

end
-- ==== Proof.LibNaryEight.lean ====
/-
  A host operation of EIGHT operands, read at its result.

  A host operation over a family of operand buffers writes, at its result buffer, its function of the operands'
  contents. For a literal family of eight references the contents can be named one by one — each at its own
  reference — instead of through the family's index, so that what each operand holds can itself be rewritten (a
  concatenation of eight pieces). General in the signature, the value type and the function.
-/
import Idealize.ShloMosaic.Lib.StableHlo.Run

noncomputable section

namespace Cert.NaryEight

open Idealize.ShloMosaic Idealize.ShloMosaic.StableHlo Idealize.SL.Sem

variable {τ : Topo} {sig : RefSig} {Val : EltTy → Type}
variable {x₀ x₁ x₂ x₃ x₄ x₅ x₆ x₇ y : Ref sig .tc}

/-- The result of an eight-operand host operation, the operands' contents each at its own reference. -/
theorem nary8_result
    (f : ((k : Fin 8) → ((![x₀, x₁, x₂, x₃, x₄, x₅, x₆, x₇] : Fin 8 → Ref sig .tc) k).ty.Contents Val) → y.ty.Contents Val) (hxs hy)
    (F : Valuation τ sig Val) :
    (nary (τ := τ) ![x₀, x₁, x₂, x₃, x₄, x₅, x₆, x₇] y f hxs hy).result F (Proc.devRef .tc y)
      = f (Fin.cons (F (Proc.devRef .tc x₀)) (Fin.cons (F (Proc.devRef .tc x₁)) (Fin.cons (F (Proc.devRef .tc x₂))
          (Fin.cons (F (Proc.devRef .tc x₃)) (Fin.cons (F (Proc.devRef .tc x₄)) (Fin.cons (F (Proc.devRef .tc x₅))
          (Fin.cons (F (Proc.devRef .tc x₆)) (Fin.cons (F (Proc.devRef .tc x₇)) (fun i => i.elim0))))))))) := by
  rw [nary_result]; congr 1; funext k; fin_cases k <;> rfl

/-- The same equation, the result reference matched whatever its spelling. -/
theorem nary8_result'
    (f : ((k : Fin 8) → ((![x₀, x₁, x₂, x₃, x₄, x₅, x₆, x₇] : Fin 8 → Ref sig .tc) k).ty.Contents Val) → y.ty.Contents Val) (hxs hy)
    (F : Valuation τ sig Val) :
    (nary (τ := τ) ![x₀, x₁, x₂, x₃, x₄, x₅, x₆, x₇] y f hxs hy).result F (no_index (Proc.devRef .tc y))
      = f (Fin.cons (F (Proc.devRef .tc x₀)) (Fin.cons (F (Proc.devRef .tc x₁)) (Fin.cons (F (Proc.devRef .tc x₂))
          (Fin.cons (F (Proc.devRef .tc x₃)) (Fin.cons (F (Proc.devRef .tc x₄)) (Fin.cons (F (Proc.devRef .tc x₅))
          (Fin.cons (F (Proc.devRef .tc x₆)) (Fin.cons (F (Proc.devRef .tc x₇)) (fun i => i.elim0))))))))) :=
  nary8_result f hxs hy F

end Cert.NaryEight

end
-- ==== Proof.LibEightPieces.lean ====
/-
  Eight unit pieces joined along one axis, read at an index.

  Eight rows [1, C] stacked along the row axis form [8, C]: entry (k, q) of the stack is entry (0, q) of row k.
  Eight rank-three arrays [A, B, 1] laid side by side along their last axis form [A, B, 8]: entry (i, j, k) is
  entry (i, j, 0) of piece k. Each piece has extent one along the joined axis, so the coordinate on that axis
  names the piece. General in the extents and in the element type.
-/
import Idealize.ShloMosaic.Lib.Pipeline.Value
import Idealize.ShloMosaic.Lib.ValueIdx

namespace Cert.EightPieces

open Idealize.ShloMosaic Idealize.ShloMosaic.ValueIdx

variable {α : Type}

/-- Eight rows stacked: entry (k, q) is row k's entry (0, q). -/
theorem rows8_apply {C : ℕ} (x₀ x₁ x₂ x₃ x₄ x₅ x₆ x₇ : (⟨2, ![1, C]⟩ : Shape).Idx → α)
    (h : Shape.Concatenates [(⟨2, ![1, C]⟩ : Shape), (⟨2, ![1, C]⟩ : Shape), (⟨2, ![1, C]⟩ : Shape), (⟨2, ![1, C]⟩ : Shape), (⟨2, ![1, C]⟩ : Shape), (⟨2, ![1, C]⟩ : Shape), (⟨2, ![1, C]⟩ : Shape), (⟨2, ![1, C]⟩ : Shape)] ⟨2, ![8, C]⟩ 0) (k : Fin 8) (q : Fin C) :
    concatenate ⟨2, ![8, C]⟩ 0 [⟨(⟨2, ![1, C]⟩ : Shape), x₀⟩, ⟨(⟨2, ![1, C]⟩ : Shape), x₁⟩, ⟨(⟨2, ![1, C]⟩ : Shape), x₂⟩, ⟨(⟨2, ![1, C]⟩ : Shape), x₃⟩, ⟨(⟨2, ![1, C]⟩ : Shape), x₄⟩, ⟨(⟨2, ![1, C]⟩ : Shape), x₅⟩, ⟨(⟨2, ![1, C]⟩ : Shape), x₆⟩, ⟨(⟨2, ![1, C]⟩ : Shape), x₇⟩] h (ix2 k q)
      = (![x₀, x₁, x₂, x₃, x₄, x₅, x₆, x₇] : Fin 8 → (⟨2, ![1, C]⟩ : Shape).Idx → α) k (ix2 (0 : Fin 1) q) := by
  match k with
  | ⟨0, _⟩ =>
    exact concatenate_apply_piece (t := ⟨2, ![8, C]⟩) (0 : Fin 2) [⟨(⟨2, ![1, C]⟩ : Shape), x₀⟩, ⟨(⟨2, ![1, C]⟩ : Shape), x₁⟩, ⟨(⟨2, ![1, C]⟩ : Shape), x₂⟩, ⟨(⟨2, ![1, C]⟩ : Shape), x₃⟩, ⟨(⟨2, ![1, C]⟩ : Shape), x₄⟩, ⟨(⟨2, ![1, C]⟩ : Shape), x₅⟩, ⟨(⟨2, ![1, C]⟩ : Shape), x₆⟩, ⟨(⟨2, ![1, C]⟩ : Shape), x₇⟩] h (ix2 _ q) 0 (by show (0 : ℕ) < 8; omega) (⟨2, ![1, C]⟩ : Shape) x₀ rfl rfl 0 rfl
      (ix2 (0 : Fin 1) q) (fun d hd => by
        match d with
        | ⟨0, _⟩ => exact absurd rfl hd
        | ⟨1, _⟩ => rfl) rfl
  | ⟨1, _⟩ =>
    exact concatenate_apply_piece (t := ⟨2, ![8, C]⟩) (0 : Fin 2) [⟨(⟨2, ![1, C]⟩ : Shape), x₀⟩, ⟨(⟨2, ![1, C]⟩ : Shape), x₁⟩, ⟨(⟨2, ![1, C]⟩ : Shape), x₂⟩, ⟨(⟨2, ![1, C]⟩ : Shape), x₃⟩, ⟨(⟨2, ![1, C]⟩ : Shape), x₄⟩, ⟨(⟨2, ![1, C]⟩ : Shape), x₅⟩, ⟨(⟨2, ![1, C]⟩ : Shape), x₆⟩, ⟨(⟨2, ![1, C]⟩ : Shape), x₇⟩] h (ix2 _ q) 1 (by show (1 : ℕ) < 8; omega) (⟨2, ![1, C]⟩ : Shape) x₁ rfl rfl 1 rfl
      (ix2 (0 : Fin 1) q) (fun d hd => by
        match d with
        | ⟨0, _⟩ => exact absurd rfl hd
        | ⟨1, _⟩ => rfl) rfl
  | ⟨2, _⟩ =>
    exact concatenate_apply_piece (t := ⟨2, ![8, C]⟩) (0 : Fin 2) [⟨(⟨2, ![1, C]⟩ : Shape), x₀⟩, ⟨(⟨2, ![1, C]⟩ : Shape), x₁⟩, ⟨(⟨2, ![1, C]⟩ : Shape), x₂⟩, ⟨(⟨2, ![1, C]⟩ : Shape), x₃⟩, ⟨(⟨2, ![1, C]⟩ : Shape), x₄⟩, ⟨(⟨2, ![1, C]⟩ : Shape), x₅⟩, ⟨(⟨2, ![1, C]⟩ : Shape), x₆⟩, ⟨(⟨2, ![1, C]⟩ : Shape), x₇⟩] h (ix2 _ q) 2 (by show (2 : ℕ) < 8; omega) (⟨2, ![1, C]⟩ : Shape) x₂ rfl rfl 2 rfl
      (ix2 (0 : Fin 1) q) (fun d hd => by
        match d with
        | ⟨0, _⟩ => exact absurd rfl hd
        | ⟨1, _⟩ => rfl) rfl
  | ⟨3, _⟩ =>
    exact concatenate_apply_piece (t := ⟨2, ![8, C]⟩) (0 : Fin 2) [⟨(⟨2, ![1, C]⟩ : Shape), x₀⟩, ⟨(⟨2, ![1, C]⟩ : Shape), x₁⟩, ⟨(⟨2, ![1, C]⟩ : Shape), x₂⟩, ⟨(⟨2, ![1, C]⟩ : Shape), x₃⟩, ⟨(⟨2, ![1, C]⟩ : Shape), x₄⟩, ⟨(⟨2, ![1, C]⟩ : Shape), x₅⟩, ⟨(⟨2, ![1, C]⟩ : Shape), x₆⟩, ⟨(⟨2, ![1, C]⟩ : Shape), x₇⟩] h (ix2 _ q) 3 (by show (3 : ℕ) < 8; omega) (⟨2, ![1, C]⟩ : Shape) x₃ rfl rfl 3 rfl
      (ix2 (0 : Fin 1) q) (fun d hd => by
        match d with
        | ⟨0, _⟩ => exact absurd rfl hd
        | ⟨1, _⟩ => rfl) rfl
  | ⟨4, _⟩ =>
    exact concatenate_apply_piece (t := ⟨2, ![8, C]⟩) (0 : Fin 2) [⟨(⟨2, ![1, C]⟩ : Shape), x₀⟩, ⟨(⟨2, ![1, C]⟩ : Shape), x₁⟩, ⟨(⟨2, ![1, C]⟩ : Shape), x₂⟩, ⟨(⟨2, ![1, C]⟩ : Shape), x₃⟩, ⟨(⟨2, ![1, C]⟩ : Shape), x₄⟩, ⟨(⟨2, ![1, C]⟩ : Shape), x₅⟩, ⟨(⟨2, ![1, C]⟩ : Shape), x₆⟩, ⟨(⟨2, ![1, C]⟩ : Shape), x₇⟩] h (ix2 _ q) 4 (by show (4 : ℕ) < 8; omega) (⟨2, ![1, C]⟩ : Shape) x₄ rfl rfl 4 rfl
      (ix2 (0 : Fin 1) q) (fun d hd => by
        match d with
        | ⟨0, _⟩ => exact absurd rfl hd
        | ⟨1, _⟩ => rfl) rfl
  | ⟨5, _⟩ =>
    exact concatenate_apply_piece (t := ⟨2, ![8, C]⟩) (0 : Fin 2) [⟨(⟨2, ![1, C]⟩ : Shape), x₀⟩, ⟨(⟨2, ![1, C]⟩ : Shape), x₁⟩, ⟨(⟨2, ![1, C]⟩ : Shape), x₂⟩, ⟨(⟨2, ![1, C]⟩ : Shape), x₃⟩, ⟨(⟨2, ![1, C]⟩ : Shape), x₄⟩, ⟨(⟨2, ![1, C]⟩ : Shape), x₅⟩, ⟨(⟨2, ![1, C]⟩ : Shape), x₆⟩, ⟨(⟨2, ![1, C]⟩ : Shape), x₇⟩] h (ix2 _ q) 5 (by show (5 : ℕ) < 8; omega) (⟨2, ![1, C]⟩ : Shape) x₅ rfl rfl 5 rfl
      (ix2 (0 : Fin 1) q) (fun d hd => by
        match d with
        | ⟨0, _⟩ => exact absurd rfl hd
        | ⟨1, _⟩ => rfl) rfl
  | ⟨6, _⟩ =>
    exact concatenate_apply_piece (t := ⟨2, ![8, C]⟩) (0 : Fin 2) [⟨(⟨2, ![1, C]⟩ : Shape), x₀⟩, ⟨(⟨2, ![1, C]⟩ : Shape), x₁⟩, ⟨(⟨2, ![1, C]⟩ : Shape), x₂⟩, ⟨(⟨2, ![1, C]⟩ : Shape), x₃⟩, ⟨(⟨2, ![1, C]⟩ : Shape), x₄⟩, ⟨(⟨2, ![1, C]⟩ : Shape), x₅⟩, ⟨(⟨2, ![1, C]⟩ : Shape), x₆⟩, ⟨(⟨2, ![1, C]⟩ : Shape), x₇⟩] h (ix2 _ q) 6 (by show (6 : ℕ) < 8; omega) (⟨2, ![1, C]⟩ : Shape) x₆ rfl rfl 6 rfl
      (ix2 (0 : Fin 1) q) (fun d hd => by
        match d with
        | ⟨0, _⟩ => exact absurd rfl hd
        | ⟨1, _⟩ => rfl) rfl
  | ⟨7, _⟩ =>
    exact concatenate_apply_piece (t := ⟨2, ![8, C]⟩) (0 : Fin 2) [⟨(⟨2, ![1, C]⟩ : Shape), x₀⟩, ⟨(⟨2, ![1, C]⟩ : Shape), x₁⟩, ⟨(⟨2, ![1, C]⟩ : Shape), x₂⟩, ⟨(⟨2, ![1, C]⟩ : Shape), x₃⟩, ⟨(⟨2, ![1, C]⟩ : Shape), x₄⟩, ⟨(⟨2, ![1, C]⟩ : Shape), x₅⟩, ⟨(⟨2, ![1, C]⟩ : Shape), x₆⟩, ⟨(⟨2, ![1, C]⟩ : Shape), x₇⟩] h (ix2 _ q) 7 (by show (7 : ℕ) < 8; omega) (⟨2, ![1, C]⟩ : Shape) x₇ rfl rfl 7 rfl
      (ix2 (0 : Fin 1) q) (fun d hd => by
        match d with
        | ⟨0, _⟩ => exact absurd rfl hd
        | ⟨1, _⟩ => rfl) rfl

/-- Eight unit pieces along the last axis of a rank-three array: entry (i, j, k) is piece k's entry (i, j, 0). -/
theorem last8_apply {A B : ℕ} (x₀ x₁ x₂ x₃ x₄ x₅ x₆ x₇ : (⟨3, ![A, B, 1]⟩ : Shape).Idx → α)
    (h : Shape.Concatenates [(⟨3, ![A, B, 1]⟩ : Shape), (⟨3, ![A, B, 1]⟩ : Shape), (⟨3, ![A, B, 1]⟩ : Shape), (⟨3, ![A, B, 1]⟩ : Shape), (⟨3, ![A, B, 1]⟩ : Shape), (⟨3, ![A, B, 1]⟩ : Shape), (⟨3, ![A, B, 1]⟩ : Shape), (⟨3, ![A, B, 1]⟩ : Shape)] ⟨3, ![A, B, 8]⟩ 2) (i : Fin A) (j : Fin B) (k : Fin 8) :
    concatenate ⟨3, ![A, B, 8]⟩ 2 [⟨(⟨3, ![A, B, 1]⟩ : Shape), x₀⟩, ⟨(⟨3, ![A, B, 1]⟩ : Shape), x₁⟩, ⟨(⟨3, ![A, B, 1]⟩ : Shape), x₂⟩, ⟨(⟨3, ![A, B, 1]⟩ : Shape), x₃⟩, ⟨(⟨3, ![A, B, 1]⟩ : Shape), x₄⟩, ⟨(⟨3, ![A, B, 1]⟩ : Shape), x₅⟩, ⟨(⟨3, ![A, B, 1]⟩ : Shape), x₆⟩, ⟨(⟨3, ![A, B, 1]⟩ : Shape), x₇⟩] h (ix3 i j k)
      = (![x₀, x₁, x₂, x₃, x₄, x₅, x₆, x₇] : Fin 8 → (⟨3, ![A, B, 1]⟩ : Shape).Idx → α) k (ix3 i j (0 : Fin 1)) := by
  match k with
  | ⟨0, _⟩ =>
    exact concatenate_apply_piece (t := ⟨3, ![A, B, 8]⟩) (2 : Fin 3) [⟨(⟨3, ![A, B, 1]⟩ : Shape), x₀⟩, ⟨(⟨3, ![A, B, 1]⟩ : Shape), x₁⟩, ⟨(⟨3, ![A, B, 1]⟩ : Shape), x₂⟩, ⟨(⟨3, ![A, B, 1]⟩ : Shape), x₃⟩, ⟨(⟨3, ![A, B, 1]⟩ : Shape), x₄⟩, ⟨(⟨3, ![A, B, 1]⟩ : Shape), x₅⟩, ⟨(⟨3, ![A, B, 1]⟩ : Shape), x₆⟩, ⟨(⟨3, ![A, B, 1]⟩ : Shape), x₇⟩] h (ix3 i j _) 0 (by show (0 : ℕ) < 8; omega) (⟨3, ![A, B, 1]⟩ : Shape) x₀ rfl rfl 0 rfl
      (ix3 i j (0 : Fin 1)) (fun d hd => by
        match d with
        | ⟨0, _⟩ => rfl
        | ⟨1, _⟩ => rfl
        | ⟨2, _⟩ => exact absurd rfl hd) rfl
  | ⟨1, _⟩ =>
    exact concatenate_apply_piece (t := ⟨3, ![A, B, 8]⟩) (2 : Fin 3) [⟨(⟨3, ![A, B, 1]⟩ : Shape), x₀⟩, ⟨(⟨3, ![A, B, 1]⟩ : Shape), x₁⟩, ⟨(⟨3, ![A, B, 1]⟩ : Shape), x₂⟩, ⟨(⟨3, ![A, B, 1]⟩ : Shape), x₃⟩, ⟨(⟨3, ![A, B, 1]⟩ : Shape), x₄⟩, ⟨(⟨3, ![A, B, 1]⟩ : Shape), x₅⟩, ⟨(⟨3, ![A, B, 1]⟩ : Shape), x₆⟩, ⟨(⟨3, ![A, B, 1]⟩ : Shape), x₇⟩] h (ix3 i j _) 1 (by show (1 : ℕ) < 8; omega) (⟨3, ![A, B, 1]⟩ : Shape) x₁ rfl rfl 1 rfl
      (ix3 i j (0 : Fin 1)) (fun d hd => by
        match d with
        | ⟨0, _⟩ => rfl
        | ⟨1, _⟩ => rfl
        | ⟨2, _⟩ => exact absurd rfl hd) rfl
  | ⟨2, _⟩ =>
    exact concatenate_apply_piece (t := ⟨3, ![A, B, 8]⟩) (2 : Fin 3) [⟨(⟨3, ![A, B, 1]⟩ : Shape), x₀⟩, ⟨(⟨3, ![A, B, 1]⟩ : Shape), x₁⟩, ⟨(⟨3, ![A, B, 1]⟩ : Shape), x₂⟩, ⟨(⟨3, ![A, B, 1]⟩ : Shape), x₃⟩, ⟨(⟨3, ![A, B, 1]⟩ : Shape), x₄⟩, ⟨(⟨3, ![A, B, 1]⟩ : Shape), x₅⟩, ⟨(⟨3, ![A, B, 1]⟩ : Shape), x₆⟩, ⟨(⟨3, ![A, B, 1]⟩ : Shape), x₇⟩] h (ix3 i j _) 2 (by show (2 : ℕ) < 8; omega) (⟨3, ![A, B, 1]⟩ : Shape) x₂ rfl rfl 2 rfl
      (ix3 i j (0 : Fin 1)) (fun d hd => by
        match d with
        | ⟨0, _⟩ => rfl
        | ⟨1, _⟩ => rfl
        | ⟨2, _⟩ => exact absurd rfl hd) rfl
  | ⟨3, _⟩ =>
    exact concatenate_apply_piece (t := ⟨3, ![A, B, 8]⟩) (2 : Fin 3) [⟨(⟨3, ![A, B, 1]⟩ : Shape), x₀⟩, ⟨(⟨3, ![A, B, 1]⟩ : Shape), x₁⟩, ⟨(⟨3, ![A, B, 1]⟩ : Shape), x₂⟩, ⟨(⟨3, ![A, B, 1]⟩ : Shape), x₃⟩, ⟨(⟨3, ![A, B, 1]⟩ : Shape), x₄⟩, ⟨(⟨3, ![A, B, 1]⟩ : Shape), x₅⟩, ⟨(⟨3, ![A, B, 1]⟩ : Shape), x₆⟩, ⟨(⟨3, ![A, B, 1]⟩ : Shape), x₇⟩] h (ix3 i j _) 3 (by show (3 : ℕ) < 8; omega) (⟨3, ![A, B, 1]⟩ : Shape) x₃ rfl rfl 3 rfl
      (ix3 i j (0 : Fin 1)) (fun d hd => by
        match d with
        | ⟨0, _⟩ => rfl
        | ⟨1, _⟩ => rfl
        | ⟨2, _⟩ => exact absurd rfl hd) rfl
  | ⟨4, _⟩ =>
    exact concatenate_apply_piece (t := ⟨3, ![A, B, 8]⟩) (2 : Fin 3) [⟨(⟨3, ![A, B, 1]⟩ : Shape), x₀⟩, ⟨(⟨3, ![A, B, 1]⟩ : Shape), x₁⟩, ⟨(⟨3, ![A, B, 1]⟩ : Shape), x₂⟩, ⟨(⟨3, ![A, B, 1]⟩ : Shape), x₃⟩, ⟨(⟨3, ![A, B, 1]⟩ : Shape), x₄⟩, ⟨(⟨3, ![A, B, 1]⟩ : Shape), x₅⟩, ⟨(⟨3, ![A, B, 1]⟩ : Shape), x₆⟩, ⟨(⟨3, ![A, B, 1]⟩ : Shape), x₇⟩] h (ix3 i j _) 4 (by show (4 : ℕ) < 8; omega) (⟨3, ![A, B, 1]⟩ : Shape) x₄ rfl rfl 4 rfl
      (ix3 i j (0 : Fin 1)) (fun d hd => by
        match d with
        | ⟨0, _⟩ => rfl
        | ⟨1, _⟩ => rfl
        | ⟨2, _⟩ => exact absurd rfl hd) rfl
  | ⟨5, _⟩ =>
    exact concatenate_apply_piece (t := ⟨3, ![A, B, 8]⟩) (2 : Fin 3) [⟨(⟨3, ![A, B, 1]⟩ : Shape), x₀⟩, ⟨(⟨3, ![A, B, 1]⟩ : Shape), x₁⟩, ⟨(⟨3, ![A, B, 1]⟩ : Shape), x₂⟩, ⟨(⟨3, ![A, B, 1]⟩ : Shape), x₃⟩, ⟨(⟨3, ![A, B, 1]⟩ : Shape), x₄⟩, ⟨(⟨3, ![A, B, 1]⟩ : Shape), x₅⟩, ⟨(⟨3, ![A, B, 1]⟩ : Shape), x₆⟩, ⟨(⟨3, ![A, B, 1]⟩ : Shape), x₇⟩] h (ix3 i j _) 5 (by show (5 : ℕ) < 8; omega) (⟨3, ![A, B, 1]⟩ : Shape) x₅ rfl rfl 5 rfl
      (ix3 i j (0 : Fin 1)) (fun d hd => by
        match d with
        | ⟨0, _⟩ => rfl
        | ⟨1, _⟩ => rfl
        | ⟨2, _⟩ => exact absurd rfl hd) rfl
  | ⟨6, _⟩ =>
    exact concatenate_apply_piece (t := ⟨3, ![A, B, 8]⟩) (2 : Fin 3) [⟨(⟨3, ![A, B, 1]⟩ : Shape), x₀⟩, ⟨(⟨3, ![A, B, 1]⟩ : Shape), x₁⟩, ⟨(⟨3, ![A, B, 1]⟩ : Shape), x₂⟩, ⟨(⟨3, ![A, B, 1]⟩ : Shape), x₃⟩, ⟨(⟨3, ![A, B, 1]⟩ : Shape), x₄⟩, ⟨(⟨3, ![A, B, 1]⟩ : Shape), x₅⟩, ⟨(⟨3, ![A, B, 1]⟩ : Shape), x₆⟩, ⟨(⟨3, ![A, B, 1]⟩ : Shape), x₇⟩] h (ix3 i j _) 6 (by show (6 : ℕ) < 8; omega) (⟨3, ![A, B, 1]⟩ : Shape) x₆ rfl rfl 6 rfl
      (ix3 i j (0 : Fin 1)) (fun d hd => by
        match d with
        | ⟨0, _⟩ => rfl
        | ⟨1, _⟩ => rfl
        | ⟨2, _⟩ => exact absurd rfl hd) rfl
  | ⟨7, _⟩ =>
    exact concatenate_apply_piece (t := ⟨3, ![A, B, 8]⟩) (2 : Fin 3) [⟨(⟨3, ![A, B, 1]⟩ : Shape), x₀⟩, ⟨(⟨3, ![A, B, 1]⟩ : Shape), x₁⟩, ⟨(⟨3, ![A, B, 1]⟩ : Shape), x₂⟩, ⟨(⟨3, ![A, B, 1]⟩ : Shape), x₃⟩, ⟨(⟨3, ![A, B, 1]⟩ : Shape), x₄⟩, ⟨(⟨3, ![A, B, 1]⟩ : Shape), x₅⟩, ⟨(⟨3, ![A, B, 1]⟩ : Shape), x₆⟩, ⟨(⟨3, ![A, B, 1]⟩ : Shape), x₇⟩] h (ix3 i j _) 7 (by show (7 : ℕ) < 8; omega) (⟨3, ![A, B, 1]⟩ : Shape) x₇ rfl rfl 7 rfl
      (ix3 i j (0 : Fin 1)) (fun d hd => by
        match d with
        | ⟨0, _⟩ => rfl
        | ⟨1, _⟩ => rfl
        | ⟨2, _⟩ => exact absurd rfl hd) rfl

end Cert.EightPieces
-- ==== Proof.LibLastAxisColumn.lean ====
/-
  The last axis of a rank-three array: one unit-wide slab cut out by a unit-stride slice, and a trailing unit axis
  dropped by a reshape, each read at an index given by its coordinates.

  The slice of [a, b, n] at offsets (0, 0, c) with extents [a, b, 1] is the slab at last coordinate c: its entry
  (p, q, u) is the array's entry (p, q, c), the unit coordinate u being 0. An array [a, b, 1] cast to [a, b] reads
  at (i, j) its entry (i, j, 0): both have row-major position i·b + j, the unit coordinate contributing nothing.
  General in the extents and in the element type.
-/
import Idealize.ShloMosaic.Lib.Pipeline.Value
import Idealize.ShloMosaic.Lib.ValueIdx

namespace Cert.LastAxisColumn

open Idealize.ShloMosaic Idealize.ShloMosaic.ValueIdx

variable {α : Type}

/-- The slab at last coordinate c, sliced out as [a, b, 1], reads at (p, q, u) the array's entry (p, q, c). -/
theorem slice_last_apply {a b n : ℕ} (c : ℕ) (hc : c < n) (x : (⟨3, ![a, b, n]⟩ : Shape).Idx → α)
    (h : (⟨3, ![a, b, n]⟩ : Shape).Slices ![0, 0, c] ⟨3, ![a, b, 1]⟩) (p : Fin a) (q : Fin b) (u : Fin 1) :
    extractStridedSlice ⟨3, ![a, b, 1]⟩ ![0, 0, c] x h (ix3 p q u) = x (ix3 p q ⟨c, hc⟩) := by
  refine extractStridedSlice_apply _ x h (ix3 p q u) (ix3 p q ⟨c, hc⟩) fun ax => ?_
  match ax with
  | ⟨0, _⟩ => show p.val = 0 + p.val; omega
  | ⟨1, _⟩ => show q.val = 0 + q.val; omega
  | ⟨2, _⟩ => show c = c + u.val; omega

/-- An array [a, b, 1] cast to [a, b] reads, at (i, j), its entry (i, j, 0). -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    omega)

end Cert.LastAxisColumn
-- ==== Proof.LibHostLayout.lean ====
/-
  Host layout operations read at coordinates: broadcast_in_dim between ranks 1, 2 and 3, a scalar splat, and a pad
  that extends the last axis on its high side. A broadcast_in_dim copies the operand along the new axes and along
  its own unit axes, so an entry of the result is the operand's entry at the coordinates the dimension map keeps
  (0 on a unit axis). A high-side pad of the last axis keeps the operand where the last coordinate is inside the
  operand's extent and holds the padding value beyond it. General in the extents and in the element type.
-/
import Idealize.ShloMosaic.Lib.Pipeline.Value
import Idealize.ShloMosaic.Lib.ValueIdx
import Idealize.ShloMosaic.Lib.KernelVsHost

namespace Cert.HostLayout

open Idealize.ShloMosaic Idealize.ShloMosaic.ValueIdx

variable {α : Type}

/-- A rank-zero operand splat to any shape reads its one entry everywhere. -/
theorem bid_scalar_apply {t : Shape} (x : (⟨0, ![]⟩ : Shape).Idx → α) (dims : Fin 0 → Fin t.rank)
    (h : (⟨0, ![]⟩ : Shape).BroadcastsInDim t dims) (j : t.Idx) : broadcastInDim t dims h x j = x ix0 :=
  broadcastInDim_apply dims h x j ix0 fun ax => ax.elim0

/-- [a, b] → [a, b, 1] along axes 0, 1: entry (p, q, u) is entry (p, q). -/
theorem bid_ab_ab1_apply {a b : ℕ} (p : Fin a) (q : Fin b) (u : Fin 1) (x : (⟨2, ![a, b]⟩ : Shape).Idx → α)
    (h : (⟨2, ![a, b]⟩ : Shape).BroadcastsInDim ⟨3, ![a, b, 1]⟩ ![0, 1]) :
    broadcastInDim ⟨3, ![a, b, 1]⟩ ![0, 1] h x (ix3 p q u) = x (ix2 p q) := by
  refine broadcastInDim_apply ![0, 1] h x _ _ fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl

/-- [a, b, 1] → [a, b, c] along axes 0, 1, 2: entry (p, q, r) is entry (p, q, 0). -/
theorem bid_ab1_abc_apply {a b c : ℕ} (p : Fin a) (q : Fin b) (r : Fin c) (x : (⟨3, ![a, b, 1]⟩ : Shape).Idx → α)
    (h : (⟨3, ![a, b, 1]⟩ : Shape).BroadcastsInDim ⟨3, ![a, b, c]⟩ ![0, 1, 2]) :
    broadcastInDim ⟨3, ![a, b, c]⟩ ![0, 1, 2] h x (ix3 p q r) = x (ix3 p q (0 : Fin 1)) := by
  refine broadcastInDim_apply ![0, 1, 2] h x _ _ fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ =>
    show 0 = if 1 = 1 then 0 else r.val
    exact (if_pos rfl).symm

/-- [c] → [1, 1, c] along axis 2: entry (u, v, r) is entry r. -/
theorem bid_c_11c_apply {c : ℕ} (u v : Fin 1) (r : Fin c) (x : (⟨1, ![c]⟩ : Shape).Idx → α)
    (h : (⟨1, ![c]⟩ : Shape).BroadcastsInDim ⟨3, ![1, 1, c]⟩ ![2]) :
    broadcastInDim ⟨3, ![1, 1, c]⟩ ![2] h x (ix3 u v r) = x (ix1 r) := by
  refine broadcastInDim_apply ![2] h x _ _ fun ax => ?_
  match ax with
  | ⟨0, _⟩ =>
    show r.val = if c = 1 then 0 else r.val
    split
    · have := r.isLt; omega
    · rfl

/-- [1, 1, c] → [a, b, c] along axes 0, 1, 2: entry (p, q, r) is entry (0, 0, r). -/
theorem bid_11c_abc_apply {a b c : ℕ} (p : Fin a) (q : Fin b) (r : Fin c) (x : (⟨3, ![1, 1, c]⟩ : Shape).Idx → α)
    (h : (⟨3, ![1, 1, c]⟩ : Shape).BroadcastsInDim ⟨3, ![a, b, c]⟩ ![0, 1, 2]) :
    broadcastInDim ⟨3, ![a, b, c]⟩ ![0, 1, 2] h x (ix3 p q r) = x (ix3 (0 : Fin 1) (0 : Fin 1) r) := by
  refine broadcastInDim_apply ![0, 1, 2] h x _ _ fun ax => ?_
  match ax with
  | ⟨0, _⟩ =>
    show 0 = if 1 = 1 then 0 else p.val
    exact (if_pos rfl).symm
  | ⟨1, _⟩ =>
    show 0 = if 1 = 1 then 0 else q.val
    exact (if_pos rfl).symm
  | ⟨2, _⟩ =>
    show r.val = if c = 1 then 0 else r.val
    split
    · have := r.isLt; omega
    · rfl

/-- [a, c] → [a, 1, c] along axes 0, 2: entry (p, u, r) is entry (p, r). -/
theorem bid_ac_a1c_apply {a c : ℕ} (p : Fin a) (u : Fin 1) (r : Fin c) (x : (⟨2, ![a, c]⟩ : Shape).Idx → α)
    (h : (⟨2, ![a, c]⟩ : Shape).BroadcastsInDim ⟨3, ![a, 1, c]⟩ ![0, 2]) :
    broadcastInDim ⟨3, ![a, 1, c]⟩ ![0, 2] h x (ix3 p u r) = x (ix2 p r) := by
  refine broadcastInDim_apply ![0, 2] h x _ _ fun ax => ?_
  match ax with
  | ⟨0, _⟩ =>
    show p.val = if a = 1 then 0 else p.val
    split
    · have := p.isLt; omega
    · rfl
  | ⟨1, _⟩ =>
    show r.val = if c = 1 then 0 else r.val
    split
    · have := r.isLt; omega
    · rfl

/-- [a, 1, c] → [a, b, c] along axes 0, 1, 2: entry (p, q, r) is entry (p, 0, r). -/
theorem bid_a1c_abc_apply {a b c : ℕ} (p : Fin a) (q : Fin b) (r : Fin c) (x : (⟨3, ![a, 1, c]⟩ : Shape).Idx → α)
    (h : (⟨3, ![a, 1, c]⟩ : Shape).BroadcastsInDim ⟨3, ![a, b, c]⟩ ![0, 1, 2]) :
    broadcastInDim ⟨3, ![a, b, c]⟩ ![0, 1, 2] h x (ix3 p q r) = x (ix3 p (0 : Fin 1) r) := by
  refine broadcastInDim_apply ![0, 1, 2] h x _ _ fun ax => ?_
  match ax with
  | ⟨0, _⟩ =>
    show p.val = if a = 1 then 0 else p.val
    split
    · have := p.isLt; omega
    · rfl
  | ⟨1, _⟩ =>
    show 0 = if 1 = 1 then 0 else q.val
    exact (if_pos rfl).symm
  | ⟨2, _⟩ =>
    show r.val = if c = 1 then 0 else r.val
    split
    · have := r.isLt; omega
    · rfl

/-- [c] → [1, c] along axis 1: entry (u, r) is entry r. -/
theorem bid_c_1c_apply {c : ℕ} (u : Fin 1) (r : Fin c) (x : (⟨1, ![c]⟩ : Shape).Idx → α)
    (h : (⟨1, ![c]⟩ : Shape).BroadcastsInDim ⟨2, ![1, c]⟩ ![1]) :
    broadcastInDim ⟨2, ![1, c]⟩ ![1] h x (ix2 u r) = x (ix1 r) := by
  refine broadcastInDim_apply ![1] h x _ _ fun ax => ?_
  match ax with
  | ⟨0, _⟩ =>
    show r.val = if c = 1 then 0 else r.val
    split
    · have := r.isLt; omega
    · rfl

/-- [1, c] → [a, c] along axes 0, 1: entry (p, r) is entry (0, r). -/
theorem bid_1c_ac_apply {a c : ℕ} (p : Fin a) (r : Fin c) (x : (⟨2, ![1, c]⟩ : Shape).Idx → α)
    (h : (⟨2, ![1, c]⟩ : Shape).BroadcastsInDim ⟨2, ![a, c]⟩ ![0, 1]) :
    broadcastInDim ⟨2, ![a, c]⟩ ![0, 1] h x (ix2 p r) = x (ix2 (0 : Fin 1) r) := by
  refine broadcastInDim_apply ![0, 1] h x _ _ fun ax => ?_
  match ax with
  | ⟨0, _⟩ =>
    show 0 = if 1 = 1 then 0 else p.val
    exact (if_pos rfl).symm
  | ⟨1, _⟩ =>
    show r.val = if c = 1 then 0 else r.val
    split
    · have := r.isLt; omega
    · rfl

/-! ## The last axis padded on its high side -/

/-- A vector of n entries padded to N on the high side: entry j inside the operand is the operand's. -/
theorem pad1_inside {n N p : ℕ} {u : Shape} (x : (⟨1, ![n]⟩ : Shape).Idx → α) (v : u.Idx → α)
    (h : (⟨1, ![n]⟩ : Shape).Pads ![0] ![p] ![0] ⟨1, ![N]⟩) (hu : 0 < u.numel) (j : Fin N) (hj : j.val < n) :
    pad ⟨1, ![N]⟩ ![0] ![p] ![0] x v h hu (ix1 j) = x (ix1 (⟨j.val, hj⟩ : Fin n)) :=
  pad_apply_of_inside ![0] ![p] ![0] x v h hu _ _ fun ax => by
    match ax with
    | ⟨0, _⟩ => show j.val = 0 + j.val * (0 + 1); omega

/-- Beyond the operand it is the padding value. -/
theorem pad1_outside {n N p : ℕ} {u : Shape} (x : (⟨1, ![n]⟩ : Shape).Idx → α) (v : u.Idx → α)
    (h : (⟨1, ![n]⟩ : Shape).Pads ![0] ![p] ![0] ⟨1, ![N]⟩) (hu : 0 < u.numel) (j : Fin N) (hj : ¬j.val < n) :
    pad ⟨1, ![N]⟩ ![0] ![p] ![0] x v h hu (ix1 j) = v (Shape.Idx.first hu) :=
  pad_apply_of_not_inside ![0] ![p] ![0] x v h hu _ (0 : Fin 1) fun hh => hj (by
    have h3 : (j.val - 0) / (0 + 1) < n := hh.2.2
    simpa using h3)

/-- A matrix [a, n] whose rows are padded to N on the high side: entry (i, j) with j inside is the operand's. -/
theorem pad2_inside {a n N p : ℕ} {u : Shape} (x : (⟨2, ![a, n]⟩ : Shape).Idx → α) (v : u.Idx → α)
    (h : (⟨2, ![a, n]⟩ : Shape).Pads ![0, 0] ![0, p] ![0, 0] ⟨2, ![a, N]⟩) (hu : 0 < u.numel) (i : Fin a) (j : Fin N)
    (hj : j.val < n) :
    pad ⟨2, ![a, N]⟩ ![0, 0] ![0, p] ![0, 0] x v h hu (ix2 i j) = x (ix2 i (⟨j.val, hj⟩ : Fin n)) :=
  pad_apply_of_inside ![0, 0] ![0, p] ![0, 0] x v h hu _ _ fun ax => by
    match ax with
    | ⟨0, _⟩ => show i.val = 0 + i.val * (0 + 1); omega
    | ⟨1, _⟩ => show j.val = 0 + j.val * (0 + 1); omega

/-- Beyond the rows' extent it is the padding value. -/
theorem pad2_outside {a n N p : ℕ} {u : Shape} (x : (⟨2, ![a, n]⟩ : Shape).Idx → α) (v : u.Idx → α)
    (h : (⟨2, ![a, n]⟩ : Shape).Pads ![0, 0] ![0, p] ![0, 0] ⟨2, ![a, N]⟩) (hu : 0 < u.numel) (i : Fin a) (j : Fin N)
    (hj : ¬j.val < n) :
    pad ⟨2, ![a, N]⟩ ![0, 0] ![0, p] ![0, 0] x v h hu (ix2 i j) = v (Shape.Idx.first hu) :=
  pad_apply_of_not_inside ![0, 0] ![0, p] ![0, 0] x v h hu _ (1 : Fin 2) fun hh => hj (by
    have h3 : (j.val - 0) / (0 + 1) < n := hh.2.2
    simpa using h3)

end Cert.HostLayout
-- ==== Proof.LibSliceForms.lean ====
/-
  One column and one row of a matrix, cut out by a unit-stride slice, read at an index given by its coordinates.

  The slice of `[a, b]` at offsets `(0, c)` with extents `[a, 1]` is column `c`: its entry `(p, u)` is the matrix's
  entry `(p, c)` (the unit coordinate `u` is `0`). The slice at offsets `(r, 0)` with extents `[1, b]` is row `r`:
  its entry `(u, o)` is the matrix's entry `(r, o)`. General in the extents and in the element type.
-/
import Idealize.ShloMosaic.Lib.Pipeline.Value
import Idealize.ShloMosaic.Lib.ValueIdx

namespace Cert.SliceForms

open Idealize.ShloMosaic Idealize.ShloMosaic.ValueIdx

variable {α : Type}

/-- Column `c` of a matrix, sliced out as `[a, 1]`, reads at `(p, u)` the matrix's entry `(p, c)`. -/
theorem slice_column_apply {a b : ℕ} (c : ℕ) (hc : c < b) (x : (⟨2, ![a, b]⟩ : Shape).Idx → α)
    (h : (⟨2, ![a, b]⟩ : Shape).Slices ![0, c] ⟨2, ![a, 1]⟩) (p : Fin a) (u : Fin 1) :
    extractStridedSlice ⟨2, ![a, 1]⟩ ![0, c] x h (ix2 p u) = x (ix2 p ⟨c, hc⟩) := by
  refine extractStridedSlice_apply _ x h (ix2 p u) (ix2 p ⟨c, hc⟩) fun ax => ?_
  match ax with
  | ⟨0, _⟩ => show p.val = 0 + p.val; omega
  | ⟨1, _⟩ => show c = c + u.val; omega

/-- Row `r` of a matrix, sliced out as `[1, b]`, reads at `(u, o)` the matrix's entry `(r, o)`. -/
theorem slice_row_apply {a b : ℕ} (r : ℕ) (hr : r < a) (x : (⟨2, ![a, b]⟩ : Shape).Idx → α)
    (h : (⟨2, ![a, b]⟩ : Shape).Slices ![r, 0] ⟨2, ![1, b]⟩) (u : Fin 1) (o : Fin b) :
    extractStridedSlice ⟨2, ![1, b]⟩ ![r, 0] x h (ix2 u o) = x (ix2 ⟨r, hr⟩ o) := by
  refine extractStridedSlice_apply _ x h (ix2 u o) (ix2 ⟨r, hr⟩ o) fun ax => ?_
  match ax with
  | ⟨0, _⟩ => show r = r + u.val; omega
  | ⟨1, _⟩ => show o.val = 0 + o.val; omega

end Cert.SliceForms
-- ==== Proof.LibColumnToVector.lean ====
/-
  A COLUMN read back as a vector, at an index given by its coordinate.

  Dropping the `keepdims` axis of a row-wise reduction casts a column of shape `[a, 1]` to a vector of `a` entries.
  Entry `i` of the vector is the column's entry `(i, 0)`: both have row-major position `i`, the unit coordinate
  contributing nothing.  General in the extent and in the element type.
-/
import Idealize.ShloMosaic.Lib.Pipeline.Value
import Idealize.ShloMosaic.Lib.ValueIdx

namespace Cert.ColumnToVector

open Idealize.ShloMosaic Idealize.ShloMosaic.ValueIdx

variable {α : Type}

/-- A column `[a, 1]` cast to a vector of `a` entries reads, at `i`, the column's entry `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.ColumnToVector
-- ==== Proof.HostSide.lean ====
/-
  The two arrays the kernel's @main lays out on the host before its call, read at an index.

  The feature array [64, 2048, 8] is eight slabs [64, 2048, 1] side by side along the last axis: the two coordinate
  planes of the point clouds, their squares, a plane of ones and three planes of zeros; so its entry (b, p, k) is
  feature k of point p of batch entry b. The weight array [8, 128] is eight rows [1, 128] stacked: 2·s·c per
  coordinate, −s per coordinate, −(s₀c₀² + s₁c₁²), and three rows of zeros, each built entry by entry from the columns
  of the centres and the sharpness; so its entry (k, n) is weight k of centre n. No host line writes the masks.
-/
import proofs.«165950_j2362232012851_2_alg».proof.Proof.Gen.KernelIdeal.Launch
import proofs.«165950_j2362232012851_2_alg».proof.Proof.PoolSpec
import Idealize.ShloMosaic.Lib.StableHlo.Run
import Idealize.ShloMosaic.Lib.Pipeline.Value
import Idealize.ShloMosaic.Lib.ValueIdx
import proofs.«165950_j2362232012851_2_alg».proof.Proof.LibNaryEight
import proofs.«165950_j2362232012851_2_alg».proof.Proof.LibEightPieces
import proofs.«165950_j2362232012851_2_alg».proof.Proof.LibLastAxisColumn
import proofs.«165950_j2362232012851_2_alg».proof.Proof.LibHostLayout
import proofs.«165950_j2362232012851_2_alg».proof.Proof.LibSliceForms
import proofs.«165950_j2362232012851_2_alg».proof.Proof.LibColumnToVector

noncomputable section

/-
  The two arrays the host builds before the kernel runs, read at an index as functions of the argument arrays.

  The weight array [8, 128] stacks eight rows of 128 entries, one entry per centre n: with c_d, s_d the d-th
  coordinate of the centre and of its sharpness, the rows are 2·s₀·c₀, 2·s₁·c₁, −s₀, −s₁, −(s₀·c₀·c₀ + s₁·c₁·c₁) and
  three rows of zeros. The feature array [64, 2048, 8] lays eight slabs [64, 2048, 1] side by side along its last
  axis, one entry per point (b, p): with x_d the point's d-th coordinate, the slabs are x₀, x₁, x₀·x₀, x₁·x₁, a slab
  of ones and three slabs of zeros. The coordinate columns are unit-wide slices read back without their unit axis.
  The masks are not written by any host operation.
-/
namespace Cert.RbfPool.HostSide

open Idealize.ShloMosaic Idealize.ShloMosaic.TcCoe Idealize.ShloMosaic.ValueIdx
open Idealize.SL.Sem
open Idealize.ShloMosaic.StableHlo Cert.NaryEight Cert.EightPieces Cert.HostLayout Cert.SliceForms Cert.ColumnToVector Cert.LastAxisColumn
open Cert.KernelIdeal Cert.KernelIdeal.Gen

variable (m : (ℓ : Loc Cert.KernelIdeal.nD Cert.KernelIdeal.τ Cert.KernelIdeal.sig) → Buf (Elt Ideal) ℓ) (c : Dev Cert.KernelIdeal.nD)

/-! ## The masks -/

/-- No host operation writes the masks: the kernel finds them as launched. -/
theorem masks_kept : StableHlo.after (hostOps0 (F := Ideal)) (fun r => m (c, r)) (Proc.devRef .tc main_arg1) = m ((c.tc : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-! ## The weights -/

section Weights

/-- Column 0 of a [128, 2] array as a vector of 128 entries. -/
def col0 (a : FVec Ideal S128x2 .f32) : FVec Ideal S128 .f32 :=
  shapeCast S128 (extractStridedSlice S128x1 ![0, 0] a slices_S128x2_S128x1_0_0) shapeCasts_S128x1_S128
/-- Column 1 of a [128, 2] array as a vector of 128 entries. -/
def col1 (a : FVec Ideal S128x2 .f32) : FVec Ideal S128 .f32 :=
  shapeCast S128 (extractStridedSlice S128x1 ![0, 1] a slices_S128x2_S128x1_0_1) shapeCasts_S128x1_S128
/-- The vector of 128 twos. -/
def twoV : FVec Ideal S128 .f32 := broadcastInDim S128 ![] bcast_S_S128 (constant (F := Ideal) S_ .f32 0x40000000#32)
/-- The vector of 128 zeros. -/
def zeroV : FVec Ideal S128 .f32 := broadcastInDim S128 ![] bcast_S_S128 (constant (F := Ideal) S_ .f32 0x00000000#32)
/-- A vector of 128 entries as a row [1, 128]. -/
def row (v : FVec Ideal S128 .f32) : FVec Ideal S1x128 .f32 := broadcastInDim S1x128 ![1] bcast_S128_S1x128_1 v

theorem col0_apply (a : FVec Ideal S128x2 .f32) (n : Fin 128) : col0 a (ix1 n) = a (ix2 n 0) := by
  unfold col0
  rw [shapeCast_a1_a_apply, slice_column_apply 0 (by omega)]
  rfl
theorem col1_apply (a : FVec Ideal S128x2 .f32) (n : Fin 128) : col1 a (ix1 n) = a (ix2 n 1) := by
  unfold col1
  rw [shapeCast_a1_a_apply, slice_column_apply 1 (by omega)]
  rfl
theorem twoV_apply (n : Fin 128) : twoV (ix1 n) = two := by
  unfold twoV; rw [bid_scalar_apply]; rfl
theorem zeroV_apply (n : Fin 128) : zeroV (ix1 n) = z0 := by
  unfold zeroV; rw [bid_scalar_apply]; rfl
theorem row_apply (v : FVec Ideal S128 .f32) (n : Fin 128) : row v (ix2 (0 : Fin 1) n) = v (ix1 n) := by
  unfold row; rw [bid_c_1c_apply]

/-- The eight weight vectors, as the host computes them from the centres and the sharpness. -/
def wvec (cen shp : FVec Ideal S128x2 .f32) : Fin 8 → FVec Ideal S128 .f32 :=
  ![mulf (mulf twoV (col0 shp)) (col0 cen), mulf (mulf twoV (col1 shp)) (col1 cen), Host.negf (col0 shp), Host.negf (col1 shp),
    Host.negf (addf (mulf (mulf (col0 shp) (col0 cen)) (col0 cen)) (mulf (mulf (col1 shp) (col1 cen)) (col1 cen))),
    zeroV, zeroV, zeroV]

/-- Each weight vector at centre n is the specification's weight. -/
theorem wvec_apply (cen shp : FVec Ideal S128x2 .f32) (k : Fin 8) (n : Fin 128) : wvec cen shp k (ix1 n) = wrow cen shp n k := by
  match k with
  | ⟨0, _⟩ =>
    show twoV (ix1 n) * col0 shp (ix1 n) * col0 cen (ix1 n) = two * shp (ix2 n 0) * cen (ix2 n 0)
    rw [twoV_apply, col0_apply, col0_apply]
  | ⟨1, _⟩ =>
    show twoV (ix1 n) * col1 shp (ix1 n) * col1 cen (ix1 n) = two * shp (ix2 n 1) * cen (ix2 n 1)
    rw [twoV_apply, col1_apply, col1_apply]
  | ⟨2, _⟩ =>
    show -(col0 shp (ix1 n)) = -shp (ix2 n 0)
    rw [col0_apply]
  | ⟨3, _⟩ =>
    show -(col1 shp (ix1 n)) = -shp (ix2 n 1)
    rw [col1_apply]
  | ⟨4, _⟩ =>
    show -(col0 shp (ix1 n) * col0 cen (ix1 n) * col0 cen (ix1 n) + col1 shp (ix1 n) * col1 cen (ix1 n) * col1 cen (ix1 n))
      = -(shp (ix2 n 0) * cen (ix2 n 0) * cen (ix2 n 0) + shp (ix2 n 1) * cen (ix2 n 1) * cen (ix2 n 1))
    rw [col0_apply, col0_apply, col1_apply, col1_apply]
  | ⟨5, _⟩ => exact zeroV_apply n
  | ⟨6, _⟩ => exact zeroV_apply n
  | ⟨7, _⟩ => exact zeroV_apply n

/-- The weight array after the host operations: the eight rows stacked. -/
theorem weights_term :
    (StableHlo.after (hostOps0 (F := Ideal)) (fun r => m (c, r)) (Proc.devRef .tc main_v31) : S8x128.Idx → EReal)
      = concatenate S8x128 0
          [⟨S1x128, row (wvec (m ((c.tc : Thread nD τ).loc main_arg2)) (m ((c.tc : Thread nD τ).loc main_arg3)) 0)⟩,
           ⟨S1x128, row (wvec (m ((c.tc : Thread nD τ).loc main_arg2)) (m ((c.tc : Thread nD τ).loc main_arg3)) 1)⟩,
           ⟨S1x128, row (wvec (m ((c.tc : Thread nD τ).loc main_arg2)) (m ((c.tc : Thread nD τ).loc main_arg3)) 2)⟩,
           ⟨S1x128, row (wvec (m ((c.tc : Thread nD τ).loc main_arg2)) (m ((c.tc : Thread nD τ).loc main_arg3)) 3)⟩,
           ⟨S1x128, row (wvec (m ((c.tc : Thread nD τ).loc main_arg2)) (m ((c.tc : Thread nD τ).loc main_arg3)) 4)⟩,
           ⟨S1x128, row (wvec (m ((c.tc : Thread nD τ).loc main_arg2)) (m ((c.tc : Thread nD τ).loc main_arg3)) 5)⟩,
           ⟨S1x128, row (wvec (m ((c.tc : Thread nD τ).loc main_arg2)) (m ((c.tc : Thread nD τ).loc main_arg3)) 6)⟩,
           ⟨S1x128, row (wvec (m ((c.tc : Thread nD τ).loc main_arg2)) (m ((c.tc : Thread nD τ).loc main_arg3)) 7)⟩]
          concatenates_S1x128_S1x128_S1x128_S1x128_S1x128_S1x128_S1x128_S1x128_S8x128_d0 := by
  dsimp only [hostOps0]
  simp (disch := decide) only [after_cons, after_nil,
      nullary_result', unary_result', binary_result', reshape_result', nary8_result',
      nullary_result_ne', unary_result_ne', binary_result_ne', reshape_result_ne', nary_result_ne']
  rfl

/-- The weight array at (k, n) is the specification's k-th weight of centre n. -/
theorem weights_read (k : Fin 8) (n : Fin 128) : (StableHlo.after (hostOps0 (F := Ideal)) (fun r => m (c, r)) (Proc.devRef .tc main_v31) : S8x128.Idx → EReal) (ix2 k n) = Cert.RbfPool.wrow (m ((c.tc : Thread nD τ).loc main_arg2)) (m ((c.tc : Thread nD τ).loc main_arg3)) n k := by
  rw [weights_term, rows8_apply]
  match k with
  | ⟨0, _⟩ => exact (row_apply _ n).trans (wvec_apply _ _ 0 n)
  | ⟨1, _⟩ => exact (row_apply _ n).trans (wvec_apply _ _ 1 n)
  | ⟨2, _⟩ => exact (row_apply _ n).trans (wvec_apply _ _ 2 n)
  | ⟨3, _⟩ => exact (row_apply _ n).trans (wvec_apply _ _ 3 n)
  | ⟨4, _⟩ => exact (row_apply _ n).trans (wvec_apply _ _ 4 n)
  | ⟨5, _⟩ => exact (row_apply _ n).trans (wvec_apply _ _ 5 n)
  | ⟨6, _⟩ => exact (row_apply _ n).trans (wvec_apply _ _ 6 n)
  | ⟨7, _⟩ => exact (row_apply _ n).trans (wvec_apply _ _ 7 n)

end Weights

/-! ## The features -/

section Features

/-- Coordinate 0 of every point: the slab [64, 2048, 1] at last coordinate 0, read back as [64, 2048]. -/
def xcol0 (x : FVec Ideal S64x2048x2 .f32) : FVec Ideal S64x2048 .f32 :=
  shapeCast S64x2048 (extractStridedSlice S64x2048x1 ![0, 0, 0] x slices_S64x2048x2_S64x2048x1_0_0_0) shapeCasts_S64x2048x1_S64x2048
/-- Coordinate 1 of every point. -/
def xcol1 (x : FVec Ideal S64x2048x2 .f32) : FVec Ideal S64x2048 .f32 :=
  shapeCast S64x2048 (extractStridedSlice S64x2048x1 ![0, 0, 1] x slices_S64x2048x2_S64x2048x1_0_0_1) shapeCasts_S64x2048x1_S64x2048
/-- The array [64, 2048] of ones. -/
def oneM : FVec Ideal S64x2048 .f32 := broadcastInDim S64x2048 ![] bcast_S_S64x2048 (constant (F := Ideal) S_ .f32 0x3F800000#32)
/-- The array [64, 2048] of zeros. -/
def zeroM : FVec Ideal S64x2048 .f32 := broadcastInDim S64x2048 ![] bcast_S_S64x2048 (constant (F := Ideal) S_ .f32 0x00000000#32)
/-- An array [64, 2048] as a slab [64, 2048, 1]. -/
def slab (v : FVec Ideal S64x2048 .f32) : FVec Ideal S64x2048x1 .f32 := broadcastInDim S64x2048x1 ![0, 1] bcast_S64x2048_S64x2048x1_0_1 v

theorem xcol0_apply (x : FVec Ideal S64x2048x2 .f32) (b : Fin 64) (p : Fin 2048) : xcol0 x (ix2 b p) = x (ix3 b p 0) := by
  unfold xcol0
  rw [shapeCast_ab1_ab_apply, slice_last_apply 0 (by omega)]
  rfl
theorem xcol1_apply (x : FVec Ideal S64x2048x2 .f32) (b : Fin 64) (p : Fin 2048) : xcol1 x (ix2 b p) = x (ix3 b p 1) := by
  unfold xcol1
  rw [shapeCast_ab1_ab_apply, slice_last_apply 1 (by omega)]
  rfl
theorem oneM_apply (b : Fin 64) (p : Fin 2048) : oneM (ix2 b p) = one := by
  unfold oneM; rw [bid_scalar_apply]; rfl
theorem zeroM_apply (b : Fin 64) (p : Fin 2048) : zeroM (ix2 b p) = z0 := by
  unfold zeroM; rw [bid_scalar_apply]; rfl
theorem slab_apply (v : FVec Ideal S64x2048 .f32) (b : Fin 64) (p : Fin 2048) : slab v (ix3 b p (0 : Fin 1)) = v (ix2 b p) := by
  unfold slab; rw [bid_ab_ab1_apply]

/-- The eight feature arrays, as the host computes them from the point clouds. -/
def fvec (x : FVec Ideal S64x2048x2 .f32) : Fin 8 → FVec Ideal S64x2048 .f32 :=
  ![xcol0 x, xcol1 x, mulf (xcol0 x) (xcol0 x), mulf (xcol1 x) (xcol1 x), oneM, zeroM, zeroM, zeroM]

/-- Each feature array at point (b, p) is the specification's feature. -/
theorem fvec_apply (x : FVec Ideal S64x2048x2 .f32) (k : Fin 8) (b : Fin 64) (p : Fin 2048) : fvec x k (ix2 b p) = feat x b p k := by
  match k with
  | ⟨0, _⟩ => exact xcol0_apply x b p
  | ⟨1, _⟩ => exact xcol1_apply x b p
  | ⟨2, _⟩ =>
    show xcol0 x (ix2 b p) * xcol0 x (ix2 b p) = x (ix3 b p 0) * x (ix3 b p 0)
    rw [xcol0_apply]
  | ⟨3, _⟩ =>
    show xcol1 x (ix2 b p) * xcol1 x (ix2 b p) = x (ix3 b p 1) * x (ix3 b p 1)
    rw [xcol1_apply]
  | ⟨4, _⟩ => exact oneM_apply b p
  | ⟨5, _⟩ => exact zeroM_apply b p
  | ⟨6, _⟩ => exact zeroM_apply b p
  | ⟨7, _⟩ => exact zeroM_apply b p

/-- The feature array after the host operations: the eight slabs side by side along the last axis. -/
theorem feats_term :
    (StableHlo.after (hostOps0 (F := Ideal)) (fun r => m (c, r)) (Proc.devRef .tc main_v48) : S64x2048x8.Idx → EReal)
      = concatenate S64x2048x8 2
          [⟨S64x2048x1, slab (fvec (m ((c.tc : Thread nD τ).loc main_arg0)) 0)⟩,
           ⟨S64x2048x1, slab (fvec (m ((c.tc : Thread nD τ).loc main_arg0)) 1)⟩,
           ⟨S64x2048x1, slab (fvec (m ((c.tc : Thread nD τ).loc main_arg0)) 2)⟩,
           ⟨S64x2048x1, slab (fvec (m ((c.tc : Thread nD τ).loc main_arg0)) 3)⟩,
           ⟨S64x2048x1, slab (fvec (m ((c.tc : Thread nD τ).loc main_arg0)) 4)⟩,
           ⟨S64x2048x1, slab (fvec (m ((c.tc : Thread nD τ).loc main_arg0)) 5)⟩,
           ⟨S64x2048x1, slab (fvec (m ((c.tc : Thread nD τ).loc main_arg0)) 6)⟩,
           ⟨S64x2048x1, slab (fvec (m ((c.tc : Thread nD τ).loc main_arg0)) 7)⟩]
          concatenates_S64x2048x1_S64x2048x1_S64x2048x1_S64x2048x1_S64x2048x1_S64x2048x1_S64x2048x1_S64x2048x1_S64x2048x8_d2 := by
  dsimp only [hostOps0]
  simp (disch := decide) only [after_cons, after_nil,
      nullary_result', unary_result', binary_result', reshape_result', nary8_result',
      nullary_result_ne', unary_result_ne', binary_result_ne', reshape_result_ne', nary_result_ne']
  rfl

/-- The feature array at (b, p, k) is the specification's k-th feature of point p of batch entry b. -/
theorem feats_read (b : Fin 64) (p : Fin 2048) (k : Fin 8) : (StableHlo.after (hostOps0 (F := Ideal)) (fun r => m (c, r)) (Proc.devRef .tc main_v48) : S64x2048x8.Idx → EReal) (ix3 b p k) = Cert.RbfPool.feat (m ((c.tc : Thread nD τ).loc main_arg0)) b p k := by
  rw [feats_term, last8_apply]
  match k with
  | ⟨0, _⟩ => exact (slab_apply _ b p).trans (fvec_apply _ 0 b p)
  | ⟨1, _⟩ => exact (slab_apply _ b p).trans (fvec_apply _ 1 b p)
  | ⟨2, _⟩ => exact (slab_apply _ b p).trans (fvec_apply _ 2 b p)
  | ⟨3, _⟩ => exact (slab_apply _ b p).trans (fvec_apply _ 3 b p)
  | ⟨4, _⟩ => exact (slab_apply _ b p).trans (fvec_apply _ 4 b p)
  | ⟨5, _⟩ => exact (slab_apply _ b p).trans (fvec_apply _ 5 b p)
  | ⟨6, _⟩ => exact (slab_apply _ b p).trans (fvec_apply _ 6 b p)
  | ⟨7, _⟩ => exact (slab_apply _ b p).trans (fvec_apply _ 7 b p)

end Features

end Cert.RbfPool.HostSide

end
-- ==== Proof.FeatureAlgebra.lean ====
/-
  The factored form of the weighted squared distance, on real entries.

  With features `[x₀, x₁, x₀², x₁², 1, 0, 0, 0]` and weights
  `[2 s₀ c₀, 2 s₁ c₁, −s₀, −s₁, −(s₀ c₀² + s₁ c₁²), 0, 0, 0]` the dot product is
  `2 s₀ c₀ x₀ + 2 s₁ c₁ x₁ − s₀ x₀² − s₁ x₁² − s₀ c₀² − s₁ c₁² = −(s₀ (c₀ − x₀)² + s₁ (c₁ − x₁)²)`,
  an identity of the real field.  Over the extended reals it holds once the six entries involved are real
  numbers: the coercion `ℝ → EReal` commutes with sums, products and negation, so both sides are the
  coercion of the two sides of the real identity.  The exponential of a real number is a real number.
-/
import proofs.«165950_j2362232012851_2_alg».proof.Proof.PoolSpec

noncomputable section

namespace Cert.RbfPool

open Idealize.ShloMosaic Idealize.ShloMosaic.ValueIdx
open scoped BigOperators

theorem z0_eq : z0 = ((0 : ℝ) : EReal) := by simp [z0, Ideal.ofBits, Ideal.ieee]

theorem one_eq : one = ((1 : ℝ) : EReal) := by
  simp [one, Ideal.ofBits, Ideal.ieee, -EReal.coe_mul]; norm_num

theorem two_eq : two = ((2 : ℝ) : EReal) := by
  simp [two, Ideal.ofBits, Ideal.ieee, -EReal.coe_mul]; norm_num

theorem dist_real (x : SX.Idx → EReal) (cen shp : SC.Idx → EReal)
    (b : Fin 64) (n : Fin 128) (p : Fin 2048) (x0 x1 c0 c1 s0 s1 : ℝ)
    (hx0 : x (ix3 b p 0) = (x0 : EReal)) (hx1 : x (ix3 b p 1) = (x1 : EReal))
    (hc0 : cen (ix2 n 0) = (c0 : EReal)) (hc1 : cen (ix2 n 1) = (c1 : EReal))
    (hs0 : shp (ix2 n 0) = (s0 : EReal)) (hs1 : shp (ix2 n 1) = (s1 : EReal)) :
    dist x cen shp b n p = ((s0 * (c0 - x0) * (c0 - x0) + s1 * (c1 - x1) * (c1 - x1) : ℝ) : EReal) := by
  unfold dist
  rw [Fin.sum_univ_two, hx0, hx1, hc0, hc1, hs0, hs1, z0_eq]
  simp only [← EReal.coe_mul, ← EReal.coe_add, ← EReal.coe_sub]
  congr 1; ring

theorem feat_dot_wrow (x : SX.Idx → EReal) (cen shp : SC.Idx → EReal)
    (hx : ∀ i, ∃ r : ℝ, x i = (r : EReal)) (hc : ∀ i, ∃ r : ℝ, cen i = (r : EReal))
    (hs : ∀ i, ∃ r : ℝ, shp i = (r : EReal)) (b : Fin 64) (n : Fin 128) (p : Fin 2048) :
    ∑ k : Fin 8, feat x b p k * wrow cen shp n k = -(dist x cen shp b n p) := by
  obtain ⟨x0, hx0⟩ := hx (ix3 b p 0)
  obtain ⟨x1, hx1⟩ := hx (ix3 b p 1)
  obtain ⟨c0, hc0⟩ := hc (ix2 n 0)
  obtain ⟨c1, hc1⟩ := hc (ix2 n 1)
  obtain ⟨s0, hs0⟩ := hs (ix2 n 0)
  obtain ⟨s1, hs1⟩ := hs (ix2 n 1)
  rw [dist_real x cen shp b n p x0 x1 c0 c1 s0 s1 hx0 hx1 hc0 hc1 hs0 hs1, Fin.sum_univ_eight]
  show x (ix3 b p 0) * (two * shp (ix2 n 0) * cen (ix2 n 0))
      + x (ix3 b p 1) * (two * shp (ix2 n 1) * cen (ix2 n 1))
      + x (ix3 b p 0) * x (ix3 b p 0) * -shp (ix2 n 0)
      + x (ix3 b p 1) * x (ix3 b p 1) * -shp (ix2 n 1)
      + one * -(shp (ix2 n 0) * cen (ix2 n 0) * cen (ix2 n 0) + shp (ix2 n 1) * cen (ix2 n 1) * cen (ix2 n 1))
      + z0 * z0 + z0 * z0 + z0 * z0 = _
  rw [hx0, hx1, hc0, hc1, hs0, hs1, z0_eq, one_eq, two_eq]
  simp only [← EReal.coe_mul, ← EReal.coe_add, ← EReal.coe_neg]
  congr 1; ring

theorem exp_dist_real (x : SX.Idx → EReal) (cen shp : SC.Idx → EReal)
    (hx : ∀ i, ∃ r : ℝ, x i = (r : EReal)) (hc : ∀ i, ∃ r : ℝ, cen i = (r : EReal))
    (hs : ∀ i, ∃ r : ℝ, shp i = (r : EReal)) (b : Fin 64) (n : Fin 128) (p : Fin 2048) :
    ∃ r : ℝ, Ideal.exp (-(dist x cen shp b n p)) = (r : EReal) := by
  obtain ⟨x0, hx0⟩ := hx (ix3 b p 0)
  obtain ⟨x1, hx1⟩ := hx (ix3 b p 1)
  obtain ⟨c0, hc0⟩ := hc (ix2 n 0)
  obtain ⟨c1, hc1⟩ := hc (ix2 n 1)
  obtain ⟨s0, hs0⟩ := hs (ix2 n 0)
  obtain ⟨s1, hs1⟩ := hs (ix2 n 1)
  rw [dist_real x cen shp b n p x0 x1 c0 c1 s0 s1 hx0 hx1 hc0 hc1 hs0 hs1, ← EReal.coe_neg, Ideal.exp_coe]
  exact ⟨_, rfl⟩

end Cert.RbfPool

end
-- ==== Proof.LibLastTwoAxesSum.lean ====
/-
  A host sum over the LAST TWO axes of a rank-four array, read at an entry, and the double sum it gives
  flattened into one sum over the pairs in row-major order.

  For an array [a, b, c, d] reduced along its axes 2 and 3 into [a, b], the entry at (p, q) of the result is
  the initial value plus the sum, over r and s, of the entries (p, q, r, s): exactly the indices whose first
  two coordinates are (p, q). This is what a global sum or mean over the two spatial axes of a feature map
  computes on the host at the exact instance (extended reals).

  The pairs (r, s) of Fin c x Fin d in row-major order are the numbers k below c * d, with r = k / d and
  s = k % d; the double sum is the sum over those k. The product c * d is given by an equation, so a literal
  extent matches by rfl. General in the extents, the second statement in any commutative additive monoid.
-/
import Idealize.ShloMosaic.Lib.ValueIdx
import Idealize.ShloMosaic.PureOps.Ideal.Laws

namespace Cert.LastTwoAxesSum

open Idealize.ShloMosaic Idealize.ShloMosaic.ValueIdx

variable {a b c d : ℕ}

/-- Dropping the last two coordinates of (p, q, r, s) leaves (p, q). -/
theorem drop_ix4 (h : (⟨4, ![a, b, c, d]⟩ : Shape).ReducesTo [2, 3] ⟨2, ![a, b]⟩) (p : Fin a) (q : Fin b) (r : Fin c)
    (s : Fin d) : h.drop (ix4 p q r s) = ix2 p q := by
  funext e
  match e with
  | ⟨0, _⟩ => rfl
  | ⟨1, _⟩ => rfl

/-- An index whose first two coordinates are (p, q) is (p, q, its third coordinate, its fourth). -/
theorem eq_ix4_of_drop (h : (⟨4, ![a, b, c, d]⟩ : Shape).ReducesTo [2, 3] ⟨2, ![a, b]⟩)
    (i : (⟨4, ![a, b, c, d]⟩ : Shape).Idx) (p : Fin a) (q : Fin b) (hd : h.drop i = ix2 p q) :
    i = ix4 p q (i 2) (i 3) := by
  have h0 : (i 0).val = p.val := congrArg Fin.val (congrFun hd 0)
  have h1 : (i 1).val = q.val := congrArg Fin.val (congrFun hd 1)
  funext e
  match e with
  | ⟨0, _⟩ => exact Fin.ext h0
  | ⟨1, _⟩ => exact Fin.ext h1
  | ⟨2, _⟩ => rfl
  | ⟨3, _⟩ => rfl

/-- The host's sum along axes 2 and 3 of [a, b, c, d], at (p, q): the initial value plus the sum over (r, s) of
    the entries (p, q, r, s). -/
theorem hostSum_last2 (h : (⟨4, ![a, b, c, d]⟩ : Shape).ReducesTo [2, 3] ⟨2, ![a, b]⟩)
    (x : (⟨4, ![a, b, c, d]⟩ : Shape).Idx → EReal) (init : EReal) (p : Fin a) (q : Fin b) :
    Ideal.hostReduceAdd h x init (ix2 p q) = init + ∑ r : Fin c, ∑ s : Fin d, x (ix4 p q r s) := by
  unfold Ideal.hostReduceAdd
  congr 1
  rw [← Fintype.sum_prod_type' (f := fun (r : Fin c) (s : Fin d) => x (ix4 p q r s))]
  symm
  refine Finset.sum_bij (fun rs _ => ix4 p q rs.1 rs.2) ?_ ?_ ?_ ?_
  · intro rs _
    exact Finset.mem_filter.mpr ⟨Finset.mem_univ _, drop_ix4 h p q rs.1 rs.2⟩
  · intro rs _ rs' _ he
    have h2 : rs.1 = rs'.1 := congrFun he 2
    have h3 : rs.2 = rs'.2 := congrFun he 3
    exact Prod.ext h2 h3
  · intro i hi
    exact ⟨(i 2, i 3), Finset.mem_univ _, (eq_ix4_of_drop h i p q (Finset.mem_filter.mp hi).2).symm⟩
  · intro rs _
    rfl

/-- The number k below c * d names the pair (k / d, k % d): the first coordinate is below c, -/
theorem div_lt {n k : ℕ} (hn : c * d = n) (hk : k < n) : k / d < c :=
  Nat.div_lt_of_lt_mul (by rw [Nat.mul_comm, hn]; exact hk)

/-- and the second is below d. -/
theorem mod_lt {n k : ℕ} (hn : c * d = n) (hk : k < n) : k % d < d :=
  Nat.mod_lt _ (Nat.pos_of_ne_zero (by rintro rfl; rw [Nat.mul_zero] at hn; omega))

/-- A double sum over Fin c x Fin d is the sum over the n = c * d pairs in row-major order. -/
theorem sum_pairs_eq_sum_flat {M : Type*} [AddCommMonoid M] {n : ℕ} (hn : c * d = n) (f : Fin c → Fin d → M) :
    ∑ r : Fin c, ∑ s : Fin d, f r s
      = ∑ k : Fin n, f ⟨k.val / d, div_lt hn k.isLt⟩ ⟨k.val % d, mod_lt hn k.isLt⟩ := by
  subst hn
  rw [← Fintype.sum_prod_type', ← Equiv.sum_comp finProdFinEquiv.symm]
  rfl

end Cert.LastTwoAxesSum
-- ==== Proof.IdealValue.Bridge.lean ====
/-
  The kernel's output function is the specification, when the argument arrays hold real numbers.

  The arrays the call finds are the host's feature and weight layouts of the arguments, so a block's term is
  ∑ q, exp (∑ k, feat k · wrow k) · mask; on real entries ∑ k, feat k · wrow k = − dist (expanding the squares,
  which needs the entries finite), so the term is the specification's summand over the block's 128 points; and
  sixteen blocks of 128 consecutive points are the 2048 points, each once.
-/
import proofs.«165950_j2362232012851_2_alg».proof.Proof.IdealValue.Fold
import proofs.«165950_j2362232012851_2_alg».proof.Proof.HostSide
import proofs.«165950_j2362232012851_2_alg».proof.Proof.FeatureAlgebra
import proofs.«165950_j2362232012851_2_alg».proof.Proof.LibLastTwoAxesSum

set_option maxRecDepth 16384

noncomputable section

namespace Cert.KernelIdeal.PoolValue

open Cert.KernelIdeal Cert.KernelIdeal.Gen Cert.KernelIdeal.Frame Cert.RbfPool
open Idealize.ShloMosaic Idealize.ShloMosaic.TcCoe Idealize.SL.Sem Idealize.ShloMosaic.ValueIdx
open scoped BigOperators

variable (m : (ℓ : Loc nD τ sig) → Buf (Elt Ideal) ℓ) (c : Dev nD)

/-- A block's term, in the arguments: the specification's summand over the block's points. -/
theorem term_eq
    (hx : ∀ i, ∃ r : ℝ, m ((c.tc : Thread nD τ).loc main_arg0) i = (r : EReal))
    (hc : ∀ i, ∃ r : ℝ, m ((c.tc : Thread nD τ).loc main_arg2) i = (r : EReal))
    (hs : ∀ i, ∃ r : ℝ, m ((c.tc : Thread nD τ).loc main_arg3) i = (r : EReal))
    (i j : ℕ) (r : Fin 32) (o : Fin 128) :
    term m c i j r o = ∑ q : Fin 128,
      Ideal.exp (-(dist (m ((c.tc : Thread nD τ).loc main_arg0)) (m ((c.tc : Thread nD τ).loc main_arg2)) (m ((c.tc : Thread nD τ).loc main_arg3)) (rowOf i r) o (ptOf j q)))
        * m ((c.tc : Thread nD τ).loc main_arg1) (ix2 (rowOf i r) (ptOf j q)) := by
  unfold term
  refine Finset.sum_congr rfl fun q _ => ?_
  refine congrArg₂ (· * ·) (congrArg Ideal.exp ?_) (congrFun (V_main_arg1 m c) _)
  refine Eq.trans ?_ (feat_dot_wrow _ _ _ hx hc hs (rowOf i r) o (ptOf j q))
  refine Finset.sum_congr rfl fun k _ => ?_
  exact congrArg₂ (· * ·) (HostSide.feats_read m c (rowOf i r) (ptOf j q) k) (HostSide.weights_read m c k o)

/-- The output function is the pooled features of the arguments. -/
theorem pooled_eq_pool
    (hx : ∀ i, ∃ r : ℝ, m ((c.tc : Thread nD τ).loc main_arg0) i = (r : EReal))
    (hc : ∀ i, ∃ r : ℝ, m ((c.tc : Thread nD τ).loc main_arg2) i = (r : EReal))
    (hs : ∀ i, ∃ r : ℝ, m ((c.tc : Thread nD τ).loc main_arg3) i = (r : EReal)) :
    pooled m c = pool (m ((c.tc : Thread nD τ).loc main_arg0)) (m ((c.tc : Thread nD τ).loc main_arg1))
      (m ((c.tc : Thread nD τ).loc main_arg2)) (m ((c.tc : Thread nD τ).loc main_arg3)) := by
  funext i
  obtain ⟨b, o, rfl⟩ : ∃ (b : Fin 64) (o : Fin 128), i = ix2 b o := ⟨i 0, i 1, eq_ix2 i⟩
  rw [pool_apply]
  show zr + ∑ j ∈ Finset.range 16, term m c (b.val / 32) j ⟨b.val % 32, _⟩ o = _
  refine congrArg (zr + ·) ?_
  have hb := b.isLt
  have hrow : rowOf (b.val / 32) ⟨b.val % 32, Nat.mod_lt _ (by norm_num)⟩ = b :=
    Fin.ext (by show (b.val / 32 * 32 + b.val % 32) % 64 = b.val; omega)
  rw [Finset.sum_range]
  simp only [term_eq m c hx hc hs, hrow]
  rw [Cert.LastTwoAxesSum.sum_pairs_eq_sum_flat (c := 16) (d := 128) (n := 2048) rfl]
  refine Finset.sum_congr rfl fun p _ => ?_
  have hp := p.isLt
  have hpt : ptOf (p.val / 128) ⟨p.val % 128, Nat.mod_lt _ (by norm_num)⟩ = p :=
    Fin.ext (by show (p.val / 128 * 128 + p.val % 128) % 2048 = p.val; omega)
  show Ideal.exp (-(dist _ _ _ b o (ptOf (p.val / 128) ⟨p.val % 128, _⟩))) * _ = _
  rw [hpt]

end Cert.KernelIdeal.PoolValue

end
-- ==== Proof.RefImports.lean ====
/-
  The reference's run and its read-at-an-index lemmas, brought in once for the modules that speak of the
  reference's value.
-/
import proofs.«165950_j2362232012851_2_alg».proof.Proof.Gen.ReferenceIdeal.Run
import proofs.«165950_j2362232012851_2_alg».proof.Proof.Gen.ReferenceIdeal.Read
-- ==== Proof.RefPool.lean ====
/-
  The reference program computes the pooled radial features `pool` of the shared specification.

  Read one element at a time: the result at `(b, n)` is the zero word plus the sum over the 2048 points `p` of
  `exp (− D (b, n, p)) · msk (b, p)`, where `D (b, n, p)` is the zero word plus the sum over the two coordinates `d`
  of `shp (n, d) · (cen (n, d) − x (b, p, d)) · (cen (n, d) − x (b, p, d))`.  The broadcasts only re-index: the element
  `(b, n, p, d)` of a broadcast centre or sharpness array is its entry `(n, d)`, of the broadcast point cloud the
  entry `(b, p, d)`, and the element `(b, n, p)` of the broadcast mask is its entry `(b, p)`.  At the ideal instance
  the arithmetic is the extended reals', so the two sides agree term by term.
-/
import proofs.«165950_j2362232012851_2_alg».proof.Proof.Gen.ReferenceIdeal.Read
import proofs.«165950_j2362232012851_2_alg».proof.Proof.PoolSpec

noncomputable section

namespace Cert.RbfPool.Ref

open Cert.ReferenceIdeal Cert.ReferenceIdeal.Gen Cert.ReferenceIdeal.Read Cert.RbfPool
open Idealize.ShloMosaic.StableHlo
open Idealize.ShloMosaic Idealize.ShloMosaic.ValueIdx
open scoped BigOperators

/-- The centre (and the sharpness) entry the element `(b, n, p, d)` of the broadcast reads is `(n, d)`. -/
theorem idx_cen (i : S64x128.Idx) (p : Fin 2048) (d : Fin 2) :
    idx_main_v0 (idx_main_v2 (idx_main_v9 (idx_main_v15 i p) d)) = ix2 (i 1) d := by
  funext a; match a with | ⟨0, _⟩ => rfl | ⟨1, _⟩ => rfl

theorem idx_shp (i : S64x128.Idx) (p : Fin 2048) (d : Fin 2) :
    idx_main_v5 (idx_main_v6 (idx_main_v9 (idx_main_v15 i p) d)) = ix2 (i 1) d := by
  funext a; match a with | ⟨0, _⟩ => rfl | ⟨1, _⟩ => rfl

/-- The point coordinate the element `(b, n, p, d)` of the broadcast reads is `(b, p, d)`. -/
theorem idx_x (i : S64x128.Idx) (p : Fin 2048) (d : Fin 2) :
    idx_main_v1 (idx_main_v3 (idx_main_v9 (idx_main_v15 i p) d)) = ix3 (i 0) p d := by
  funext a; match a with | ⟨0, _⟩ => rfl | ⟨1, _⟩ => rfl | ⟨2, _⟩ => rfl

/-- The mask entry the element `(b, n, p)` of the broadcast reads is `(b, p)`. -/
theorem idx_msk (i : S64x128.Idx) (p : Fin 2048) :
    idx_main_v12 (idx_main_v13 (idx_main_v15 i p)) = ix2 (i 0) p := by
  funext a; match a with | ⟨0, _⟩ => rfl | ⟨1, _⟩ => rfl

/-- One term of the inner sum: `shp · (cen − x) · (cen − x)` at the entries above. -/
theorem v8_apply (x0 : (⟨S64x2048x2, .f32⟩ : BufTy).Contents (Elt Ideal))
    (x2 x3 : (⟨S128x2, .f32⟩ : BufTy).Contents (Elt Ideal)) (i : S64x128.Idx) (p : Fin 2048) (d : Fin 2) :
    val_main_v8 (F := Ideal) x0 x2 x3 (idx_main_v9 (idx_main_v15 i p) d)
      = x3 (ix2 (i 1) d) * (x2 (ix2 (i 1) d) - x0 (ix3 (i 0) p d)) * (x2 (ix2 (i 1) d) - x0 (ix3 (i 0) p d)) := by
  rw [val_main_v8_apply, val_main_v7_apply, val_main_v4_apply, val_main_v6_apply, val_main_v5_apply,
    val_main_v2_apply, val_main_v0_apply, val_main_v3_apply, val_main_v1_apply, idx_cen, idx_shp, idx_x]
  rfl

/-- The reference's weighted squared distance is `dist`. -/
theorem v9_apply (x0 : (⟨S64x2048x2, .f32⟩ : BufTy).Contents (Elt Ideal))
    (x2 x3 : (⟨S128x2, .f32⟩ : BufTy).Contents (Elt Ideal)) (i : S64x128.Idx) (p : Fin 2048) :
    val_main_v9 (F := Ideal) x0 x2 x3 (idx_main_v15 i p) = dist x0 x2 x3 (i 0) (i 1) p := by
  rw [val_main_v9_apply]
  unfold dist
  refine congrArg₂ (· + ·) rfl (Finset.sum_congr rfl fun d _ => ?_)
  exact v8_apply x0 x2 x3 i p d

/-- The reference computes `pool`. -/
theorem ref_eq_pool (x0 : (⟨S64x2048x2, .f32⟩ : BufTy).Contents (Elt Ideal))
    (x1 : (⟨S64x2048, .f32⟩ : BufTy).Contents (Elt Ideal))
    (x2 x3 : (⟨S128x2, .f32⟩ : BufTy).Contents (Elt Ideal)) :
    val_main_v15 (F := Ideal) x0 x1 x2 x3 = pool x0 x1 x2 x3 := by
  funext i
  rw [val_main_v15_apply]
  unfold pool
  refine congrArg₂ (· + ·) rfl (Finset.sum_congr rfl fun p _ => ?_)
  rw [val_main_v14_apply, val_main_v11_apply, val_main_v10_apply, v9_apply, val_main_v13_apply,
    val_main_v12_apply, idx_msk]
  rfl

/-- The same fact for the composed term the reference's run leaves in the result buffer. -/
theorem run_term_eq_pool (x0 : (⟨S64x2048x2, .f32⟩ : BufTy).Contents (Elt Ideal))
    (x1 : (⟨S64x2048, .f32⟩ : BufTy).Contents (Elt Ideal))
    (x2 x3 : (⟨S128x2, .f32⟩ : BufTy).Contents (Elt Ideal)) :
    Host.reduceAdd (F := Ideal) (mulf (Host.exp (Host.negf (Host.reduceAdd (mulf (mulf (broadcastInDim S64x128x2048x2 ![0, 1, 2, 3] bcast_S1x128x1x2_S64x128x2048x2_0_1_2_3 (broadcastInDim S1x128x1x2 ![1, 3] bcast_S128x2_S1x128x1x2_1_3 (x3))) (subf (broadcastInDim S64x128x2048x2 ![0, 1, 2, 3] bcast_S1x128x1x2_S64x128x2048x2_0_1_2_3 (broadcastInDim S1x128x1x2 ![1, 3] bcast_S128x2_S1x128x1x2_1_3 (x2))) (broadcastInDim S64x128x2048x2 ![0, 1, 2, 3] bcast_S64x1x2048x2_S64x128x2048x2_0_1_2_3 (broadcastInDim S64x1x2048x2 ![0, 2, 3] bcast_S64x2048x2_S64x1x2048x2_0_2_3 (x0))))) (subf (broadcastInDim S64x128x2048x2 ![0, 1, 2, 3] bcast_S1x128x1x2_S64x128x2048x2_0_1_2_3 (broadcastInDim S1x128x1x2 ![1, 3] bcast_S128x2_S1x128x1x2_1_3 (x2))) (broadcastInDim S64x128x2048x2 ![0, 1, 2, 3] bcast_S64x1x2048x2_S64x128x2048x2_0_1_2_3 (broadcastInDim S64x1x2048x2 ![0, 2, 3] bcast_S64x2048x2_S64x1x2048x2_0_2_3 (x0))))) (constant S_ .f32 0x00000000#32) reducesTo_S64x128x2048x2_S64x128x2048_d3 h_S_))) (broadcastInDim S64x128x2048 ![0, 1, 2] bcast_S64x1x2048_S64x128x2048_0_1_2 (broadcastInDim S64x1x2048 ![0, 2] bcast_S64x2048_S64x1x2048_0_2 (x1)))) (constant S_ .f32 0x00000000#32) reducesTo_S64x128x2048_S64x128_d2 h_S_
      = pool x0 x1 x2 x3 :=
  (val_main_v15_eq (F := Ideal) x0 x1 x2 x3).trans (ref_eq_pool x0 x1 x2 x3)

end Cert.RbfPool.Ref

end
-- ==== Proof.LibRealEntries.lean ====
/-
  Extended reals that are real numbers, and two laws of sums over them.

  On the extended reals x - x = 0 holds for a real x and fails at the infinities, so an evaluation that splits a
  number into a high part and a low part spelt x - x agrees with the plain one only on reals.
  * `IsReal x`: x is (the image of) a real number; kept by 0, +, ·, finite sums and contractions; `IsReal.sub_self`.
  * `split3_sum`: the three-term split contraction hi(a)·hi(b) + hi(a)·lo(b) + lo(a)·hi(b), lo(x) = x - x, over any
    finite index type, is the plain contraction ∑ a·b when all entries are reals (a product with zero is zero on all
    extended reals, a sum of zeros is zero).
  * `sum_four_runs`: a sum over 4096 positions is zero plus its four consecutive runs of 1024, added in order, in any
    commutative additive monoid (`sum_range_four_runs`: the same over the naturals below 4096).
  * `top_word`, `real_of_abs_lt_top`: the f32 word 0x7F800000 denotes +inf, and max x (-x) < +inf (the comparison a
    finiteness precondition prints, as a one-bit word equal to 1) makes x a real.
-/
import Idealize.ShloMosaic.PureOps.Ideal

noncomputable section

open scoped BigOperators

namespace Cert.RealEntries

open Idealize.ShloMosaic

/-! ## Real entries -/

/-- An extended real that is a real number. -/
def IsReal (x : EReal) : Prop := ∃ r : ℝ, x = (r : EReal)

theorem IsReal.zero : IsReal 0 := ⟨0, EReal.coe_zero.symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

/-- For a real x, x - x = 0 (on the extended reals this fails at the infinities). -/
theorem IsReal.sub_self {x : EReal} (hx : IsReal x) : x - x = 0 := by
  obtain ⟨a, rfl⟩ := hx
  rw [← EReal.coe_sub, _root_.sub_self, EReal.coe_zero]

theorem IsReal.sum {ι : Type*} (s : Finset ι) (f : ι → EReal) (h : ∀ k ∈ s, IsReal (f k)) : IsReal (∑ k ∈ s, f k) := by
  classical
  revert h
  refine Finset.induction_on s ?_ ?_
  · intro _; rw [Finset.sum_empty]; exact IsReal.zero
  · intro a s ha ih h
    rw [Finset.sum_insert ha]
    exact (h a (Finset.mem_insert_self a s)).add (ih fun k hk => h k (Finset.mem_insert_of_mem hk))

/-- A contraction of two families of reals is a real. -/
theorem IsReal.dot {K : Type*} [Fintype K] (a b : K → EReal) (ha : ∀ k, IsReal (a k)) (hb : ∀ k, IsReal (b k)) :
    IsReal (∑ k, a k * b k) :=
  IsReal.sum _ _ fun k _ => (ha k).mul (hb k)

/-! ## The split product collapses on reals -/

/-- hi(a)·hi(b) + hi(a)·lo(b) + lo(a)·hi(b) with lo(x) = x - x is the plain contraction when all entries are reals. -/
theorem split3_sum {K : Type*} [Fintype K] (a b : K → EReal) (ha : ∀ k, IsReal (a k)) (hb : ∀ k, IsReal (b k)) :
    (∑ k, a k * b k + ∑ k, a k * (b k - b k)) + ∑ k, (a k - a k) * b k = ∑ k, a k * b k := by
  have ea : ∀ k, a k - a k = 0 := fun k => (ha k).sub_self
  have eb : ∀ k, b k - b k = 0 := fun k => (hb k).sub_self
  simp only [ea, eb, mul_zero, zero_mul, Finset.sum_const_zero, add_zero]

/-! ## Four runs -/

/-- A sum over the first 4096 naturals, cut into its four runs of 1024. -/
theorem sum_range_four_runs {M : Type*} [AddCommMonoid M] (f : ℕ → M) :
    ∑ t ∈ Finset.range 4096, f t
      = ((∑ j ∈ Finset.range 1024, f j + ∑ j ∈ Finset.range 1024, f (1024 + j))
          + ∑ j ∈ Finset.range 1024, f (2048 + j)) + ∑ j ∈ Finset.range 1024, f (3072 + j) := by
  rw [show (4096 : ℕ) = 1024 + 1024 + 1024 + 1024 from rfl, Finset.sum_range_add, Finset.sum_range_add,
    Finset.sum_range_add]

/-- A sum over 4096 positions is zero plus its four consecutive runs of 1024 positions, added in order. -/
theorem sum_four_runs {M : Type*} [AddCommMonoid M] (f : Fin 4096 → M) :
    ∑ t, f t = ((((0 : M) + ∑ j : Fin 1024, f ⟨0 + j.val, by omega⟩) + ∑ j : Fin 1024, f ⟨1024 + j.val, by omega⟩)
        + ∑ j : Fin 1024, f ⟨2048 + j.val, by omega⟩) + ∑ j : Fin 1024, f ⟨3072 + j.val, by omega⟩ := by
  let g : ℕ → M := fun n => if h : n < 4096 then f ⟨n, h⟩ else 0
  have hg : ∀ (o : ℕ) (j : Fin 1024) (h : o + j.val < 4096), f ⟨o + j.val, h⟩ = g (o + j.val) := fun o j h => by
    show _ = dite _ _ _; rw [dif_pos h]
  have e0 : ∑ t, f t = ∑ t ∈ Finset.range 4096, g t := by
    rw [← Fin.sum_univ_eq_sum_range g 4096]
    refine Finset.sum_congr rfl fun t _ => ?_
    show _ = dite _ _ _; rw [dif_pos t.isLt]
  have er : ∀ (o : ℕ) (ho : o + 1024 ≤ 4096),
      ∑ j : Fin 1024, f ⟨o + j.val, by omega⟩ = ∑ j ∈ Finset.range 1024, g (o + j) := fun o ho => by
    rw [← Fin.sum_univ_eq_sum_range (fun n => g (o + n)) 1024]
    exact Finset.sum_congr rfl fun j _ => hg o j (by omega)
  rw [e0, sum_range_four_runs g, er 0 (by omega), er 1024 (by omega), er 2048 (by omega), er 3072 (by omega), zero_add]
  simp only [Nat.zero_add]

/-! ## The finiteness test -/

/-- The f32 word 0x7F800000 denotes +inf. -/
theorem top_word : Ideal.ofBits .f32 0x7F800000#32 = ⊤ := by simp [Ideal.ofBits, Ideal.ieee]

/-- |x| < +inf makes x a real. -/
theorem real_of_abs_lt_top (x : EReal) (h : Ideal.cmp .olt (max x (-x)) ⊤ = 1#1) : IsReal x := by
  induction x using EReal.rec
  · exfalso; revert h; simp [Ideal.cmp]
  · exact ⟨_, rfl⟩
  · exfalso; revert h; simp [Ideal.cmp]

end Cert.RealEntries

end
-- ==== Proof.FiniteArgs.lean ====
/-
  From the finiteness precondition to real entries.

  The precondition is the conjunction, over the four argument arrays, of "every entry `a` has `|a| < +∞`", each
  printed as a reduction by `and` of the one-bit comparisons `max a (−a) < w`, `w` the word of `+∞`, and stated to be
  the word 1.  A conjunction of one-bit words is 1 exactly when both are; a reduction by `and` over all axes that is 1
  met a 1 at every entry; and `max a (−a) < +∞` excludes `a = +∞` and `a = −∞`, which leaves the real numbers.
-/
import proofs.«165950_j2362232012851_2_alg».proof.Defs
import proofs.«165950_j2362232012851_2_alg».proof.Proof.Gen.Pre_finite_inputs
import proofs.«165950_j2362232012851_2_alg».proof.Proof.LibRealEntries
import Idealize.ShloMosaic.Lib.ReduceAll
import Idealize.ShloMosaic.Lib.ValueIdx

noncomputable section

namespace Cert.RbfPool.Finite

open Idealize.ShloMosaic Idealize.ShloMosaic.ValueIdx Cert.RealEntries Idealize.SL.Sem

instance : Subsingleton Cert.Pre_finite_inputs.S_.Idx := ⟨fun a b => funext fun d => d.elim0⟩

/-- One array: if the conjunction over all entries of `|a| < +∞` is the word 1, every entry is a real number. -/
theorem real_of_all {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi (cmpf .olt (Host.absf a)
          (broadcastInDim s ![] hb (constant Cert.Pre_finite_inputs.S_ .f32 0x7F800000#32)))
          (constantI Cert.Pre_finite_inputs.S_ 1 1#1) hr hu ix0 = 1#1) (i : s.Idx) :
    ∃ r : ℝ, a i = (r : EReal) := by
  have h := Host.reduce_andi_all _ _ hr hu ix0 e i
  exact real_of_abs_lt_top (a i) (by rw [← top_word]; exact h)

attribute [local instance] Cert.Pre_finite_inputs.Gen.facts

/-- Under the precondition all four argument arrays have real entries, on every device. -/
theorem real_args (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m)
    (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal))
    ∧ (∀ i, ∃ r : ℝ, m ((c.tc : Thread Cert.KernelIdeal.nD Cert.KernelIdeal.τ).loc Cert.KernelIdeal.main_arg3) i = (r : EReal)) := by
  have h0 := congrFun (h c) ix0
  dsimp only [Cert.Pre_finite_inputs.fn, Cert.Pre_finite_inputs.fn_part1, andi] at h0
  obtain ⟨h012, h3⟩ := IntOp.andi_eq_one.1 h0
  obtain ⟨h01, h2⟩ := IntOp.andi_eq_one.1 h012
  obtain ⟨h0', h1⟩ := IntOp.andi_eq_one.1 h01
  exact ⟨real_of_all _ _ _ _ h0', real_of_all _ _ _ _ h1, real_of_all _ _ _ _ h2, real_of_all _ _ _ _ h3⟩

end Cert.RbfPool.Finite

end
-- ==== Proof.lean ====
/-
  The proof of `Cert.Claim`: the pooling kernel against its reference.

  Both programs compute, for point clouds x : [64, 2048, 2], masks μ : [64, 2048], centres c and sharpness s : [128, 2],
      pool (b, n) = ∑ p, exp (− ∑ d, s (n,d) · (c (n,d) − x (b,p,d))²) · μ (b, p).
  The reference does so directly. The kernel lays out on the host, per point, the features (x₀, x₁, x₀², x₁², 1, 0, 0, 0)
  and, per centre, the weights (2s₀c₀, 2s₁c₁, −s₀, −s₁, −(s₀c₀² + s₁c₁²), 0, 0, 0), whose product is the exponent
  above once the squares are expanded — an identity of real numbers, which is where the precondition (finite inputs)
  is used — and accumulates the masked exponentials over sixteen blocks of 128 points in a scratch block, copying it
  out at the last block. The three frames: the two kernels' from the body obligation at every grid point
  (Proof/WordFrame, Proof/IdealFrame), the reference's from its run. The idealization rewrote nothing, so
  `preserves` is trivial. `algebraic`: the kernel's output array read off its frame run (Proof/IdealValue), the
  reference's run read one operation at a time (Proof/RefPool), both equal to the one specification (Proof/PoolSpec).
-/
import proofs.«165950_j2362232012851_2_alg».proof.Defs
import proofs.«165950_j2362232012851_2_alg».proof.Proof.Gen.Kernel
import proofs.«165950_j2362232012851_2_alg».proof.Proof.Gen.KernelIdeal
import proofs.«165950_j2362232012851_2_alg».proof.Proof.Gen.ReferenceIdeal
import proofs.«165950_j2362232012851_2_alg».proof.Proof.Gen.Pre_finite_inputs
import proofs.«165950_j2362232012851_2_alg».proof.Proof.WordFrame.Oblig
import proofs.«165950_j2362232012851_2_alg».proof.Proof.IdealFrame.Oblig
import proofs.«165950_j2362232012851_2_alg».proof.Proof.IdealValue.Bridge
import proofs.«165950_j2362232012851_2_alg».proof.Proof.RefImports
import proofs.«165950_j2362232012851_2_alg».proof.Proof.RefPool
import proofs.«165950_j2362232012851_2_alg».proof.Proof.FiniteArgs
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Frame.frame m ρ

theorem frame_ki : Cert.frame_KernelIdeal (hKernelIdeal := Cert.KernelIdeal.Gen.facts) (hPre_finite_inputs := Cert.Pre_finite_inputs.Gen.facts) :=
  fun m ρ _ => Cert.KernelIdeal.Frame.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem preserves : Cert.preserves_Kernel_KernelIdeal := trivial

/-- Both runs end at the pooled features of the (agreeing, finite) arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.RbfPool.pool (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · refine (θ_run Cert.KernelIdeal.defs _ _).mono (fun _ h c => ⟨(h c).1.trans ?_, (h c).2⟩)
      (Cert.KernelIdeal.PoolValue.run_value m ρ)
    obtain ⟨hx, -, hc, hs⟩ := Cert.RbfPool.Finite.real_args m hpre c
    exact Cert.KernelIdeal.PoolValue.pooled_eq_pool m c hx hc hs
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2]
    exact Cert.RbfPool.Ref.run_term_eq_pool _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
